-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S100000x64 : Shape := ⟨2, ![100000, 64]⟩
abbrev S3x64x64 : Shape := ⟨3, ![3, 64, 64]⟩
abbrev S3x64 : Shape := ⟨2, ![3, 64]⟩
abbrev S2000000 : Shape := ⟨1, ![2000000]⟩
abbrev S8192 : Shape := ⟨1, ![8192]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg4 : FVec F S3x64x64 .f32) (main_arg5 : FVec F S3x64 .f32) (main_arg6 : FVec F S2000000 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64x64 .f32 := Host.absf main_arg4
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg5
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S2000000 .f32 := Host.absf main_arg6
  let main_cst_10 : FVec F S_ .f32 := constant S_ .f32 0x7F800000#32
  let main_v30 : FVec F S2000000 .f32 := broadcastInDim S2000000 ![] bcast_S_S2000000 main_cst_10
  let main_v31 : IVec S2000000 1 := cmpf .olt main_v29 main_v30
  let main_c_11 : IVec S_ 1 := constantI S_ 1 1#1
  let main_v32 : IVec S_ 1 := (fun x v => Host.reduce IntOp.andi x v reducesTo_S2000000_S_d0 h_S_) main_v31 main_c_11
  let main_v33 : IVec S_ 1 := andi main_v28 main_v32
  main_v33

def fn {F : FTy → Type} [FloatOps F] (main_arg0 : FVec F S50000x64 .f32) (main_arg1 : FVec F S100000x64 .f32) (main_arg2 : FVec F S3x64x64 .f32) (main_arg3 : FVec F S3x64 .f32) (main_arg4 : FVec F S3x64x64 .f32) (main_arg5 : FVec F S3x64 .f32) (main_arg6 : FVec F S2000000 .f32) (main_arg7 : IVec S2000000 32) (main_arg8 : IVec S2000000 32) (main_arg9 : IVec S8192 32) (main_arg10 : IVec S8192 32) (main_arg11 : IVec S8192 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S3x64x64 .f32 := Host.absf main_arg2
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg3
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg4 main_arg5 main_arg6 main_v13 main_v16
-- ==== Kernel.lean ====
abbrev S50000x64 : Shape := ⟨2, ![50000, 64]⟩
abbrev S100000x64 : Shape := ⟨2, ![100000, 64]⟩
abbrev S3x64x64 : Shape := ⟨3, ![3, 64, 64]⟩
abbrev S3x64 : Shape := ⟨2, ![3, 64]⟩
abbrev S2000000 : Shape := ⟨1, ![2000000]⟩
abbrev S8192 : Shape := ⟨1, ![8192]⟩
abbrev S150000x64 : Shape := ⟨2, ![150000, 64]⟩
abbrev S3x1x64 : Shape := ⟨3, ![3, 1, 64]⟩
abbrev S2000000x1 : Shape := ⟨2, ![2000000, 1]⟩
abbrev S_ : Shape := ⟨0, ![]⟩
abbrev S2000000x64 : Shape := ⟨2, ![2000000, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S6000x64 : Shape := ⟨2, ![6000, 64]⟩
abbrev S6000 : Shape := ⟨1, ![6000]⟩
abbrev S6000x1 : Shape := ⟨2, ![6000, 1]⟩
abbrev S150000x256 : Shape := ⟨2, ![150000, 256]⟩
abbrev S50000x256 : Shape := ⟨2, ![50000, 256]⟩
abbrev S100000x256 : Shape := ⟨2, ![100000, 256]⟩
abbrev S8192x1 : Shape := ⟨2, ![8192, 1]⟩
abbrev S8192x256 : Shape := ⟨2, ![8192, 256]⟩
abbrev S2048x256 : Shape := ⟨2, ![2048, 256]⟩
abbrev S2048x1 : Shape := ⟨2, ![2048, 1]⟩
abbrev S2048 : Shape := ⟨1, ![2048]⟩

abbrev nBuf : Space → Nat
  | .hbm => 131
  | .vmem => 44
  | .smem => 0
  | _ => 0

abbrev hbmTy0_0 (i : Nat) : BufTy := match i % 128 with
  | 0 => ⟨S50000x64, .f32⟩
  | 1 => ⟨S100000x64, .f32⟩
  | 2 => ⟨S3x64x64, .f32⟩
  | 3 => ⟨S3x64, .f32⟩
  | 4 => ⟨S3x64x64, .f32⟩
  | 5 => ⟨S3x64, .f32⟩
  | 6 => ⟨S2000000, .f32⟩
  | 7 => ⟨S2000000, .i32⟩
  | 8 => ⟨S2000000, .i32⟩
  | 9 => ⟨S8192, .i32⟩
  | 10 => ⟨S8192, .i32⟩
  | 11 => ⟨S8192, .i32⟩
  | 12 => ⟨S150000x64, .f32⟩
  | 13 => ⟨S3x64x64, .f32⟩
  | 14 => ⟨S3x64x64, .f32⟩
  | 15 => ⟨S3x1x64, .f32⟩
  | 16 => ⟨S3x1x64, .f32⟩
  | 17 => ⟨S2000000x1, .f32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S2000000x1, .i32⟩
  | 26 => ⟨S2000000x64, .f32⟩
  | 27 => ⟨S2000000x64, .f32⟩
  | 28 => ⟨S2000000x64, .f32⟩
  | 29 => ⟨S_, .f32⟩
  | 30 => ⟨S150000x64, .f32⟩
  | 31 => ⟨S2000000x1, .i32⟩
  | 32 => ⟨S150000x64, .f32⟩
  | 33 => ⟨S1x64x64, .f32⟩
  | 34 => ⟨S64x64, .f32⟩
  | 35 => ⟨S1x1x64, .f32⟩
  | 36 => ⟨S1x64, .f32⟩
  | 37 => ⟨S1x64x64, .f32⟩
  | 38 => ⟨S64x64, .f32⟩
  | 39 => ⟨S1x1x64, .f32⟩
  | 40 => ⟨S1x64, .f32⟩
  | 41 => ⟨S150000x64, .f32⟩
  | 42 => ⟨S150000x64, .f32⟩
  | 43 => ⟨S2000000x1, .f32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S2000000x1, .i32⟩
  | 52 => ⟨S2000000x64, .f32⟩
  | 53 => ⟨S2000000x64, .f32⟩
  | 54 => ⟨S2000000x64, .f32⟩
  | 55 => ⟨S_, .f32⟩
  | 56 => ⟨S150000x64, .f32⟩
  | 57 => ⟨S2000000x1, .i32⟩
  | 58 => ⟨S150000x64, .f32⟩
  | 59 => ⟨S1x64x64, .f32⟩
  | 60 => ⟨S64x64, .f32⟩
  | 61 => ⟨S1x1x64, .f32⟩
  | 62 => ⟨S1x64, .f32⟩
  | 63 => ⟨S1x64x64, .f32⟩
  | 64 => ⟨S64x64, .f32⟩
  | 65 => ⟨S1x1x64, .f32⟩
  | 66 => ⟨S1x64, .f32⟩
  | 67 => ⟨S150000x64, .f32⟩
  | 68 => ⟨S150000x64, .f32⟩
  | 69 => ⟨S2000000x1, .f32⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S2000000x1, .i32⟩
  | 78 => ⟨S2000000x64, .f32⟩
  | 79 => ⟨S2000000x64, .f32⟩
  | 80 => ⟨S2000000x64, .f32⟩
  | 81 => ⟨S_, .f32⟩
  | 82 => ⟨S150000x64, .f32⟩
  | 83 => ⟨S2000000x1, .i32⟩
  | 84 => ⟨S150000x64, .f32⟩
  | 85 => ⟨S1x64x64, .f32⟩
  | 86 => ⟨S64x64, .f32⟩
  | 87 => ⟨S1x1x64, .f32⟩
  | 88 => ⟨S1x64, .f32⟩
  | 89 => ⟨S1x64x64, .f32⟩
  | 90 => ⟨S64x64, .f32⟩
  | 91 => ⟨S1x1x64, .f32⟩
  | 92 => ⟨S1x64, .f32⟩
  | 93 => ⟨S150000x64, .f32⟩
  | 94 => ⟨S150000x64, .f32⟩
  | 95 => ⟨S150000x256, .f32⟩
  | 96 => ⟨S50000x256, .f32⟩
  | 97 => ⟨S100000x256, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x256, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x256, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S8192x256, .f32⟩
  | 125 => ⟨S8192x1, .f32⟩
  | 126 => ⟨S_, .f32⟩
  | 127 => ⟨S_, .f32⟩
  | _ => ⟨S50000x64, .f32⟩

abbrev hbmTy0_1 (i : Nat) : BufTy := match i % 128 with
  | 0 => ⟨S_, .f32⟩
  | 1 => ⟨S_, .f32⟩
  | 2 => ⟨S_, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S6000x64, .f32⟩
  | .local _ .vmem, ⟨1, _⟩ => ⟨S6000x64, .f32⟩
  | .local _ .vmem, ⟨2, _⟩ => ⟨S6000x64, .f32⟩
  | .local _ .vmem, ⟨3, _⟩ => ⟨S6000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S6000x64, .f32⟩
  | .local _ .vmem, ⟨9, _⟩ => ⟨S6000x64, .f32⟩
  | .local _ .vmem, ⟨10, _⟩ => ⟨S6000x64, .f32⟩
  | .local _ .vmem, ⟨11, _⟩ => ⟨S6000x64, .f32⟩
  | .local _ .vmem, ⟨12, _⟩ => ⟨S6000x64, .f32⟩
  | .local _ .vmem, ⟨13, _⟩ => ⟨S6000x64, .f32⟩
  | .local _ .vmem, ⟨14, _⟩ => ⟨S6000x64, .f32⟩
  | .local _ .vmem, ⟨15, _⟩ => ⟨S6000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S6000x64, .f32⟩
  | .local _ .vmem, ⟨21, _⟩ => ⟨S6000x64, .f32⟩
  | .local _ .vmem, ⟨22, _⟩ => ⟨S6000x64, .f32⟩
  | .local _ .vmem, ⟨23, _⟩ => ⟨S6000x64, .f32⟩
  | .local _ .vmem, ⟨24, _⟩ => ⟨S6000x64, .f32⟩
  | .local _ .vmem, ⟨25, _⟩ => ⟨S6000x64, .f32⟩
  | .local _ .vmem, ⟨26, _⟩ => ⟨S6000x64, .f32⟩
  | .local _ .vmem, ⟨27, _⟩ => ⟨S6000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S6000x64, .f32⟩
  | .local _ .vmem, ⟨33, _⟩ => ⟨S6000x64, .f32⟩
  | .local _ .vmem, ⟨34, _⟩ => ⟨S6000x64, .f32⟩
  | .local _ .vmem, ⟨35, _⟩ => ⟨S6000x64, .f32⟩
  | .local _ .vmem, ⟨36, _⟩ => ⟨S2048x256, .f32⟩
  | .local _ .vmem, ⟨37, _⟩ => ⟨S2048x256, .f32⟩
  | .local _ .vmem, ⟨38, _⟩ => ⟨S2048x256, .f32⟩
  | .local _ .vmem, ⟨39, _⟩ => ⟨S2048x256, .f32⟩
  | .local _ .vmem, ⟨40, _⟩ => ⟨S2048x256, .f32⟩
  | .local _ .vmem, ⟨41, _⟩ => ⟨S2048x256, .f32⟩
  | .local _ .vmem, ⟨42, _⟩ => ⟨S2048x1, .f32⟩
  | .local _ .vmem, ⟨43, _⟩ => ⟨S2048x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v27 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_c_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48_0 : Ref sig .tc := ⟨.hbm, 67, rfl⟩
abbrev main_v48_1 : Ref sig .tc := ⟨.hbm, 68, rfl⟩
abbrev main_v49 : Ref sig .tc := ⟨.hbm, 69, rfl⟩
abbrev main_c_4 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70_0 : Ref sig .tc := ⟨.hbm, 93, rfl⟩
abbrev main_v70_1 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_7 : Ref sig .tc := ⟨.hbm, 98, rfl⟩
abbrev main_v74 : Ref sig .tc := ⟨.hbm, 99, rfl⟩
abbrev main_v75 : Ref sig .tc := ⟨.hbm, 100, rfl⟩
abbrev main_c_8 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_9 : Ref sig .tc := ⟨.hbm, 107, rfl⟩
abbrev main_v81 : Ref sig .tc := ⟨.hbm, 108, rfl⟩
abbrev main_v82 : Ref sig .tc := ⟨.hbm, 109, rfl⟩
abbrev main_c_10 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_11 : Ref sig .tc := ⟨.hbm, 116, rfl⟩
abbrev main_v88 : Ref sig .tc := ⟨.hbm, 117, rfl⟩
abbrev main_v89 : Ref sig .tc := ⟨.hbm, 118, rfl⟩
abbrev main_c_12 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_13 : Ref sig .tc := ⟨.hbm, 126, rfl⟩
abbrev main_v96 : Ref sig .tc := ⟨.hbm, 127, rfl⟩
abbrev main_cst_14 : Ref sig .tc := ⟨.hbm, 128, rfl⟩
abbrev main_v97 : Ref sig .tc := ⟨.hbm, 129, rfl⟩
abbrev main_v98 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S6000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S6000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S6000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S6000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2048x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  concatenates_S50000x64_S100000x64_S150000x64_d0 : Shape.Concatenates [S50000x64, S100000x64] S150000x64 0
  transposes_S3x64x64_S3x64x64_0_2_1 : S3x64x64.Transposes [0, 2, 1] S3x64x64
  shapeCasts_S3x64_S3x1x64 : S3x64.ShapeCasts S3x1x64
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  slices_S3x1x64_S1x1x64_0_0_0 : S3x1x64.Slices ![0, 0, 0] S1x1x64
  shapeCasts_S1x1x64_S1x64 : S1x1x64.ShapeCasts S1x64
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S6000x64 : S1x64.Broadcasts S6000x64
  reduces_S6000x64_S6000 : S6000x64.Reduces [1] S6000
  shapeCasts_S6000_S6000x1 : S6000.ShapeCasts S6000x1
  broadcasts_S6000x1_S6000x64 : S6000x1.Broadcasts S6000x64
  slices_S3x64x64_S1x64x64_1_0_0 : S3x64x64.Slices ![1, 0, 0] S1x64x64
  slices_S3x1x64_S1x1x64_1_0_0 : S3x1x64.Slices ![1, 0, 0] S1x1x64
  slices_S3x64x64_S1x64x64_2_0_0 : S3x64x64.Slices ![2, 0, 0] S1x64x64
  slices_S3x1x64_S1x1x64_2_0_0 : S3x1x64.Slices ![2, 0, 0] S1x1x64
  concatenates_S150000x64_S150000x64_S150000x64_S150000x64_S150000x256_d1 : Shape.Concatenates [S150000x64, S150000x64, S150000x64, S150000x64] S150000x256 1
  slices_S150000x256_S50000x256_0_0 : S150000x256.Slices ![0, 0] S50000x256
  slices_S150000x256_S100000x256_50000_0 : S150000x256.Slices ![50000, 0] S100000x256
  bcast_S_S8192 : S_.BroadcastsInDim S8192 (![] : Fin 0 → Fin S8192.rank)
  bcast_S8192_S8192x1_0 : S8192.BroadcastsInDim S8192x1 (![0] : Fin 1 → Fin S8192x1.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  reducesTo_S8192x1_S_d0_1 : S8192x1.ReducesTo [0, 1] S_
  h_S_ : 0 < S_.numel
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  dot_S6000x64_S64x64_S6000x64_1_0_0_1_n_n_wf : DotDims.WF S6000x64 S64x64 S6000x64 [1] [0] [0] [1] [] []
  gather_S50000x256_S8192x1_S8192x256_1_0_n_n_0_1_1256_wf : GatherDims.WF S50000x256 S8192x1 S8192x256 [1] [0] [] [0] [] 1 ![1, 256]
  gather_S100000x256_S8192x1_S8192x256_1_0_n_n_0_1_1256_wf : GatherDims.WF S100000x256 S8192x1 S8192x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x64.size a ≤ S150000x64.size a
  hwx0_0 : ∀ i : grid0.Coords, EltTy.bits .f32 = 32 ∨ (Rect.block (s := S150000x64) S6000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x64.size a ≤ S150000x64.size a
  hwx0_1 : ∀ i : grid0.Coords, EltTy.bits .f32 = 32 ∨ (Rect.block (s := S150000x64) S6000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6000x64.size a ≤ S150000x64.size a
  hwx0_6 : ∀ i : grid0.Coords, EltTy.bits .f32 = 32 ∨ (Rect.block (s := S150000x64) S6000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6000x64.size a ≤ S150000x64.size a
  hwx0_7 : ∀ i : grid0.Coords, EltTy.bits .f32 = 32 ∨ (Rect.block (s := S150000x64) S6000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S150000x64.size a
  hwx1_1 : ∀ i : grid1.Coords, EltTy.bits .f32 = 32 ∨ (Rect.block (s := S150000x64) S6000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S6000x64.size a ≤ S150000x64.size a
  hwx1_6 : ∀ i : grid1.Coords, EltTy.bits .f32 = 32 ∨ (Rect.block (s := S150000x64) S6000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6000x64.size a ≤ S150000x64.size a
  hwx1_7 : ∀ i : grid1.Coords, EltTy.bits .f32 = 32 ∨ (Rect.block (s := S150000x64) S6000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x64.size a ≤ S150000x64.size a
  hwx2_0 : ∀ i : grid2.Coords, EltTy.bits .f32 = 32 ∨ (Rect.block (s := S150000x64) S6000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x64.size a ≤ S150000x64.size a
  hwx2_1 : ∀ i : grid2.Coords, EltTy.bits .f32 = 32 ∨ (Rect.block (s := S150000x64) S6000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S6000x64.size a ≤ S150000x64.size a
  hwx2_6 : ∀ i : grid2.Coords, EltTy.bits .f32 = 32 ∨ (Rect.block (s := S150000x64) S6000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S6000x64.size a ≤ S150000x64.size a
  hwx2_7 : ∀ i : grid2.Coords, EltTy.bits .f32 = 32 ∨ (Rect.block (s := S150000x64) S6000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S8192x256.size a
  hwx3_0 : ∀ i : grid3.Coords, EltTy.bits .f32 = 32 ∨ (Rect.block (s := S8192x256) S2048x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S8192x256.size a
  hwx3_1 : ∀ i : grid3.Coords, EltTy.bits .f32 = 32 ∨ (Rect.block (s := S8192x256) S2048x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x256.size a ≤ S8192x256.size a
  hwx3_2 : ∀ i : grid3.Coords, EltTy.bits .f32 = 32 ∨ (Rect.block (s := S8192x256) S2048x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x1.size a ≤ S8192x1.size a
  hwx3_3 : ∀ i : grid3.Coords, EltTy.bits .f32 = 32 ∨ (Rect.block (s := S8192x1) S2048x1.size (cc3_transform_3 i) (hinb3_3 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def dot_S6000x64_S64x64_S6000x64_1_0_0_1_n_n : DotDims S6000x64 S64x64 S6000x64 where
  lhsContracting := [1]
  rhsContracting := [0]
  lhsNonContracting := [0]
  rhsNonContracting := [1]
  lhsBatch := []
  rhsBatch := []
  wf := dot_S6000x64_S64x64_S6000x64_1_0_0_1_n_n_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf
def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf

abbrev win0_0 : Pipeline.Window sig grid0 :=
  Pipeline.Window.ofSpec (Memref.whole main_v0) S6000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26_0) S6000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v26_1) S6000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v26_0) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48_0) S6000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v48_1) S6000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v48_0) S6000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S6000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v70_0) S6000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v70_1) S6000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v80) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v94) S2048x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v95) S2048x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S100000x64 : Shape := ⟨2, ![100000, 64]⟩
abbrev S3x64x64 : Shape := ⟨3, ![3, 64, 64]⟩
abbrev S3x64 : Shape := ⟨2, ![3, 64]⟩
abbrev S2000000 : Shape := ⟨1, ![2000000]⟩
abbrev S8192 : Shape := ⟨1, ![8192]⟩
abbrev S150000x64 : Shape := ⟨2, ![150000, 64]⟩
abbrev S2000000x1 : Shape := ⟨2, ![2000000, 1]⟩
abbrev S_ : Shape := ⟨0, ![]⟩
abbrev S2000000x64 : Shape := ⟨2, ![2000000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S150000 : Shape := ⟨1, ![150000]⟩
abbrev S150000x1 : Shape := ⟨2, ![150000, 1]⟩
abbrev S150000x256 : Shape := ⟨2, ![150000, 256]⟩
abbrev S50000x256 : Shape := ⟨2, ![50000, 256]⟩
abbrev S100000x256 : Shape := ⟨2, ![100000, 256]⟩
abbrev S8192x1 : Shape := ⟨2, ![8192, 1]⟩
abbrev S8192x256 : Shape := ⟨2, ![8192, 256]⟩

abbrev nBuf : Space → Nat
  | .hbm => 233
  | .vmem => 0
  | .smem => 0
  | _ => 0

abbrev hbmTy0_0 (i : Nat) : BufTy := match i % 128 with
  | 0 => ⟨S50000x64, .f32⟩
  | 1 => ⟨S100000x64, .f32⟩
  | 2 => ⟨S3x64x64, .f32⟩
  | 3 => ⟨S3x64, .f32⟩
  | 4 => ⟨S3x64x64, .f32⟩
  | 5 => ⟨S3x64, .f32⟩
  | 6 => ⟨S2000000, .f32⟩
  | 7 => ⟨S2000000, .i32⟩
  | 8 => ⟨S2000000, .i32⟩
  | 9 => ⟨S8192, .i32⟩
  | 10 => ⟨S8192, .i32⟩
  | 11 => ⟨S8192, .i32⟩
  | 12 => ⟨S150000x64, .f32⟩
  | 13 => ⟨S2000000x1, .f32⟩
  | 14 => ⟨S_, .i32⟩
  | 15 => ⟨S2000000, .i32⟩
  | 16 => ⟨S2000000, .i1⟩
  | 17 => ⟨S_, .i32⟩
  | 18 => ⟨S2000000, .i32⟩
  | 19 => ⟨S2000000, .i32⟩
  | 20 => ⟨S2000000, .i32⟩
  | 21 => ⟨S2000000x1, .i32⟩
  | 22 => ⟨S2000000x64, .f32⟩
  | 23 => ⟨S2000000x64, .f32⟩
  | 24 => ⟨S2000000x64, .f32⟩
  | 25 => ⟨S_, .f32⟩
  | 26 => ⟨S150000x64, .f32⟩
  | 27 => ⟨S2000000x1, .i32⟩
  | 28 => ⟨S150000x64, .f32⟩
  | 29 => ⟨S1x64x64, .f32⟩
  | 30 => ⟨S64x64, .f32⟩
  | 31 => ⟨S64x64, .f32⟩
  | 32 => ⟨S150000x64, .f32⟩
  | 33 => ⟨S1x64, .f32⟩
  | 34 => ⟨S64, .f32⟩
  | 35 => ⟨S1x64, .f32⟩
  | 36 => ⟨S150000x64, .f32⟩
  | 37 => ⟨S150000x64, .f32⟩
  | 38 => ⟨S150000x64, .f32⟩
  | 39 => ⟨S1x64x64, .f32⟩
  | 40 => ⟨S64x64, .f32⟩
  | 41 => ⟨S64x64, .f32⟩
  | 42 => ⟨S150000x64, .f32⟩
  | 43 => ⟨S1x64, .f32⟩
  | 44 => ⟨S64, .f32⟩
  | 45 => ⟨S1x64, .f32⟩
  | 46 => ⟨S150000x64, .f32⟩
  | 47 => ⟨S150000x64, .f32⟩
  | 48 => ⟨S150000x64, .f32⟩
  | 49 => ⟨S_, .f32⟩
  | 50 => ⟨S_, .f32⟩
  | 51 => ⟨S150000x64, .f32⟩
  | 52 => ⟨S150000x64, .i1⟩
  | 53 => ⟨S_, .f32⟩
  | 54 => ⟨S150000x64, .f32⟩
  | 55 => ⟨S150000x64, .f32⟩
  | 56 => ⟨S150000x64, .f32⟩
  | 57 => ⟨S150000x64, .f32⟩
  | 58 => ⟨S_, .f32⟩
  | 59 => ⟨S150000, .f32⟩
  | 60 => ⟨S150000x1, .f32⟩
  | 61 => ⟨S150000x1, .f32⟩
  | 62 => ⟨S_, .f32⟩
  | 63 => ⟨S150000x1, .f32⟩
  | 64 => ⟨S150000x1, .f32⟩
  | 65 => ⟨S150000x64, .f32⟩
  | 66 => ⟨S150000x64, .f32⟩
  | 67 => ⟨S2000000x1, .f32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i32⟩
  | 74 => ⟨S2000000, .i32⟩
  | 75 => ⟨S2000000x1, .i32⟩
  | 76 => ⟨S2000000x64, .f32⟩
  | 77 => ⟨S2000000x64, .f32⟩
  | 78 => ⟨S2000000x64, .f32⟩
  | 79 => ⟨S_, .f32⟩
  | 80 => ⟨S150000x64, .f32⟩
  | 81 => ⟨S2000000x1, .i32⟩
  | 82 => ⟨S150000x64, .f32⟩
  | 83 => ⟨S1x64x64, .f32⟩
  | 84 => ⟨S64x64, .f32⟩
  | 85 => ⟨S64x64, .f32⟩
  | 86 => ⟨S150000x64, .f32⟩
  | 87 => ⟨S1x64, .f32⟩
  | 88 => ⟨S64, .f32⟩
  | 89 => ⟨S1x64, .f32⟩
  | 90 => ⟨S150000x64, .f32⟩
  | 91 => ⟨S150000x64, .f32⟩
  | 92 => ⟨S150000x64, .f32⟩
  | 93 => ⟨S1x64x64, .f32⟩
  | 94 => ⟨S64x64, .f32⟩
  | 95 => ⟨S64x64, .f32⟩
  | 96 => ⟨S150000x64, .f32⟩
  | 97 => ⟨S1x64, .f32⟩
  | 98 => ⟨S64, .f32⟩
  | 99 => ⟨S1x64, .f32⟩
  | 100 => ⟨S150000x64, .f32⟩
  | 101 => ⟨S150000x64, .f32⟩
  | 102 => ⟨S150000x64, .f32⟩
  | 103 => ⟨S_, .f32⟩
  | 104 => ⟨S_, .f32⟩
  | 105 => ⟨S150000x64, .f32⟩
  | 106 => ⟨S150000x64, .i1⟩
  | 107 => ⟨S_, .f32⟩
  | 108 => ⟨S150000x64, .f32⟩
  | 109 => ⟨S150000x64, .f32⟩
  | 110 => ⟨S150000x64, .f32⟩
  | 111 => ⟨S150000x64, .f32⟩
  | 112 => ⟨S_, .f32⟩
  | 113 => ⟨S150000, .f32⟩
  | 114 => ⟨S150000x1, .f32⟩
  | 115 => ⟨S150000x1, .f32⟩
  | 116 => ⟨S_, .f32⟩
  | 117 => ⟨S150000x1, .f32⟩
  | 118 => ⟨S150000x1, .f32⟩
  | 119 => ⟨S150000x64, .f32⟩
  | 120 => ⟨S150000x64, .f32⟩
  | 121 => ⟨S2000000x1, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S50000x64, .f32⟩

abbrev hbmTy0_1 (i : Nat) : BufTy := match i % 128 with
  | 0 => ⟨S2000000, .i32⟩
  | 1 => ⟨S2000000x1, .i32⟩
  | 2 => ⟨S2000000x64, .f32⟩
  | 3 => ⟨S2000000x64, .f32⟩
  | 4 => ⟨S2000000x64, .f32⟩
  | 5 => ⟨S_, .f32⟩
  | 6 => ⟨S150000x64, .f32⟩
  | 7 => ⟨S2000000x1, .i32⟩
  | 8 => ⟨S150000x64, .f32⟩
  | 9 => ⟨S1x64x64, .f32⟩
  | 10 => ⟨S64x64, .f32⟩
  | 11 => ⟨S64x64, .f32⟩
  | 12 => ⟨S150000x64, .f32⟩
  | 13 => ⟨S1x64, .f32⟩
  | 14 => ⟨S64, .f32⟩
  | 15 => ⟨S1x64, .f32⟩
  | 16 => ⟨S150000x64, .f32⟩
  | 17 => ⟨S150000x64, .f32⟩
  | 18 => ⟨S150000x64, .f32⟩
  | 19 => ⟨S1x64x64, .f32⟩
  | 20 => ⟨S64x64, .f32⟩
  | 21 => ⟨S64x64, .f32⟩
  | 22 => ⟨S150000x64, .f32⟩
  | 23 => ⟨S1x64, .f32⟩
  | 24 => ⟨S64, .f32⟩
  | 25 => ⟨S1x64, .f32⟩
  | 26 => ⟨S150000x64, .f32⟩
  | 27 => ⟨S150000x64, .f32⟩
  | 28 => ⟨S150000x64, .f32⟩
  | 29 => ⟨S_, .f32⟩
  | 30 => ⟨S_, .f32⟩
  | 31 => ⟨S150000x64, .f32⟩
  | 32 => ⟨S150000x64, .i1⟩
  | 33 => ⟨S_, .f32⟩
  | 34 => ⟨S150000x64, .f32⟩
  | 35 => ⟨S150000x64, .f32⟩
  | 36 => ⟨S150000x64, .f32⟩
  | 37 => ⟨S150000x64, .f32⟩
  | 38 => ⟨S_, .f32⟩
  | 39 => ⟨S150000, .f32⟩
  | 40 => ⟨S150000x1, .f32⟩
  | 41 => ⟨S150000x1, .f32⟩
  | 42 => ⟨S_, .f32⟩
  | 43 => ⟨S150000x1, .f32⟩
  | 44 => ⟨S150000x1, .f32⟩
  | 45 => ⟨S150000x64, .f32⟩
  | 46 => ⟨S150000x64, .f32⟩
  | 47 => ⟨S150000x256, .f32⟩
  | 48 => ⟨S50000x256, .f32⟩
  | 49 => ⟨S100000x256, .f32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x256, .f32⟩
  | 59 => ⟨S_, .i32⟩
  | 60 => ⟨S8192, .i32⟩
  | 61 => ⟨S8192, .i1⟩
  | 62 => ⟨S_, .i32⟩
  | 63 => ⟨S8192, .i32⟩
  | 64 => ⟨S8192, .i32⟩
  | 65 => ⟨S8192, .i32⟩
  | 66 => ⟨S8192x1, .i32⟩
  | 67 => ⟨S8192x256, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x256, .f32⟩
  | 77 => ⟨S8192x256, .f32⟩
  | 78 => ⟨S_, .f32⟩
  | 79 => ⟨S8192, .f32⟩
  | 80 => ⟨S8192x256, .f32⟩
  | 81 => ⟨S_, .f32⟩
  | 82 => ⟨S8192, .f32⟩
  | 83 => ⟨S8192, .f32⟩
  | 84 => ⟨S8192, .f32⟩
  | 85 => ⟨S_, .f32⟩
  | 86 => ⟨S8192, .f32⟩
  | 87 => ⟨S8192, .f32⟩
  | 88 => ⟨S8192, .f32⟩
  | 89 => ⟨S8192, .f32⟩
  | 90 => ⟨S8192, .i1⟩
  | 91 => ⟨S8192, .f32⟩
  | 92 => ⟨S8192, .f32⟩
  | 93 => ⟨S8192, .f32⟩
  | 94 => ⟨S8192, .f32⟩
  | 95 => ⟨S8192, .f32⟩
  | 96 => ⟨S8192, .f32⟩
  | 97 => ⟨S8192, .f32⟩
  | 98 => ⟨S8192, .f32⟩
  | 99 => ⟨S8192, .f32⟩
  | 100 => ⟨S_, .f32⟩
  | 101 => ⟨S_, .f32⟩
  | 102 => ⟨S_, .f32⟩
  | 103 => ⟨S_, .f32⟩
  | 104 => ⟨S_, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_call0_cst : Ref sig .tc := ⟨.hbm, 50, rfl⟩
abbrev main_call0_v0 : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_4 : Ref sig .tc := ⟨.hbm, 68, rfl⟩
abbrev main_v44 : Ref sig .tc := ⟨.hbm, 69, rfl⟩
abbrev main_v45 : Ref sig .tc := ⟨.hbm, 70, rfl⟩
abbrev main_c_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_7 : Ref sig .tc := ⟨.hbm, 103, rfl⟩
abbrev main_call1_cst : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_v76 : Ref sig .tc := ⟨.hbm, 110, rfl⟩
abbrev main_v77 : Ref sig .tc := ⟨.hbm, 111, rfl⟩
abbrev main_cst_8 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_9 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_10 : Ref sig .tc := ⟨.hbm, 122, rfl⟩
abbrev main_v86 : Ref sig .tc := ⟨.hbm, 123, rfl⟩
abbrev main_v87 : Ref sig .tc := ⟨.hbm, 124, rfl⟩
abbrev main_c_11 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_12 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_13 : Ref sig .tc := ⟨.hbm, 157, rfl⟩
abbrev main_call2_cst : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_call2_v3 : Ref sig .tc := ⟨.hbm, 162, rfl⟩
abbrev main_call2_v4 : Ref sig .tc := ⟨.hbm, 163, rfl⟩
abbrev main_v118 : Ref sig .tc := ⟨.hbm, 164, rfl⟩
abbrev main_v119 : Ref sig .tc := ⟨.hbm, 165, rfl⟩
abbrev main_cst_14 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_15 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_c_16 : Ref sig .tc := ⟨.hbm, 178, rfl⟩
abbrev main_v130 : Ref sig .tc := ⟨.hbm, 179, rfl⟩
abbrev main_v131 : Ref sig .tc := ⟨.hbm, 180, rfl⟩
abbrev main_c_17 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_c_18 : Ref sig .tc := ⟨.hbm, 187, rfl⟩
abbrev main_v137 : Ref sig .tc := ⟨.hbm, 188, rfl⟩
abbrev main_v138 : Ref sig .tc := ⟨.hbm, 189, rfl⟩
abbrev main_c_19 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_c_20 : Ref sig .tc := ⟨.hbm, 196, rfl⟩
abbrev main_v144 : Ref sig .tc := ⟨.hbm, 197, rfl⟩
abbrev main_v145 : Ref sig .tc := ⟨.hbm, 198, rfl⟩
abbrev main_c_21 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_22 : Ref sig .tc := ⟨.hbm, 206, rfl⟩
abbrev main_v152 : Ref sig .tc := ⟨.hbm, 207, rfl⟩
abbrev main_v153 : Ref sig .tc := ⟨.hbm, 208, rfl⟩
abbrev main_cst_23 : Ref sig .tc := ⟨.hbm, 209, rfl⟩
abbrev main_v154 : Ref sig .tc := ⟨.hbm, 210, rfl⟩
abbrev main_v155 : Ref sig .tc := ⟨.hbm, 211, rfl⟩
abbrev main_call3_v0 : Ref sig .tc := ⟨.hbm, 212, rfl⟩
abbrev main_call3_call0_cst : Ref sig .tc := ⟨.hbm, 213, rfl⟩
abbrev main_call3_call0_v0 : Ref sig .tc := ⟨.hbm, 214, rfl⟩
abbrev main_call3_call0_v1 : Ref sig .tc := ⟨.hbm, 215, rfl⟩
abbrev main_call3_call0_v2 : Ref sig .tc := ⟨.hbm, 216, rfl⟩
abbrev main_call3_call0_v3 : Ref sig .tc := ⟨.hbm, 217, rfl⟩
abbrev main_call3_call0_v4 : Ref sig .tc := ⟨.hbm, 218, rfl⟩
abbrev main_call3_call0_v5 : Ref sig .tc := ⟨.hbm, 219, rfl⟩
abbrev main_call3_call0_v6 : Ref sig .tc := ⟨.hbm, 220, rfl⟩
abbrev main_call3_call0_v7 : Ref sig .tc := ⟨.hbm, 221, rfl⟩
abbrev main_call3_call0_v8 : Ref sig .tc := ⟨.hbm, 222, rfl⟩
abbrev main_call3_call0_v9 : Ref sig .tc := ⟨.hbm, 223, rfl⟩
abbrev main_call3_call0_v10 : Ref sig .tc := ⟨.hbm, 224, rfl⟩
abbrev main_call3_call0_v11 : Ref sig .tc := ⟨.hbm, 225, rfl⟩
abbrev main_call3_v1 : Ref sig .tc := ⟨.hbm, 226, rfl⟩
abbrev main_v156 : Ref sig .tc := ⟨.hbm, 227, rfl⟩
abbrev main_cst_24 : Ref sig .tc := ⟨.hbm, 228, rfl⟩
abbrev main_v157 : Ref sig .tc := ⟨.hbm, 229, rfl⟩
abbrev main_cst_25 : Ref sig .tc := ⟨.hbm, 230, rfl⟩
abbrev main_v158 : Ref sig .tc := ⟨.hbm, 231, rfl⟩
abbrev main_v159 : Ref sig .tc := ⟨.hbm, 232, rfl⟩

abbrev nD : Nat := 1
abbrev τ : Topo := Topo.v7x

variable {F : FTy → Type} [FloatOps F]

class Facts₀ : Prop where
  concatenates_S50000x64_S100000x64_S150000x64_d0 : Shape.Concatenates [S50000x64, S100000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  concatenates_S150000x64_S150000x64_S150000x64_S150000x64_S150000x256_d1 : Shape.Concatenates [S150000x64, S150000x64, S150000x64, S150000x64] S150000x256 1
  slices_S150000x256_S50000x256_0_0 : S150000x256.Slices ![0, 0] S50000x256
  slices_S150000x256_S100000x256_50000_0 : S150000x256.Slices ![50000, 0] S100000x256
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  reducesTo_S8192_S_d0 : S8192.ReducesTo [0] S_
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  dot_S150000x64_S64x64_S150000x64_1_0_0_1_n_n_wf : DotDims.WF S150000x64 S64x64 S150000x64 [1] [0] [0] [1] [] []
  gather_S50000x256_S8192x1_S8192x256_1_0_n_n_0_1_1256_wf : GatherDims.WF S50000x256 S8192x1 S8192x256 [1] [0] [] [0] [] 1 ![1, 256]
  gather_S100000x256_S8192x1_S8192x256_1_0_n_n_0_1_1256_wf : GatherDims.WF S100000x256 S8192x1 S8192x256 [1] [0] [] [0] [] 1 ![1, 256]

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf
def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf

class Facts : Prop extends Facts₀ where

variable [Facts]
-- ==== Proof.KFrame0.lean ====
import proofs.«125397_j74723841016248_1_alg».proof.Proof.Gen.Kernel.Launch
import proofs.«125397_j74723841016248_1_alg».proof.Proof.Gen.Kernel.Skeleton
import proofs.«125397_j74723841016248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of 6000 or 2048 rows is checked by a structural recursion
-- that goes once per coordinate of the long axis
set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the region is entered: a parameter here; the run instantiates it.
variable (V : (c : Dev nD) → (b : Ref sig .tc) → Buf (Elt F) ((c : Thread nD τ).loc b))

/-! # Region 0 of @main: the kernel `cc0__layer_kernel` on a grid of 25 points, at the entry contents `V`

Eight windows: two inputs in blocks of 6000 rows indexed by the point, four small inputs (two 64×64 matrices, two
1×64 rows) whose index map is constant, two outputs in blocks of 6000 rows indexed by the point. The body loads
every input block whole, stores one value into the first output block and another into the second. -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever the point, fetched there or not, its current staging buffer holds the window's block
    at that point — for any proof data whose array is `V`'s (`hA`) and whose body leaves the block in place (`hafter`).
    Where the window is not fetched its block index has not moved since the last fetch, so the block is the same one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: whatever the point, fetched there or not, its current staging buffer holds the window's block
    at that point — for any proof data whose array is `V`'s (`hA`) and whose body leaves the block in place (`hafter`).
    Where the window is not fetched its block index has not moved since the last fetch, so the block is the same one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: whatever the point, fetched there or not, its current staging buffer holds the window's block
    at that point — for any proof data whose array is `V`'s (`hA`) and whose body leaves the block in place (`hafter`).
    Where the window is not fetched its block index has not moved since the last fetch, so the block is the same one. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3: whatever the point, fetched there or not, its current staging buffer holds the window's block
    at that point — for any proof data whose array is `V`'s (`hA`) and whose body leaves the block in place (`hafter`).
    Where the window is not fetched its block index has not moved since the last fetch, so the block is the same one. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4: whatever the point, fetched there or not, its current staging buffer holds the window's block
    at that point — for any proof data whose array is `V`'s (`hA`) and whose body leaves the block in place (`hafter`).
    Where the window is not fetched its block index has not moved since the last fetch, so the block is the same one. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5: whatever the point, fetched there or not, its current staging buffer holds the window's block
    at that point — for any proof data whose array is `V`'s (`hA`) and whose body leaves the block in place (`hafter`).
    Where the window is not fetched its block index has not moved since the last fetch, so the block is the same one. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole block -/

abbrev r0_0 : Rect S6000x64 := Rect.unit (s := S6000x64) ![0, 0] S6000x64.size inb_S6000x64_S6000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-! ## What the body leaves in each output window's buffer -/

/-- Window 6's staging buffer after the body, as a function of the six input blocks: one whole-block store of the
    first payload. -/
def out0_6 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r0_0, k0_pay1 (View.ld x0 r0_0) (View.ld x1 r0_0) (View.ld x2 r0_1) (View.ld x3 r0_2) (View.ld x4 r0_1) (View.ld x5 r0_2)⟩]

/-- The one store covers the buffer. -/
theorem cover0_6 (p0 : Vec F S6000x64 .f32) (y : S6000x64.Idx) :
    ∃ pc ∈ ([⟨r0_0, p0⟩] : List (View.Piece (Elt F) S6000x64 .f32)), y ∈ pc.1.set :=
  View.cover_of_tiled [⟨r0_0, p0⟩] S6000x64.size (by rfl) y

/-- Window 7's staging buffer after the body: one whole-block store of the second payload. -/
def out0_7 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r0_0, k0_pay2 (View.ld x0 r0_0) (View.ld x1 r0_0) (View.ld x2 r0_1) (View.ld x3 r0_2) (View.ld x4 r0_1) (View.ld x5 r0_2)⟩]

/-- The one store covers the buffer. -/
theorem cover0_7 (p0 : Vec F S6000x64 .f32) (y : S6000x64.Idx) :
    ∃ pc ∈ ([⟨r0_0, p0⟩] : List (View.Piece (Elt F) S6000x64 .f32)), y ∈ pc.1.set :=
  View.cover_of_tiled [⟨r0_0, p0⟩] S6000x64.size (by rfl) y

/-! ## The body's triple -/

set_option maxHeartbeats 1000000 in
/-- The kernel body on whole staging memrefs — the inputs' holding `x0 … x5`, the outputs' holding anything — runs to a
    state where the inputs' hold what they held and the outputs' hold `out0_6`, `out0_7` of the inputs. The printed
    function and the part it calls are rewritten to their skeletons of loads and stores over the named payloads, and
    those are run symbolically; the value read back from each output buffer is the canonical form of its one store. -/
theorem sound_kernel0 (c : Dev nD) (E : Set ℕ) (i : grid0.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 : Vec F S6000x64 .f32) (x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

/-! ## The pipeline's proof data -/

/-- The proof data of this pipeline on core `c`: the arrays as the region finds them; after the body at point `t` each
    input's buffer at its block and each output's at `out0_6`, `out0_7` of the input blocks; the invariant that of a
    body which touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.GenH

end
-- ==== Proof.KFrame1.lean ====
import proofs.«125397_j74723841016248_1_alg».proof.Proof.Gen.Kernel.Launch
import proofs.«125397_j74723841016248_1_alg».proof.Proof.Gen.Kernel.Skeleton
import proofs.«125397_j74723841016248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of 6000 or 2048 rows is checked by a structural recursion
-- that goes once per coordinate of the long axis
set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the region is entered: a parameter here; the run instantiates it.
variable (V : (c : Dev nD) → (b : Ref sig .tc) → Buf (Elt F) ((c : Thread nD τ).loc b))

/-! # Region 1 of @main: the kernel `cc1__layer_kernel` on a grid of 25 points, at the entry contents `V`

Eight windows: two inputs in blocks of 6000 rows indexed by the point, four small inputs (two 64×64 matrices, two
1×64 rows) whose index map is constant, two outputs in blocks of 6000 rows indexed by the point. The body loads
every input block whole, stores one value into the first output block and another into the second. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever the point, fetched there or not, its current staging buffer holds the window's block
    at that point — for any proof data whose array is `V`'s (`hA`) and whose body leaves the block in place (`hafter`).
    Where the window is not fetched its block index has not moved since the last fetch, so the block is the same one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: whatever the point, fetched there or not, its current staging buffer holds the window's block
    at that point — for any proof data whose array is `V`'s (`hA`) and whose body leaves the block in place (`hafter`).
    Where the window is not fetched its block index has not moved since the last fetch, so the block is the same one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: whatever the point, fetched there or not, its current staging buffer holds the window's block
    at that point — for any proof data whose array is `V`'s (`hA`) and whose body leaves the block in place (`hafter`).
    Where the window is not fetched its block index has not moved since the last fetch, so the block is the same one. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: whatever the point, fetched there or not, its current staging buffer holds the window's block
    at that point — for any proof data whose array is `V`'s (`hA`) and whose body leaves the block in place (`hafter`).
    Where the window is not fetched its block index has not moved since the last fetch, so the block is the same one. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: whatever the point, fetched there or not, its current staging buffer holds the window's block
    at that point — for any proof data whose array is `V`'s (`hA`) and whose body leaves the block in place (`hafter`).
    Where the window is not fetched its block index has not moved since the last fetch, so the block is the same one. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5: whatever the point, fetched there or not, its current staging buffer holds the window's block
    at that point — for any proof data whose array is `V`'s (`hA`) and whose body leaves the block in place (`hafter`).
    Where the window is not fetched its block index has not moved since the last fetch, so the block is the same one. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and each store is of a whole block -/

abbrev r1_0 : Rect S6000x64 := Rect.unit (s := S6000x64) ![0, 0] S6000x64.size inb_S6000x64_S6000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-! ## What the body leaves in each output window's buffer -/

/-- Window 6's staging buffer after the body, as a function of the six input blocks: one whole-block store of the
    first payload. -/
def out1_6 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r1_0, k1_pay1 (View.ld x0 r1_0) (View.ld x1 r1_0) (View.ld x2 r1_1) (View.ld x3 r1_2) (View.ld x4 r1_1) (View.ld x5 r1_2)⟩]

/-- The one store covers the buffer. -/
theorem cover1_6 (p0 : Vec F S6000x64 .f32) (y : S6000x64.Idx) :
    ∃ pc ∈ ([⟨r1_0, p0⟩] : List (View.Piece (Elt F) S6000x64 .f32)), y ∈ pc.1.set :=
  View.cover_of_tiled [⟨r1_0, p0⟩] S6000x64.size (by rfl) y

/-- Window 7's staging buffer after the body: one whole-block store of the second payload. -/
def out1_7 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r1_0, k1_pay2 (View.ld x0 r1_0) (View.ld x1 r1_0) (View.ld x2 r1_1) (View.ld x3 r1_2) (View.ld x4 r1_1) (View.ld x5 r1_2)⟩]

/-- The one store covers the buffer. -/
theorem cover1_7 (p0 : Vec F S6000x64 .f32) (y : S6000x64.Idx) :
    ∃ pc ∈ ([⟨r1_0, p0⟩] : List (View.Piece (Elt F) S6000x64 .f32)), y ∈ pc.1.set :=
  View.cover_of_tiled [⟨r1_0, p0⟩] S6000x64.size (by rfl) y

/-! ## The body's triple -/

set_option maxHeartbeats 1000000 in
/-- The kernel body on whole staging memrefs — the inputs' holding `x0 … x5`, the outputs' holding anything — runs to a
    state where the inputs' hold what they held and the outputs' hold `out1_6`, `out1_7` of the inputs. The printed
    function and the part it calls are rewritten to their skeletons of loads and stores over the named payloads, and
    those are run symbolically; the value read back from each output buffer is the canonical form of its one store. -/
theorem sound_kernel1 (c : Dev nD) (E : Set ℕ) (i : grid1.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 : Vec F S6000x64 .f32) (x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_6 _)
  iexists _; isplitr
  swap; · iexact H7
  ipureintro
  try dsimp only
  exact View.read_writes_eq_canon _ _ _ (cover1_7 _)

/-! ## The pipeline's proof data -/

/-- The proof data of this pipeline on core `c`: the arrays as the region finds them; after the body at point `t` each
    input's buffer at its block and each output's at `out1_6`, `out1_7` of the input blocks; the invariant that of a
    body which touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.GenH

end
-- ==== Proof.KFrame2.lean ====
import proofs.«125397_j74723841016248_1_alg».proof.Proof.Gen.Kernel.Launch
import proofs.«125397_j74723841016248_1_alg».proof.Proof.Gen.Kernel.Skeleton
import proofs.«125397_j74723841016248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of 6000 or 2048 rows is checked by a structural recursion
-- that goes once per coordinate of the long axis
set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the region is entered: a parameter here; the run instantiates it.
variable (V : (c : Dev nD) → (b : Ref sig .tc) → Buf (Elt F) ((c : Thread nD τ).loc b))

/-! # Region 2 of @main: the kernel `cc2__layer_kernel` on a grid of 25 points, at the entry contents `V`

Eight windows: two inputs in blocks of 6000 rows indexed by the point, four small inputs (two 64×64 matrices, two
1×64 rows) whose index map is constant, two outputs in blocks of 6000 rows indexed by the point. The body loads
every input block whole, stores one value into the first output block and another into the second. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whatever the point, fetched there or not, its current staging buffer holds the window's block
    at that point — for any proof data whose array is `V`'s (`hA`) and whose body leaves the block in place (`hafter`).
    Where the window is not fetched its block index has not moved since the last fetch, so the block is the same one. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: whatever the point, fetched there or not, its current staging buffer holds the window's block
    at that point — for any proof data whose array is `V`'s (`hA`) and whose body leaves the block in place (`hafter`).
    Where the window is not fetched its block index has not moved since the last fetch, so the block is the same one. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2: whatever the point, fetched there or not, its current staging buffer holds the window's block
    at that point — for any proof data whose array is `V`'s (`hA`) and whose body leaves the block in place (`hafter`).
    Where the window is not fetched its block index has not moved since the last fetch, so the block is the same one. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3: whatever the point, fetched there or not, its current staging buffer holds the window's block
    at that point — for any proof data whose array is `V`'s (`hA`) and whose body leaves the block in place (`hafter`).
    Where the window is not fetched its block index has not moved since the last fetch, so the block is the same one. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4: whatever the point, fetched there or not, its current staging buffer holds the window's block
    at that point — for any proof data whose array is `V`'s (`hA`) and whose body leaves the block in place (`hafter`).
    Where the window is not fetched its block index has not moved since the last fetch, so the block is the same one. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5: whatever the point, fetched there or not, its current staging buffer holds the window's block
    at that point — for any proof data whose array is `V`'s (`hA`) and whose body leaves the block in place (`hafter`).
    Where the window is not fetched its block index has not moved since the last fetch, so the block is the same one. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and each store is of a whole block -/

abbrev r2_0 : Rect S6000x64 := Rect.unit (s := S6000x64) ![0, 0] S6000x64.size inb_S6000x64_S6000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-! ## What the body leaves in each output window's buffer -/

/-- Window 6's staging buffer after the body, as a function of the six input blocks: one whole-block store of the
    first payload. -/
def out2_6 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r2_0, k2_pay1 (View.ld x0 r2_0) (View.ld x1 r2_0) (View.ld x2 r2_1) (View.ld x3 r2_2) (View.ld x4 r2_1) (View.ld x5 r2_2)⟩]

/-- The one store covers the buffer. -/
theorem cover2_6 (p0 : Vec F S6000x64 .f32) (y : S6000x64.Idx) :
    ∃ pc ∈ ([⟨r2_0, p0⟩] : List (View.Piece (Elt F) S6000x64 .f32)), y ∈ pc.1.set :=
  View.cover_of_tiled [⟨r2_0, p0⟩] S6000x64.size (by rfl) y

/-- Window 7's staging buffer after the body: one whole-block store of the second payload. -/
def out2_7 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r2_0, k2_pay2 (View.ld x0 r2_0) (View.ld x1 r2_0) (View.ld x2 r2_1) (View.ld x3 r2_2) (View.ld x4 r2_1) (View.ld x5 r2_2)⟩]

/-- The one store covers the buffer. -/
theorem cover2_7 (p0 : Vec F S6000x64 .f32) (y : S6000x64.Idx) :
    ∃ pc ∈ ([⟨r2_0, p0⟩] : List (View.Piece (Elt F) S6000x64 .f32)), y ∈ pc.1.set :=
  View.cover_of_tiled [⟨r2_0, p0⟩] S6000x64.size (by rfl) y

/-! ## The body's triple -/

set_option maxHeartbeats 1000000 in
/-- The kernel body on whole staging memrefs — the inputs' holding `x0 … x5`, the outputs' holding anything — runs to a
    state where the inputs' hold what they held and the outputs' hold `out2_6`, `out2_7` of the inputs. The printed
    function and the part it calls are rewritten to their skeletons of loads and stores over the named payloads, and
    those are run symbolically; the value read back from each output buffer is the canonical form of its one store. -/
theorem sound_kernel2 (c : Dev nD) (E : Set ℕ) (i : grid2.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 : Vec F S6000x64 .f32) (x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2_6 _)
  iexists _; isplitr
  swap; · iexact H7
  ipureintro
  try dsimp only
  exact View.read_writes_eq_canon _ _ _ (cover2_7 _)

/-! ## The pipeline's proof data -/

/-- The proof data of this pipeline on core `c`: the arrays as the region finds them; after the body at point `t` each
    input's buffer at its block and each output's at `out2_6`, `out2_7` of the input blocks; the invariant that of a
    body which touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.GenH

end
-- ==== Proof.KFrame3.lean ====
import proofs.«125397_j74723841016248_1_alg».proof.Proof.Gen.Kernel.Launch
import proofs.«125397_j74723841016248_1_alg».proof.Proof.Gen.Kernel.Skeleton
import proofs.«125397_j74723841016248_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of 6000 or 2048 rows is checked by a structural recursion
-- that goes once per coordinate of the long axis
set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the region is entered: a parameter here; the run instantiates it.
variable (V : (c : Dev nD) → (b : Ref sig .tc) → Buf (Elt F) ((c : Thread nD τ).loc b))

/-! # Region 3 of @main: the kernel `cc3__loss_kernel` on a grid of 4 points, at the entry contents `V`

Four windows: three inputs in blocks of 2048×256 indexed by the point, one output in blocks of 2048×1 indexed by the
point. The body loads the three input blocks whole and stores one value into the output block. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever the point, its current staging buffer holds the window's block at that point — for any
    proof data whose array is `V`'s (`hA`) and whose body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: whatever the point, its current staging buffer holds the window's block at that point — for any
    proof data whose array is `V`'s (`hA`) and whose body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: whatever the point, its current staging buffer holds the window's block at that point — for any
    proof data whose array is `V`'s (`hA`) and whose body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and the store is of a whole block -/

abbrev r3_0 : Rect S2048x256 := Rect.unit (s := S2048x256) ![0, 0] S2048x256.size inb_S2048x256_S2048x256_0_0
abbrev r3_1 : Rect S2048x1 := Rect.unit (s := S2048x1) ![0, 0] S2048x1.size inb_S2048x1_S2048x1_0_0

/-! ## What the body leaves in the output window's buffer -/

/-- Window 3's staging buffer after the body, as a function of the three input blocks: one whole-block store of the
    payload. -/
def out3_3 (x0 : Vec F S2048x256 .f32) (x1 : Vec F S2048x256 .f32) (x2 : Vec F S2048x256 .f32) : Vec F S2048x1 .f32 :=
  View.canon [⟨r3_1, k3_pay1 (View.ld x0 r3_0) (View.ld x1 r3_0) (View.ld x2 r3_0)⟩]

/-- The one store covers the buffer. -/
theorem cover3_3 (p0 : Vec F S2048x1 .f32) (y : S2048x1.Idx) :
    ∃ pc ∈ ([⟨r3_1, p0⟩] : List (View.Piece (Elt F) S2048x1 .f32)), y ∈ pc.1.set :=
  View.cover_of_tiled [⟨r3_1, p0⟩] S2048x1.size (by rfl) y

/-! ## The body's triple -/

set_option maxHeartbeats 1000000 in
/-- The kernel body on whole staging memrefs — the inputs' holding `x0 x1 x2`, the output's holding anything — runs to a
    state where the inputs' hold what they held and the output's holds `out3_3` of the inputs. The printed function is
    rewritten to its skeleton of loads and one store over the named payload, and that is run symbolically; the value read
    back from the output buffer is the canonical form of its one store. -/
theorem sound_kernel3 (c : Dev nD) (E : Set ℕ) (i : grid3.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x1 .f32) (harg4 : arg4.IsWhole)
    (x0 : Vec F S2048x256 .f32) (x1 : Vec F S2048x256 .f32) (x2 : Vec F S2048x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__loss_kernel i arg1 harg1 arg2 harg2 arg3 harg3 arg4 harg4) K := by
  simp only [cc3__loss_kernel_eq_skeleton]; unfold cc3__loss_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them; after the body at point `t` each
    input's buffer at its block and the output's at `out3_3` of the input blocks; the invariant that of a body which
    touches nothing but its windows; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.GenH

end
-- ==== Proof.KFrame.lean ====
import proofs.«125397_j74723841016248_1_alg».proof.Proof.KFrame0
import proofs.«125397_j74723841016248_1_alg».proof.Proof.KFrame1
import proofs.«125397_j74723841016248_1_alg».proof.Proof.KFrame2
import proofs.«125397_j74723841016248_1_alg».proof.Proof.KFrame3
import proofs.«125397_j74723841016248_1_alg».proof.Proof.Gen.Kernel.Regions

-- membership of an index in a whole-block rectangle of 6000 or 2048 rows is checked by a structural recursion
-- that goes once per coordinate of the long axis
set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: nine segments from the launch to the return

@main is five stretches of host operations with the four kernel regions between them. The contents of a core's buffers
at each of the ten segment boundaries are a fold from the launch memory: a host stretch applies its operations' results
in order; a region leaves its windows' arrays at what its write-backs produce and every other buffer as it found it.
Each region's proof data is taken at the contents its region is entered with.

## The buffer contents at each segment boundary -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held
    at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it held
    at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it held
    at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4` (what @main returns from). -/
abbrev W9 : Dev nD → Valuation τ sig (Elt F) := fun c => StableHlo.after hostOps4 (W8 m ρ c)

/-! ### The arguments end as launched

No host operation writes an argument (each stretch's written references are listed, and no argument is among them), and
no window's array is an argument, so the fold at an argument's buffer walks back through the nine segments to the
launch memory. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents: a literal case split on the pipeline's index, so
    that the pinned configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment: its operations run over the unscoped references from the contents `W`, `R` riding
    along; it ends with those references at the stretch's fold over `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W9`, the
    generator register at some state. -/
abbrev Tₙ (c : Dev nD) : sProp 𝕄 := iprop(StableHlo.held (c : Thread nD τ) (Pipeline.ucRefs τ sig) (W9 m ρ c) ∗ ∃ r, prngReg c r)

/-! ## The regions as segments -/

-- applying a library lemma stated over the pinned configuration `pin pcs a p` unifies with the printed configuration only
-- when unification may unfold plain definitions in a metavariable's type
set_option backward.isDefEq.respectTransparency.types false in
/-- Region 0 over the thread state: entered from every unscoped buffer at `W1`, left at `W2`. Its arrays are split out
    of the unscoped buffers at entry and put back, at the exit contents, at the end; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` unifies with the printed configuration only
-- when unification may unfold plain definitions in a metavariable's type
set_option backward.isDefEq.respectTransparency.types false in
/-- Region 1 over the thread state: entered from every unscoped buffer at `W3`, left at `W4`. Its arrays are split out
    of the unscoped buffers at entry and put back, at the exit contents, at the end; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` unifies with the printed configuration only
-- when unification may unfold plain definitions in a metavariable's type
set_option backward.isDefEq.respectTransparency.types false in
/-- Region 2 over the thread state: entered from every unscoped buffer at `W5`, left at `W6`. Its arrays are split out
    of the unscoped buffers at entry and put back, at the exit contents, at the end; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` unifies with the printed configuration only
-- when unification may unfold plain definitions in a metavariable's type
set_option backward.isDefEq.respectTransparency.types false in
/-- Region 3 over the thread state: entered from every unscoped buffer at `W7`, left at `W8`. Its arrays are split out
    of the unscoped buffers at entry and put back, at the exit contents, at the end; the generator register goes into the
    pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments: it is the chain of its nine items, and so is the segments' run. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and in every final state each core's unscoped buffers hold the last boundary's
    contents `W9`: the launch over the nine segments, then the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

/-- info: 'Cert.Kernel.GenH.run_all' depends on axioms: [propext, Classical.choice, Quot.sound] -/
#guard_msgs in #print axioms run_all

/-- THE FRAME, at any `F`: every weakly fair execution of @main terminates, nothing faulting, and every final state has
    the twelve argument arrays as launched — each argument is an unscoped buffer, so the run gives its final contents as
    `W9`'s, which are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
      ⟨(h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩) (run_all m ρ)

/-- info: 'Cert.Kernel.GenH.frame' depends on axioms: [propext, Classical.choice, Quot.sound] -/
#guard_msgs in #print axioms frame

end Cert.Kernel.GenH

end
-- ==== Proof.KIFrame0.lean ====
import proofs.«125397_j74723841016248_1_alg».proof.Proof.Gen.KernelIdeal.Launch
import proofs.«125397_j74723841016248_1_alg».proof.Proof.Gen.KernelIdeal.Skeleton
import proofs.«125397_j74723841016248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of 6000 or 2048 rows is checked by a structural recursion
-- that goes once per coordinate of the long axis
set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the region is entered: a parameter here; the run instantiates it.
variable (V : (c : Dev nD) → (b : Ref sig .tc) → Buf (Elt F) ((c : Thread nD τ).loc b))

/-! # Region 0 of @main: the kernel `cc0__layer_kernel` on a grid of 25 points, at the entry contents `V`

Eight windows: two inputs in blocks of 6000 rows indexed by the point, four small inputs (two 64×64 matrices, two
1×64 rows) whose index map is constant, two outputs in blocks of 6000 rows indexed by the point. The body loads
every input block whole, stores one value into the first output block and another into the second. -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: whatever the point, fetched there or not, its current staging buffer holds the window's block
    at that point — for any proof data whose array is `V`'s (`hA`) and whose body leaves the block in place (`hafter`).
    Where the window is not fetched its block index has not moved since the last fetch, so the block is the same one. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: whatever the point, fetched there or not, its current staging buffer holds the window's block
    at that point — for any proof data whose array is `V`'s (`hA`) and whose body leaves the block in place (`hafter`).
    Where the window is not fetched its block index has not moved since the last fetch, so the block is the same one. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: whatever the point, fetched there or not, its current staging buffer holds the window's block
    at that point — for any proof data whose array is `V`'s (`hA`) and whose body leaves the block in place (`hafter`).
    Where the window is not fetched its block index has not moved since the last fetch, so the block is the same one. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3: whatever the point, fetched there or not, its current staging buffer holds the window's block
    at that point — for any proof data whose array is `V`'s (`hA`) and whose body leaves the block in place (`hafter`).
    Where the window is not fetched its block index has not moved since the last fetch, so the block is the same one. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4: whatever the point, fetched there or not, its current staging buffer holds the window's block
    at that point — for any proof data whose array is `V`'s (`hA`) and whose body leaves the block in place (`hafter`).
    Where the window is not fetched its block index has not moved since the last fetch, so the block is the same one. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5: whatever the point, fetched there or not, its current staging buffer holds the window's block
    at that point — for any proof data whose array is `V`'s (`hA`) and whose body leaves the block in place (`hafter`).
    Where the window is not fetched its block index has not moved since the last fetch, so the block is the same one. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is of a whole block -/

abbrev r0_0 : Rect S6000x64 := Rect.unit (s := S6000x64) ![0, 0] S6000x64.size inb_S6000x64_S6000x64_0_0
abbrev r0_1 : Rect S64x64 := Rect.unit (s := S64x64) ![0, 0] S64x64.size inb_S64x64_S64x64_0_0
abbrev r0_2 : Rect S1x64 := Rect.unit (s := S1x64) ![0, 0] S1x64.size inb_S1x64_S1x64_0_0

/-! ## What the body leaves in each output window's buffer -/

/-- Window 6's staging buffer after the body, as a function of the six input blocks: one whole-block store of the
    first payload. -/
def out0_6 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r0_0, k0_pay1 (View.ld x0 r0_0) (View.ld x1 r0_0) (View.ld x2 r0_1) (View.ld x3 r0_2) (View.ld x4 r0_1) (View.ld x5 r0_2)⟩]

/-- The one store covers the buffer. -/
theorem cover0_6 (p0 : Vec F S6000x64 .f32) (y : S6000x64.Idx) :
    ∃ pc ∈ ([⟨r0_0, p0⟩] : List (View.Piece (Elt F) S6000x64 .f32)), y ∈ pc.1.set :=
  View.cover_of_tiled [⟨r0_0, p0⟩] S6000x64.size (by rfl) y

/-- Window 7's staging buffer after the body: one whole-block store of the second payload. -/
def out0_7 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r0_0, k0_pay2 (View.ld x0 r0_0) (View.ld x1 r0_0) (View.ld x2 r0_1) (View.ld x3 r0_2) (View.ld x4 r0_1) (View.ld x5 r0_2)⟩]

/-- The one store covers the buffer. -/
theorem cover0_7 (p0 : Vec F S6000x64 .f32) (y : S6000x64.Idx) :
    ∃ pc ∈ ([⟨r0_0, p0⟩] : List (View.Piece (Elt F) S6000x64 .f32)), y ∈ pc.1.set :=
  View.cover_of_tiled [⟨r0_0, p0⟩] S6000x64.size (by rfl) y

/-! ## The body's triple -/

set_option maxHeartbeats 1000000 in
/-- The kernel body on whole staging memrefs — the inputs' holding `x0 … x5`, the outputs' holding anything — runs to a
    state where the inputs' hold what they held and the outputs' hold `out0_6`, `out0_7` of the inputs. The printed
    function and the part it calls are rewritten to their skeletons of loads and stores over the named payloads, and
    those are run symbolically; the value read back from each output buffer is the canonical form of its one store. -/
theorem sound_kernel0 (c : Dev nD) (E : Set ℕ) (i : grid0.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 : Vec F S6000x64 .f32) (x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__layer_kernel i arg1 harg1 arg2 harg2 arg3 harg3 arg4 harg4 arg5 harg5 arg6 harg6 arg7 harg7 arg8 harg8) K := by
  simp only [cc0__layer_kernel_eq_skeleton]; unfold cc0__layer_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_7 _)

/-! ## The pipeline's proof data -/

/-- The proof data of this pipeline on core `c`: the arrays as the region finds them; after the body at point `t` each
    input's buffer at its block and each output's at `out0_6`, `out0_7` of the input blocks; the invariant that of a
    body which touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.GenH

end
-- ==== Proof.KIFrame1.lean ====
import proofs.«125397_j74723841016248_1_alg».proof.Proof.Gen.KernelIdeal.Launch
import proofs.«125397_j74723841016248_1_alg».proof.Proof.Gen.KernelIdeal.Skeleton
import proofs.«125397_j74723841016248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of 6000 or 2048 rows is checked by a structural recursion
-- that goes once per coordinate of the long axis
set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the region is entered: a parameter here; the run instantiates it.
variable (V : (c : Dev nD) → (b : Ref sig .tc) → Buf (Elt F) ((c : Thread nD τ).loc b))

/-! # Region 1 of @main: the kernel `cc1__layer_kernel` on a grid of 25 points, at the entry contents `V`

Eight windows: two inputs in blocks of 6000 rows indexed by the point, four small inputs (two 64×64 matrices, two
1×64 rows) whose index map is constant, two outputs in blocks of 6000 rows indexed by the point. The body loads
every input block whole, stores one value into the first output block and another into the second. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: whatever the point, fetched there or not, its current staging buffer holds the window's block
    at that point — for any proof data whose array is `V`'s (`hA`) and whose body leaves the block in place (`hafter`).
    Where the window is not fetched its block index has not moved since the last fetch, so the block is the same one. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: whatever the point, fetched there or not, its current staging buffer holds the window's block
    at that point — for any proof data whose array is `V`'s (`hA`) and whose body leaves the block in place (`hafter`).
    Where the window is not fetched its block index has not moved since the last fetch, so the block is the same one. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: whatever the point, fetched there or not, its current staging buffer holds the window's block
    at that point — for any proof data whose array is `V`'s (`hA`) and whose body leaves the block in place (`hafter`).
    Where the window is not fetched its block index has not moved since the last fetch, so the block is the same one. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3: whatever the point, fetched there or not, its current staging buffer holds the window's block
    at that point — for any proof data whose array is `V`'s (`hA`) and whose body leaves the block in place (`hafter`).
    Where the window is not fetched its block index has not moved since the last fetch, so the block is the same one. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4: whatever the point, fetched there or not, its current staging buffer holds the window's block
    at that point — for any proof data whose array is `V`'s (`hA`) and whose body leaves the block in place (`hafter`).
    Where the window is not fetched its block index has not moved since the last fetch, so the block is the same one. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5: whatever the point, fetched there or not, its current staging buffer holds the window's block
    at that point — for any proof data whose array is `V`'s (`hA`) and whose body leaves the block in place (`hafter`).
    Where the window is not fetched its block index has not moved since the last fetch, so the block is the same one. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and each store is of a whole block -/

abbrev r1_0 : Rect S6000x64 := Rect.unit (s := S6000x64) ![0, 0] S6000x64.size inb_S6000x64_S6000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0

/-! ## What the body leaves in each output window's buffer -/

/-- Window 6's staging buffer after the body, as a function of the six input blocks: one whole-block store of the
    first payload. -/
def out1_6 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r1_0, k1_pay1 (View.ld x0 r1_0) (View.ld x1 r1_0) (View.ld x2 r1_1) (View.ld x3 r1_2) (View.ld x4 r1_1) (View.ld x5 r1_2)⟩]

/-- The one store covers the buffer. -/
theorem cover1_6 (p0 : Vec F S6000x64 .f32) (y : S6000x64.Idx) :
    ∃ pc ∈ ([⟨r1_0, p0⟩] : List (View.Piece (Elt F) S6000x64 .f32)), y ∈ pc.1.set :=
  View.cover_of_tiled [⟨r1_0, p0⟩] S6000x64.size (by rfl) y

/-- Window 7's staging buffer after the body: one whole-block store of the second payload. -/
def out1_7 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r1_0, k1_pay2 (View.ld x0 r1_0) (View.ld x1 r1_0) (View.ld x2 r1_1) (View.ld x3 r1_2) (View.ld x4 r1_1) (View.ld x5 r1_2)⟩]

/-- The one store covers the buffer. -/
theorem cover1_7 (p0 : Vec F S6000x64 .f32) (y : S6000x64.Idx) :
    ∃ pc ∈ ([⟨r1_0, p0⟩] : List (View.Piece (Elt F) S6000x64 .f32)), y ∈ pc.1.set :=
  View.cover_of_tiled [⟨r1_0, p0⟩] S6000x64.size (by rfl) y

/-! ## The body's triple -/

set_option maxHeartbeats 1000000 in
/-- The kernel body on whole staging memrefs — the inputs' holding `x0 … x5`, the outputs' holding anything — runs to a
    state where the inputs' hold what they held and the outputs' hold `out1_6`, `out1_7` of the inputs. The printed
    function and the part it calls are rewritten to their skeletons of loads and stores over the named payloads, and
    those are run symbolically; the value read back from each output buffer is the canonical form of its one store. -/
theorem sound_kernel1 (c : Dev nD) (E : Set ℕ) (i : grid1.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 : Vec F S6000x64 .f32) (x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5) ∗ owns (c : Thread nD τ) arg8 fullShare (out1_7 x0 x1 x2 x3 x4 x5)) -∗ K ⟨⟩))
      ⊢ wp frame (wpE (defs₀ (F := F)) Variants.none c none) E (cc1__layer_kernel i arg1 harg1 arg2 harg2 arg3 harg3 arg4 harg4 arg5 harg5 arg6 harg6 arg7 harg7 arg8 harg8) K := by
  simp only [cc1__layer_kernel_eq_skeleton]; unfold cc1__layer_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover1_6 _)
  iexists _; isplitr
  swap; · iexact H7
  ipureintro
  try dsimp only
  exact View.read_writes_eq_canon _ _ _ (cover1_7 _)

/-! ## The pipeline's proof data -/

/-- The proof data of this pipeline on core `c`: the arrays as the region finds them; after the body at point `t` each
    input's buffer at its block and each output's at `out1_6`, `out1_7` of the input blocks; the invariant that of a
    body which touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.GenH

end
-- ==== Proof.KIFrame2.lean ====
import proofs.«125397_j74723841016248_1_alg».proof.Proof.Gen.KernelIdeal.Launch
import proofs.«125397_j74723841016248_1_alg».proof.Proof.Gen.KernelIdeal.Skeleton
import proofs.«125397_j74723841016248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of 6000 or 2048 rows is checked by a structural recursion
-- that goes once per coordinate of the long axis
set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the region is entered: a parameter here; the run instantiates it.
variable (V : (c : Dev nD) → (b : Ref sig .tc) → Buf (Elt F) ((c : Thread nD τ).loc b))

/-! # Region 2 of @main: the kernel `cc2__layer_kernel` on a grid of 25 points, at the entry contents `V`

Eight windows: two inputs in blocks of 6000 rows indexed by the point, four small inputs (two 64×64 matrices, two
1×64 rows) whose index map is constant, two outputs in blocks of 6000 rows indexed by the point. The body loads
every input block whole, stores one value into the first output block and another into the second. -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: whatever the point, fetched there or not, its current staging buffer holds the window's block
    at that point — for any proof data whose array is `V`'s (`hA`) and whose body leaves the block in place (`hafter`).
    Where the window is not fetched its block index has not moved since the last fetch, so the block is the same one. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1: whatever the point, fetched there or not, its current staging buffer holds the window's block
    at that point — for any proof data whose array is `V`'s (`hA`) and whose body leaves the block in place (`hafter`).
    Where the window is not fetched its block index has not moved since the last fetch, so the block is the same one. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2: whatever the point, fetched there or not, its current staging buffer holds the window's block
    at that point — for any proof data whose array is `V`'s (`hA`) and whose body leaves the block in place (`hafter`).
    Where the window is not fetched its block index has not moved since the last fetch, so the block is the same one. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3: whatever the point, fetched there or not, its current staging buffer holds the window's block
    at that point — for any proof data whose array is `V`'s (`hA`) and whose body leaves the block in place (`hafter`).
    Where the window is not fetched its block index has not moved since the last fetch, so the block is the same one. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4: whatever the point, fetched there or not, its current staging buffer holds the window's block
    at that point — for any proof data whose array is `V`'s (`hA`) and whose body leaves the block in place (`hafter`).
    Where the window is not fetched its block index has not moved since the last fetch, so the block is the same one. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5: whatever the point, fetched there or not, its current staging buffer holds the window's block
    at that point — for any proof data whose array is `V`'s (`hA`) and whose body leaves the block in place (`hafter`).
    Where the window is not fetched its block index has not moved since the last fetch, so the block is the same one. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and each store is of a whole block -/

abbrev r2_0 : Rect S6000x64 := Rect.unit (s := S6000x64) ![0, 0] S6000x64.size inb_S6000x64_S6000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0

/-! ## What the body leaves in each output window's buffer -/

/-- Window 6's staging buffer after the body, as a function of the six input blocks: one whole-block store of the
    first payload. -/
def out2_6 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r2_0, k2_pay1 (View.ld x0 r2_0) (View.ld x1 r2_0) (View.ld x2 r2_1) (View.ld x3 r2_2) (View.ld x4 r2_1) (View.ld x5 r2_2)⟩]

/-- The one store covers the buffer. -/
theorem cover2_6 (p0 : Vec F S6000x64 .f32) (y : S6000x64.Idx) :
    ∃ pc ∈ ([⟨r2_0, p0⟩] : List (View.Piece (Elt F) S6000x64 .f32)), y ∈ pc.1.set :=
  View.cover_of_tiled [⟨r2_0, p0⟩] S6000x64.size (by rfl) y

/-- Window 7's staging buffer after the body: one whole-block store of the second payload. -/
def out2_7 (x0 : Vec F S6000x64 .f32) (x1 : Vec F S6000x64 .f32) (x2 : Vec F S64x64 .f32) (x3 : Vec F S1x64 .f32) (x4 : Vec F S64x64 .f32) (x5 : Vec F S1x64 .f32) : Vec F S6000x64 .f32 :=
  View.canon [⟨r2_0, k2_pay2 (View.ld x0 r2_0) (View.ld x1 r2_0) (View.ld x2 r2_1) (View.ld x3 r2_2) (View.ld x4 r2_1) (View.ld x5 r2_2)⟩]

/-- The one store covers the buffer. -/
theorem cover2_7 (p0 : Vec F S6000x64 .f32) (y : S6000x64.Idx) :
    ∃ pc ∈ ([⟨r2_0, p0⟩] : List (View.Piece (Elt F) S6000x64 .f32)), y ∈ pc.1.set :=
  View.cover_of_tiled [⟨r2_0, p0⟩] S6000x64.size (by rfl) y

/-! ## The body's triple -/

set_option maxHeartbeats 1000000 in
/-- The kernel body on whole staging memrefs — the inputs' holding `x0 … x5`, the outputs' holding anything — runs to a
    state where the inputs' hold what they held and the outputs' hold `out2_6`, `out2_7` of the inputs. The printed
    function and the part it calls are rewritten to their skeletons of loads and stores over the named payloads, and
    those are run symbolically; the value read back from each output buffer is the canonical form of its one store. -/
theorem sound_kernel2 (c : Dev nD) (E : Set ℕ) (i : grid2.Coords) (arg1 : Memref sig .tc .vmem S6000x64 .f32) (harg1 : arg1.IsWhole) (arg2 : Memref sig .tc .vmem S6000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S6000x64 .f32) (harg7 : arg7.IsWhole) (arg8 : Memref sig .tc .vmem S6000x64 .f32) (harg8 : arg8.IsWhole)
    (x0 : Vec F S6000x64 .f32) (x1 : Vec F S6000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5) ∗ owns (c : Thread nD τ) arg8 fullShare (out2_7 x0 x1 x2 x3 x4 x5)) -∗ K ⟨⟩))
      ⊢ wp frame (wpE (defs₀ (F := F)) Variants.none c none) E (cc2__layer_kernel i arg1 harg1 arg2 harg2 arg3 harg3 arg4 harg4 arg5 harg5 arg6 harg6 arg7 harg7 arg8 harg8) K := by
  simp only [cc2__layer_kernel_eq_skeleton]; unfold cc2__layer_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover2_6 _)
  iexists _; isplitr
  swap; · iexact H7
  ipureintro
  try dsimp only
  exact View.read_writes_eq_canon _ _ _ (cover2_7 _)

/-! ## The pipeline's proof data -/

/-- The proof data of this pipeline on core `c`: the arrays as the region finds them; after the body at point `t` each
    input's buffer at its block and each output's at `out2_6`, `out2_7` of the input blocks; the invariant that of a
    body which touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so the body's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.GenH

end
-- ==== Proof.KIFrame3.lean ====
import proofs.«125397_j74723841016248_1_alg».proof.Proof.Gen.KernelIdeal.Launch
import proofs.«125397_j74723841016248_1_alg».proof.Proof.Gen.KernelIdeal.Skeleton
import proofs.«125397_j74723841016248_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership of an index in a whole-block rectangle of 6000 or 2048 rows is checked by a structural recursion
-- that goes once per coordinate of the long axis
set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The contents of the TensorCore's buffers when the region is entered: a parameter here; the run instantiates it.
variable (V : (c : Dev nD) → (b : Ref sig .tc) → Buf (Elt F) ((c : Thread nD τ).loc b))

/-! # Region 3 of @main: the kernel `cc3__loss_kernel` on a grid of 4 points, at the entry contents `V`

Four windows: three inputs in blocks of 2048×256 indexed by the point, one output in blocks of 2048×1 indexed by the
point. The body loads the three input blocks whole and stores one value into the output block. -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: whatever the point, its current staging buffer holds the window's block at that point — for any
    proof data whose array is `V`'s (`hA`) and whose body leaves the block in place (`hafter`). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1: whatever the point, its current staging buffer holds the window's block at that point — for any
    proof data whose array is `V`'s (`hA`) and whose body leaves the block in place (`hafter`). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2: whatever the point, its current staging buffer holds the window's block at that point — for any
    proof data whose array is `V`'s (`hA`) and whose body leaves the block in place (`hafter`). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each load and the store is of a whole block -/

abbrev r3_0 : Rect S2048x256 := Rect.unit (s := S2048x256) ![0, 0] S2048x256.size inb_S2048x256_S2048x256_0_0
abbrev r3_1 : Rect S2048x1 := Rect.unit (s := S2048x1) ![0, 0] S2048x1.size inb_S2048x1_S2048x1_0_0

/-! ## What the body leaves in the output window's buffer -/

/-- Window 3's staging buffer after the body, as a function of the three input blocks: one whole-block store of the
    payload. -/
def out3_3 (x0 : Vec F S2048x256 .f32) (x1 : Vec F S2048x256 .f32) (x2 : Vec F S2048x256 .f32) : Vec F S2048x1 .f32 :=
  View.canon [⟨r3_1, k3_pay1 (View.ld x0 r3_0) (View.ld x1 r3_0) (View.ld x2 r3_0)⟩]

/-- The one store covers the buffer. -/
theorem cover3_3 (p0 : Vec F S2048x1 .f32) (y : S2048x1.Idx) :
    ∃ pc ∈ ([⟨r3_1, p0⟩] : List (View.Piece (Elt F) S2048x1 .f32)), y ∈ pc.1.set :=
  View.cover_of_tiled [⟨r3_1, p0⟩] S2048x1.size (by rfl) y

/-! ## The body's triple -/

set_option maxHeartbeats 1000000 in
/-- The kernel body on whole staging memrefs — the inputs' holding `x0 x1 x2`, the output's holding anything — runs to a
    state where the inputs' hold what they held and the output's holds `out3_3` of the inputs. The printed function is
    rewritten to its skeleton of loads and one store over the named payload, and that is run symbolically; the value read
    back from the output buffer is the canonical form of its one store. -/
theorem sound_kernel3 (c : Dev nD) (E : Set ℕ) (i : grid3.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S2048x1 .f32) (harg4 : arg4.IsWhole)
    (x0 : Vec F S2048x256 .f32) (x1 : Vec F S2048x256 .f32) (x2 : Vec F S2048x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__loss_kernel i arg1 harg1 arg2 harg2 arg3 harg3 arg4 harg4) K := by
  simp only [cc3__loss_kernel_eq_skeleton]; unfold cc3__loss_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of this pipeline on core `c`: the arrays as the region finds them; after the body at point `t` each
    input's buffer at its block and the output's at `out3_3` of the input blocks; the invariant that of a body which
    touches nothing but its windows; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.GenH

end
-- ==== Proof.KIFrame.lean ====
import proofs.«125397_j74723841016248_1_alg».proof.Proof.KIFrame0
import proofs.«125397_j74723841016248_1_alg».proof.Proof.KIFrame1
import proofs.«125397_j74723841016248_1_alg».proof.Proof.KIFrame2
import proofs.«125397_j74723841016248_1_alg».proof.Proof.KIFrame3
import proofs.«125397_j74723841016248_1_alg».proof.Proof.Gen.KernelIdeal.Regions

-- membership of an index in a whole-block rectangle of 6000 or 2048 rows is checked by a structural recursion
-- that goes once per coordinate of the long axis
set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: nine segments from the launch to the return

@main is five stretches of host operations with the four kernel regions between them. The contents of a core's buffers
at each of the ten segment boundaries are a fold from the launch memory: a host stretch applies its operations' results
in order; a region leaves its windows' arrays at what its write-backs produce and every other buffer as it found it.
Each region's proof data is taken at the contents its region is entered with.

## The buffer contents at each segment boundary -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held
    at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held
    at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it held
    at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it held
    at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4` (what @main returns from). -/
abbrev W9 : Dev nD → Valuation τ sig (Elt F) := fun c => StableHlo.after hostOps4 (W8 m ρ c)

/-! ### The arguments end as launched

No host operation writes an argument (each stretch's written references are listed, and no argument is among them), and
no window's array is an argument, so the fold at an argument's buffer walks back through the nine segments to the
launch memory. -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_writes_sub hostOps4 _ hostOps4_writes (by decide)
    _ = W7 m ρ c (Proc.devRef .tc main_arg9) := W8_of_ne m ρ c main_arg9 (by decide)
    _ = W6 m ρ c (Proc.devRef .tc main_arg9) := StableHlo.after_of_writes_sub hostOps3 _ hostOps3_writes (by decide)
    _ = W5 m ρ c (Proc.devRef .tc main_arg9) := W6_of_ne m ρ c main_arg9 (by decide)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W9_main_arg10 (c : Dev nD) : W9 m ρ c (Proc.devRef .tc main_arg10) = m ((c : Thread nD τ).loc main_arg10) :=
  calc W9 m ρ c (Proc.devRef .tc main_arg10)
    _ = W8 m ρ c (Proc.devRef .tc main_arg10) := StableHlo.after_of_writes_sub hostOps4 _ hostOps4_writes (by decide)
    _ = W7 m ρ c (Proc.devRef .tc main_arg10) := W8_of_ne m ρ c main_arg10 (by decide)
    _ = W6 m ρ c (Proc.devRef .tc main_arg10) := StableHlo.after_of_writes_sub hostOps3 _ hostOps3_writes (by decide)
    _ = W5 m ρ c (Proc.devRef .tc main_arg10) := W6_of_ne m ρ c main_arg10 (by decide)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W9_main_arg11 (c : Dev nD) : W9 m ρ c (Proc.devRef .tc main_arg11) = m ((c : Thread nD τ).loc main_arg11) :=
  calc W9 m ρ c (Proc.devRef .tc main_arg11)
    _ = W8 m ρ c (Proc.devRef .tc main_arg11) := StableHlo.after_of_writes_sub hostOps4 _ hostOps4_writes (by decide)
    _ = W7 m ρ c (Proc.devRef .tc main_arg11) := W8_of_ne m ρ c main_arg11 (by decide)
    _ = W6 m ρ c (Proc.devRef .tc main_arg11) := StableHlo.after_of_writes_sub hostOps3 _ hostOps3_writes (by decide)
    _ = W5 m ρ c (Proc.devRef .tc main_arg11) := W6_of_ne m ρ c main_arg11 (by decide)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents: a literal case split on the pipeline's index, so
    that the pinned configuration at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each region's
    invariant takes it in and gives it back) and what the core owes, which is nothing. -/
abbrev R (c : Dev nD) : sProp 𝕄 := iprop((∃ r, prngReg c r) ∗ ∃ W, owes (c : Thread nD τ) (0 : CellTallies nD τ sig Unit) W)
/-- A host stretch as a segment: its operations run over the unscoped references from the contents `W`, `R` riding
    along; it ends with those references at the stretch's fold over `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W9`, the
    generator register at some state. -/
abbrev Tₙ (c : Dev nD) : sProp 𝕄 := iprop(StableHlo.held (c : Thread nD τ) (Pipeline.ucRefs τ sig) (W9 m ρ c) ∗ ∃ r, prngReg c r)

/-! ## The regions as segments -/

-- applying a library lemma stated over the pinned configuration `pin pcs a p` unifies with the printed configuration only
-- when unification may unfold plain definitions in a metavariable's type
set_option backward.isDefEq.respectTransparency.types false in
/-- Region 0 over the thread state: entered from every unscoped buffer at `W1`, left at `W2`. Its arrays are split out
    of the unscoped buffers at entry and put back, at the exit contents, at the end; the generator register goes into the
    pipeline's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` unifies with the printed configuration only
-- when unification may unfold plain definitions in a metavariable's type
set_option backward.isDefEq.respectTransparency.types false in
/-- Region 1 over the thread state: entered from every unscoped buffer at `W3`, left at `W4`. Its arrays are split out
    of the unscoped buffers at entry and put back, at the exit contents, at the end; the generator register goes into the
    pipeline's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` unifies with the printed configuration only
-- when unification may unfold plain definitions in a metavariable's type
set_option backward.isDefEq.respectTransparency.types false in
/-- Region 2 over the thread state: entered from every unscoped buffer at `W5`, left at `W6`. Its arrays are split out
    of the unscoped buffers at entry and put back, at the exit contents, at the end; the generator register goes into the
    pipeline's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration `pin pcs a p` unifies with the printed configuration only
-- when unification may unfold plain definitions in a metavariable's type
set_option backward.isDefEq.respectTransparency.types false in
/-- Region 3 over the thread state: entered from every unscoped buffer at `W7`, left at `W8`. Its arrays are split out
    of the unscoped buffers at entry and put back, at the exit contents, at the end; the generator register goes into the
    pipeline's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 9 segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the segments: it is the chain of its nine items, and so is the segments' run. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. At the compiled mesh, from any memory with zero counters, every weakly fair execution of @main on the
    TensorCores terminates, nothing faulting, and in every final state each core's unscoped buffers hold the last boundary's
    contents `W9`: the launch over the nine segments, then the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h => h)

/-- info: 'Cert.KernelIdeal.GenH.run_all' depends on axioms: [propext, Classical.choice, Quot.sound] -/
#guard_msgs in #print axioms run_all

/-- THE FRAME, at any `F`: every weakly fair execution of @main terminates, nothing faulting, and every final state has
    the twelve argument arrays as launched — each argument is an unscoped buffer, so the run gives its final contents as
    `W9`'s, which are the launch memory's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
      ⟨(h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩) (run_all m ρ)

/-- info: 'Cert.KernelIdeal.GenH.frame' depends on axioms: [propext, Classical.choice, Quot.sound] -/
#guard_msgs in #print axioms frame

end Cert.KernelIdeal.GenH

end
-- ==== Proof.RefRun.lean ====
/- The run of the reference program, read as one straight line of host operations.

   @main is printed in four consecutive windows (`main_part0` … `main_part3`); three of them call @leaky_relu
   (which calls @_where) and the last calls @log_sigmoid (which calls @softplus). A call executes the callee's body
   on the caller's buffers, so each window is the list of its own operations with the callee's operations standing
   at the call site, each at the call's own buffers (the record's fields, by their names) with its function at
   the callee's declared types. Each window is that list by unfolding (`rfl`: the callee's definition at the call, the
   record at its fields, a typed reference's transport the identity at a literal reference); @main is the
   concatenation `ops`; `run_seq` then gives: every weakly fair execution terminates with every buffer at the
   fold `after ops` of the launch contents. An argument buffer is written by no operation (it is not among the
   written references of any window), so it keeps its launch contents. -/
import proofs.«125397_j74723841016248_1_alg».proof.Proof.Gen.ReferenceIdeal
import Idealize.ShloMosaic.Lib.StableHlo.Run
import Idealize.ShloMosaic.Lib.Pipeline.Frame
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, window by window -/

/-- Window `main_part0`: the neighbour aggregation of layer 0 (gather, scale, scatter-add), its two matrix
    products and biases, @leaky_relu inlined over `main_call0` (its select is `main_v34`), the row
    normalisation of that result, and the start of layer 1's aggregation. -/
abbrev ops0 : List (HloOp τ sig (Elt F)) :=
  [ binary main_arg0 main_arg1 main_v0 ((fun a b => concatenate S150000x64 0 [⟨S50000x64, a⟩, ⟨S100000x64, b⟩] concatenates_S50000x64_S100000x64_S150000x64_d0) : (⟨S50000x64, .f32⟩ : BufTy).Contents (Elt F) → (⟨S100000x64, .f32⟩ : BufTy).Contents (Elt F) → (⟨S150000x64, .f32⟩ : BufTy).Contents (Elt F)),
    unary main_arg6 main_v1 (broadcastInDim S2000000x1 ![0] bcast_S2000000_S2000000x1_0 : (⟨S2000000, .f32⟩ : BufTy).Contents (Elt F) → (⟨S2000000x1, .f32⟩ : BufTy).Contents (Elt F)),
    nullary main_c (constantI S_ 32 0#32),
    unary main_c main_v2 (broadcastInDim S2000000 ![] bcast_S_S2000000 : (⟨S_, .i32⟩ : BufTy).Contents (Elt F) → (⟨S2000000, .i32⟩ : BufTy).Contents (Elt F)),
    binary main_arg8 main_v2 main_v3 (cmpi .slt : (⟨S2000000, .i32⟩ : BufTy).Contents (Elt F) → (⟨S2000000, .i32⟩ : BufTy).Contents (Elt F) → (⟨S2000000, .i1⟩ : BufTy).Contents (Elt F)),
    nullary main_c_0 (constantI S_ 32 150000#32),
    unary main_c_0 main_v4 (broadcastInDim S2000000 ![] bcast_S_S2000000 : (⟨S_, .i32⟩ : BufTy).Contents (Elt F) → (⟨S2000000, .i32⟩ : BufTy).Contents (Elt F)),
    binary main_arg8 main_v4 main_v5 (addi : (⟨S2000000, .i32⟩ : BufTy).Contents (Elt F) → (⟨S2000000, .i32⟩ : BufTy).Contents (Elt F) → (⟨S2000000, .i32⟩ : BufTy).Contents (Elt F)),
    ternary main_v3 main_v5 main_arg8 main_v6 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v6 main_v7 (broadcastInDim S2000000x1 ![0] bcast_S2000000_S2000000x1_0 : (⟨S2000000, .i32⟩ : BufTy).Contents (Elt F) → (⟨S2000000x1, .i32⟩ : BufTy).Contents (Elt F)),
    binary main_v0 main_v7 main_v8 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    unary main_v1 main_v9 (broadcastInDim S2000000x64 ![0, 1] bcast_S2000000x1_S2000000x64_0_1 : (⟨S2000000x1, .f32⟩ : BufTy).Contents (Elt F) → (⟨S2000000x64, .f32⟩ : BufTy).Contents (Elt F)),
    binary main_v9 main_v8 main_v10 (mulf : (⟨S2000000x64, .f32⟩ : BufTy).Contents (Elt F) → (⟨S2000000x64, .f32⟩ : BufTy).Contents (Elt F) → (⟨S2000000x64, .f32⟩ : BufTy).Contents (Elt F)),
    nullary main_cst (constant S_ .f32 0x00000000#32),
    unary main_cst main_v11 (broadcastInDim S150000x64 ![] bcast_S_S150000x64 : (⟨S_, .f32⟩ : BufTy).Contents (Elt F) → (⟨S150000x64, .f32⟩ : BufTy).Contents (Elt F)),
    unary main_arg7 main_v12 (broadcastInDim S2000000x1 ![0] bcast_S2000000_S2000000x1_0 : (⟨S2000000, .i32⟩ : BufTy).Contents (Elt F) → (⟨S2000000x1, .i32⟩ : BufTy).Contents (Elt F)),
    ternary main_v11 main_v12 main_v10 main_v13 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    unary main_arg2 main_v14 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v14 main_v15 rfl shapeCasts_S1x64x64_S64x64,
    unary main_v15 main_v16 ((transpose S64x64 [1, 0] · transposes_S64x64_S64x64_1_0) : (⟨S64x64, .f32⟩ : BufTy).Contents (Elt F) → (⟨S64x64, .f32⟩ : BufTy).Contents (Elt F)),
    binary main_v13 main_v16 main_v17 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg3 main_v18 ((extractStridedSlice S1x64 ![0, 0] · slices_S3x64_S1x64_0_0) : (⟨S3x64, .f32⟩ : BufTy).Contents (Elt F) → (⟨S1x64, .f32⟩ : BufTy).Contents (Elt F)),
    reshape main_v18 main_v19 rfl shapeCasts_S1x64_S64,
    unary main_v19 main_v20 (broadcastInDim S1x64 ![1] bcast_S64_S1x64_1 : (⟨S64, .f32⟩ : BufTy).Contents (Elt F) → (⟨S1x64, .f32⟩ : BufTy).Contents (Elt F)),
    unary main_v20 main_v21 (broadcastInDim S150000x64 ![0, 1] bcast_S1x64_S150000x64_0_1 : (⟨S1x64, .f32⟩ : BufTy).Contents (Elt F) → (⟨S150000x64, .f32⟩ : BufTy).Contents (Elt F)),
    binary main_v17 main_v21 main_v22 (addf : (⟨S150000x64, .f32⟩ : BufTy).Contents (Elt F) → (⟨S150000x64, .f32⟩ : BufTy).Contents (Elt F) → (⟨S150000x64, .f32⟩ : BufTy).Contents (Elt F)),
    binary main_v0 main_v13 main_v23 (mulf : (⟨S150000x64, .f32⟩ : BufTy).Contents (Elt F) → (⟨S150000x64, .f32⟩ : BufTy).Contents (Elt F) → (⟨S150000x64, .f32⟩ : BufTy).Contents (Elt F)),
    unary main_arg4 main_v24 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v24 main_v25 rfl shapeCasts_S1x64x64_S64x64,
    unary main_v25 main_v26 ((transpose S64x64 [1, 0] · transposes_S64x64_S64x64_1_0) : (⟨S64x64, .f32⟩ : BufTy).Contents (Elt F) → (⟨S64x64, .f32⟩ : BufTy).Contents (Elt F)),
    binary main_v23 main_v26 main_v27 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v28 ((extractStridedSlice S1x64 ![0, 0] · slices_S3x64_S1x64_0_0) : (⟨S3x64, .f32⟩ : BufTy).Contents (Elt F) → (⟨S1x64, .f32⟩ : BufTy).Contents (Elt F)),
    reshape main_v28 main_v29 rfl shapeCasts_S1x64_S64,
    unary main_v29 main_v30 (broadcastInDim S1x64 ![1] bcast_S64_S1x64_1 : (⟨S64, .f32⟩ : BufTy).Contents (Elt F) → (⟨S1x64, .f32⟩ : BufTy).Contents (Elt F)),
    unary main_v30 main_v31 (broadcastInDim S150000x64 ![0, 1] bcast_S1x64_S150000x64_0_1 : (⟨S1x64, .f32⟩ : BufTy).Contents (Elt F) → (⟨S150000x64, .f32⟩ : BufTy).Contents (Elt F)),
    binary main_v27 main_v31 main_v32 (addf : (⟨S150000x64, .f32⟩ : BufTy).Contents (Elt F) → (⟨S150000x64, .f32⟩ : BufTy).Contents (Elt F) → (⟨S150000x64, .f32⟩ : BufTy).Contents (Elt F)),
    binary main_v22 main_v32 main_v33 (addf : (⟨S150000x64, .f32⟩ : BufTy).Contents (Elt F) → (⟨S150000x64, .f32⟩ : BufTy).Contents (Elt F) → (⟨S150000x64, .f32⟩ : BufTy).Contents (Elt F)),
    nullary main_cst_1 (constant S_ .f32 0x3C23D70A#32),
    nullary main_call0_cst (constant S_ .f32 0x00000000#32 : (⟨S_, .f32⟩ : BufTy).Contents (Elt F)),
    unary main_call0_cst main_call0_v0 (broadcastInDim S150000x64 ![] bcast_S_S150000x64 : (⟨S_, .f32⟩ : BufTy).Contents (Elt F) → (⟨S150000x64, .f32⟩ : BufTy).Contents (Elt F)),
    binary main_v33 main_call0_v0 main_call0_v1 (cmpf .oge : (⟨S150000x64, .f32⟩ : BufTy).Contents (Elt F) → (⟨S150000x64, .f32⟩ : BufTy).Contents (Elt F) → (⟨S150000x64, .i1⟩ : BufTy).Contents (Elt F)),
    unary main_cst_1 main_call0_v2 (id : (⟨S_, .f32⟩ : BufTy).Contents (Elt F) → (⟨S_, .f32⟩ : BufTy).Contents (Elt F)),
    unary main_call0_v2 main_call0_v3 (broadcastInDim S150000x64 ![] bcast_S_S150000x64 : (⟨S_, .f32⟩ : BufTy).Contents (Elt F) → (⟨S150000x64, .f32⟩ : BufTy).Contents (Elt F)),
    binary main_call0_v3 main_v33 main_call0_v4 (mulf : (⟨S150000x64, .f32⟩ : BufTy).Contents (Elt F) → (⟨S150000x64, .f32⟩ : BufTy).Contents (Elt F) → (⟨S150000x64, .f32⟩ : BufTy).Contents (Elt F)),
    ternary main_call0_v1 main_v33 main_call0_v4 main_v34 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)),
    binary main_v34 main_v34 main_v35 (mulf : (⟨S150000x64, .f32⟩ : BufTy).Contents (Elt F) → (⟨S150000x64, .f32⟩ : BufTy).Contents (Elt F) → (⟨S150000x64, .f32⟩ : BufTy).Contents (Elt F)),
    nullary main_cst_2 (constant S_ .f32 0x00000000#32),
    binary main_v35 main_cst_2 main_v36 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v36 main_v37 (broadcastInDim S150000x1 ![0] bcast_S150000_S150000x1_0 : (⟨S150000, .f32⟩ : BufTy).Contents (Elt F) → (⟨S150000x1, .f32⟩ : BufTy).Contents (Elt F)),
    unary main_v37 main_v38 (Host.sqrt : (⟨S150000x1, .f32⟩ : BufTy).Contents (Elt F) → (⟨S150000x1, .f32⟩ : BufTy).Contents (Elt F)),
    nullary main_cst_3 (constant S_ .f32 0x2B8CBCCC#32),
    unary main_cst_3 main_v39 (broadcastInDim S150000x1 ![] bcast_S_S150000x1 : (⟨S_, .f32⟩ : BufTy).Contents (Elt F) → (⟨S150000x1, .f32⟩ : BufTy).Contents (Elt F)),
    binary main_v38 main_v39 main_v40 (maximumf : (⟨S150000x1, .f32⟩ : BufTy).Contents (Elt F) → (⟨S150000x1, .f32⟩ : BufTy).Contents (Elt F) → (⟨S150000x1, .f32⟩ : BufTy).Contents (Elt F)),
    unary main_v40 main_v41 (broadcastInDim S150000x64 ![0, 1] bcast_S150000x1_S150000x64_0_1 : (⟨S150000x1, .f32⟩ : BufTy).Contents (Elt F) → (⟨S150000x64, .f32⟩ : BufTy).Contents (Elt F)),
    binary main_v34 main_v41 main_v42 (Host.divf : (⟨S150000x64, .f32⟩ : BufTy).Contents (Elt F) → (⟨S150000x64, .f32⟩ : BufTy).Contents (Elt F) → (⟨S150000x64, .f32⟩ : BufTy).Contents (Elt F)),
    unary main_arg6 main_v43 (broadcastInDim S2000000x1 ![0] bcast_S2000000_S2000000x1_0 : (⟨S2000000, .f32⟩ : BufTy).Contents (Elt F) → (⟨S2000000x1, .f32⟩ : BufTy).Contents (Elt F)),
    nullary main_c_4 (constantI S_ 32 0#32),
    unary main_c_4 main_v44 (broadcastInDim S2000000 ![] bcast_S_S2000000 : (⟨S_, .i32⟩ : BufTy).Contents (Elt F) → (⟨S2000000, .i32⟩ : BufTy).Contents (Elt F)),
    binary main_arg8 main_v44 main_v45 (cmpi .slt : (⟨S2000000, .i32⟩ : BufTy).Contents (Elt F) → (⟨S2000000, .i32⟩ : BufTy).Contents (Elt F) → (⟨S2000000, .i1⟩ : BufTy).Contents (Elt F)),
    nullary main_c_5 (constantI S_ 32 150000#32),
    unary main_c_5 main_v46 (broadcastInDim S2000000 ![] bcast_S_S2000000 : (⟨S_, .i32⟩ : BufTy).Contents (Elt F) → (⟨S2000000, .i32⟩ : BufTy).Contents (Elt F)),
    binary main_arg8 main_v46 main_v47 (addi : (⟨S2000000, .i32⟩ : BufTy).Contents (Elt F) → (⟨S2000000, .i32⟩ : BufTy).Contents (Elt F) → (⟨S2000000, .i32⟩ : BufTy).Contents (Elt F)),
    ternary main_v45 main_v47 main_arg8 main_v48 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v48 main_v49 (broadcastInDim S2000000x1 ![0] bcast_S2000000_S2000000x1_0 : (⟨S2000000, .i32⟩ : BufTy).Contents (Elt F) → (⟨S2000000x1, .i32⟩ : BufTy).Contents (Elt F)),
    binary main_v34 main_v49 main_v50 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    unary main_v43 main_v51 (broadcastInDim S2000000x64 ![0, 1] bcast_S2000000x1_S2000000x64_0_1 : (⟨S2000000x1, .f32⟩ : BufTy).Contents (Elt F) → (⟨S2000000x64, .f32⟩ : BufTy).Contents (Elt F)) ]

/-- Window `main_part1`: the rest of layer 1 (@leaky_relu inlined over `main_call1`, its select is `main_v76`),
    its row normalisation, and layer 2 up to the first bias's first broadcast. -/
abbrev ops1 : List (HloOp τ sig (Elt F)) :=
  [ binary main_v51 main_v50 main_v52 (mulf : (⟨S2000000x64, .f32⟩ : BufTy).Contents (Elt F) → (⟨S2000000x64, .f32⟩ : BufTy).Contents (Elt F) → (⟨S2000000x64, .f32⟩ : BufTy).Contents (Elt F)),
    nullary main_cst_6 (constant S_ .f32 0x00000000#32),
    unary main_cst_6 main_v53 (broadcastInDim S150000x64 ![] bcast_S_S150000x64 : (⟨S_, .f32⟩ : BufTy).Contents (Elt F) → (⟨S150000x64, .f32⟩ : BufTy).Contents (Elt F)),
    unary main_arg7 main_v54 (broadcastInDim S2000000x1 ![0] bcast_S2000000_S2000000x1_0 : (⟨S2000000, .i32⟩ : BufTy).Contents (Elt F) → (⟨S2000000x1, .i32⟩ : BufTy).Contents (Elt F)),
    ternary main_v53 main_v54 main_v52 main_v55 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    unary main_arg2 main_v56 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v56 main_v57 rfl shapeCasts_S1x64x64_S64x64,
    unary main_v57 main_v58 ((transpose S64x64 [1, 0] · transposes_S64x64_S64x64_1_0) : (⟨S64x64, .f32⟩ : BufTy).Contents (Elt F) → (⟨S64x64, .f32⟩ : BufTy).Contents (Elt F)),
    binary main_v55 main_v58 main_v59 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg3 main_v60 ((extractStridedSlice S1x64 ![1, 0] · slices_S3x64_S1x64_1_0) : (⟨S3x64, .f32⟩ : BufTy).Contents (Elt F) → (⟨S1x64, .f32⟩ : BufTy).Contents (Elt F)),
    reshape main_v60 main_v61 rfl shapeCasts_S1x64_S64,
    unary main_v61 main_v62 (broadcastInDim S1x64 ![1] bcast_S64_S1x64_1 : (⟨S64, .f32⟩ : BufTy).Contents (Elt F) → (⟨S1x64, .f32⟩ : BufTy).Contents (Elt F)),
    unary main_v62 main_v63 (broadcastInDim S150000x64 ![0, 1] bcast_S1x64_S150000x64_0_1 : (⟨S1x64, .f32⟩ : BufTy).Contents (Elt F) → (⟨S150000x64, .f32⟩ : BufTy).Contents (Elt F)),
    binary main_v59 main_v63 main_v64 (addf : (⟨S150000x64, .f32⟩ : BufTy).Contents (Elt F) → (⟨S150000x64, .f32⟩ : BufTy).Contents (Elt F) → (⟨S150000x64, .f32⟩ : BufTy).Contents (Elt F)),
    binary main_v34 main_v55 main_v65 (mulf : (⟨S150000x64, .f32⟩ : BufTy).Contents (Elt F) → (⟨S150000x64, .f32⟩ : BufTy).Contents (Elt F) → (⟨S150000x64, .f32⟩ : BufTy).Contents (Elt F)),
    unary main_arg4 main_v66 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v66 main_v67 rfl shapeCasts_S1x64x64_S64x64,
    unary main_v67 main_v68 ((transpose S64x64 [1, 0] · transposes_S64x64_S64x64_1_0) : (⟨S64x64, .f32⟩ : BufTy).Contents (Elt F) → (⟨S64x64, .f32⟩ : BufTy).Contents (Elt F)),
    binary main_v65 main_v68 main_v69 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v70 ((extractStridedSlice S1x64 ![1, 0] · slices_S3x64_S1x64_1_0) : (⟨S3x64, .f32⟩ : BufTy).Contents (Elt F) → (⟨S1x64, .f32⟩ : BufTy).Contents (Elt F)),
    reshape main_v70 main_v71 rfl shapeCasts_S1x64_S64,
    unary main_v71 main_v72 (broadcastInDim S1x64 ![1] bcast_S64_S1x64_1 : (⟨S64, .f32⟩ : BufTy).Contents (Elt F) → (⟨S1x64, .f32⟩ : BufTy).Contents (Elt F)),
    unary main_v72 main_v73 (broadcastInDim S150000x64 ![0, 1] bcast_S1x64_S150000x64_0_1 : (⟨S1x64, .f32⟩ : BufTy).Contents (Elt F) → (⟨S150000x64, .f32⟩ : BufTy).Contents (Elt F)),
    binary main_v69 main_v73 main_v74 (addf : (⟨S150000x64, .f32⟩ : BufTy).Contents (Elt F) → (⟨S150000x64, .f32⟩ : BufTy).Contents (Elt F) → (⟨S150000x64, .f32⟩ : BufTy).Contents (Elt F)),
    binary main_v64 main_v74 main_v75 (addf : (⟨S150000x64, .f32⟩ : BufTy).Contents (Elt F) → (⟨S150000x64, .f32⟩ : BufTy).Contents (Elt F) → (⟨S150000x64, .f32⟩ : BufTy).Contents (Elt F)),
    nullary main_cst_7 (constant S_ .f32 0x3C23D70A#32),
    nullary main_call1_cst (constant S_ .f32 0x00000000#32 : (⟨S_, .f32⟩ : BufTy).Contents (Elt F)),
    unary main_call1_cst main_call1_v0 (broadcastInDim S150000x64 ![] bcast_S_S150000x64 : (⟨S_, .f32⟩ : BufTy).Contents (Elt F) → (⟨S150000x64, .f32⟩ : BufTy).Contents (Elt F)),
    binary main_v75 main_call1_v0 main_call1_v1 (cmpf .oge : (⟨S150000x64, .f32⟩ : BufTy).Contents (Elt F) → (⟨S150000x64, .f32⟩ : BufTy).Contents (Elt F) → (⟨S150000x64, .i1⟩ : BufTy).Contents (Elt F)),
    unary main_cst_7 main_call1_v2 (id : (⟨S_, .f32⟩ : BufTy).Contents (Elt F) → (⟨S_, .f32⟩ : BufTy).Contents (Elt F)),
    unary main_call1_v2 main_call1_v3 (broadcastInDim S150000x64 ![] bcast_S_S150000x64 : (⟨S_, .f32⟩ : BufTy).Contents (Elt F) → (⟨S150000x64, .f32⟩ : BufTy).Contents (Elt F)),
    binary main_call1_v3 main_v75 main_call1_v4 (mulf : (⟨S150000x64, .f32⟩ : BufTy).Contents (Elt F) → (⟨S150000x64, .f32⟩ : BufTy).Contents (Elt F) → (⟨S150000x64, .f32⟩ : BufTy).Contents (Elt F)),
    ternary main_call1_v1 main_v75 main_call1_v4 main_v76 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)),
    binary main_v76 main_v76 main_v77 (mulf : (⟨S150000x64, .f32⟩ : BufTy).Contents (Elt F) → (⟨S150000x64, .f32⟩ : BufTy).Contents (Elt F) → (⟨S150000x64, .f32⟩ : BufTy).Contents (Elt F)),
    nullary main_cst_8 (constant S_ .f32 0x00000000#32),
    binary main_v77 main_cst_8 main_v78 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v78 main_v79 (broadcastInDim S150000x1 ![0] bcast_S150000_S150000x1_0 : (⟨S150000, .f32⟩ : BufTy).Contents (Elt F) → (⟨S150000x1, .f32⟩ : BufTy).Contents (Elt F)),
    unary main_v79 main_v80 (Host.sqrt : (⟨S150000x1, .f32⟩ : BufTy).Contents (Elt F) → (⟨S150000x1, .f32⟩ : BufTy).Contents (Elt F)),
    nullary main_cst_9 (constant S_ .f32 0x2B8CBCCC#32),
    unary main_cst_9 main_v81 (broadcastInDim S150000x1 ![] bcast_S_S150000x1 : (⟨S_, .f32⟩ : BufTy).Contents (Elt F) → (⟨S150000x1, .f32⟩ : BufTy).Contents (Elt F)),
    binary main_v80 main_v81 main_v82 (maximumf : (⟨S150000x1, .f32⟩ : BufTy).Contents (Elt F) → (⟨S150000x1, .f32⟩ : BufTy).Contents (Elt F) → (⟨S150000x1, .f32⟩ : BufTy).Contents (Elt F)),
    unary main_v82 main_v83 (broadcastInDim S150000x64 ![0, 1] bcast_S150000x1_S150000x64_0_1 : (⟨S150000x1, .f32⟩ : BufTy).Contents (Elt F) → (⟨S150000x64, .f32⟩ : BufTy).Contents (Elt F)),
    binary main_v76 main_v83 main_v84 (Host.divf : (⟨S150000x64, .f32⟩ : BufTy).Contents (Elt F) → (⟨S150000x64, .f32⟩ : BufTy).Contents (Elt F) → (⟨S150000x64, .f32⟩ : BufTy).Contents (Elt F)),
    unary main_arg6 main_v85 (broadcastInDim S2000000x1 ![0] bcast_S2000000_S2000000x1_0 : (⟨S2000000, .f32⟩ : BufTy).Contents (Elt F) → (⟨S2000000x1, .f32⟩ : BufTy).Contents (Elt F)),
    nullary main_c_10 (constantI S_ 32 0#32),
    unary main_c_10 main_v86 (broadcastInDim S2000000 ![] bcast_S_S2000000 : (⟨S_, .i32⟩ : BufTy).Contents (Elt F) → (⟨S2000000, .i32⟩ : BufTy).Contents (Elt F)),
    binary main_arg8 main_v86 main_v87 (cmpi .slt : (⟨S2000000, .i32⟩ : BufTy).Contents (Elt F) → (⟨S2000000, .i32⟩ : BufTy).Contents (Elt F) → (⟨S2000000, .i1⟩ : BufTy).Contents (Elt F)),
    nullary main_c_11 (constantI S_ 32 150000#32),
    unary main_c_11 main_v88 (broadcastInDim S2000000 ![] bcast_S_S2000000 : (⟨S_, .i32⟩ : BufTy).Contents (Elt F) → (⟨S2000000, .i32⟩ : BufTy).Contents (Elt F)),
    binary main_arg8 main_v88 main_v89 (addi : (⟨S2000000, .i32⟩ : BufTy).Contents (Elt F) → (⟨S2000000, .i32⟩ : BufTy).Contents (Elt F) → (⟨S2000000, .i32⟩ : BufTy).Contents (Elt F)),
    ternary main_v87 main_v89 main_arg8 main_v90 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v90 main_v91 (broadcastInDim S2000000x1 ![0] bcast_S2000000_S2000000x1_0 : (⟨S2000000, .i32⟩ : BufTy).Contents (Elt F) → (⟨S2000000x1, .i32⟩ : BufTy).Contents (Elt F)),
    binary main_v76 main_v91 main_v92 ((fun x i => Host.gather gather_S150000x64_S2000000x1_S2000000x64_1_0_n_n_0_1_164 x i) : (⟨S150000x64, .f32⟩ : BufTy).Contents (Elt F) → (⟨S2000000x1, .i32⟩ : BufTy).Contents (Elt F) → (⟨S2000000x64, .f32⟩ : BufTy).Contents (Elt F)),
    unary main_v85 main_v93 (broadcastInDim S2000000x64 ![0, 1] bcast_S2000000x1_S2000000x64_0_1 : (⟨S2000000x1, .f32⟩ : BufTy).Contents (Elt F) → (⟨S2000000x64, .f32⟩ : BufTy).Contents (Elt F)),
    binary main_v93 main_v92 main_v94 (mulf : (⟨S2000000x64, .f32⟩ : BufTy).Contents (Elt F) → (⟨S2000000x64, .f32⟩ : BufTy).Contents (Elt F) → (⟨S2000000x64, .f32⟩ : BufTy).Contents (Elt F)),
    nullary main_cst_12 (constant S_ .f32 0x00000000#32),
    unary main_cst_12 main_v95 (broadcastInDim S150000x64 ![] bcast_S_S150000x64 : (⟨S_, .f32⟩ : BufTy).Contents (Elt F) → (⟨S150000x64, .f32⟩ : BufTy).Contents (Elt F)),
    unary main_arg7 main_v96 (broadcastInDim S2000000x1 ![0] bcast_S2000000_S2000000x1_0 : (⟨S2000000, .i32⟩ : BufTy).Contents (Elt F) → (⟨S2000000x1, .i32⟩ : BufTy).Contents (Elt F)),
    ternary main_v95 main_v96 main_v94 main_v97 ((fun x i u => Host.scatterAdd scatter_S150000x64_S2000000x1_S2000000x64_1_0_0_1 x i u) : (⟨S150000x64, .f32⟩ : BufTy).Contents (Elt F) → (⟨S2000000x1, .i32⟩ : BufTy).Contents (Elt F) → (⟨S2000000x64, .f32⟩ : BufTy).Contents (Elt F) → (⟨S150000x64, .f32⟩ : BufTy).Contents (Elt F)),
    unary main_arg2 main_v98 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v98 main_v99 rfl shapeCasts_S1x64x64_S64x64,
    unary main_v99 main_v100 ((transpose S64x64 [1, 0] · transposes_S64x64_S64x64_1_0) : (⟨S64x64, .f32⟩ : BufTy).Contents (Elt F) → (⟨S64x64, .f32⟩ : BufTy).Contents (Elt F)),
    binary main_v97 main_v100 main_v101 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg3 main_v102 ((extractStridedSlice S1x64 ![2, 0] · slices_S3x64_S1x64_2_0) : (⟨S3x64, .f32⟩ : BufTy).Contents (Elt F) → (⟨S1x64, .f32⟩ : BufTy).Contents (Elt F)),
    reshape main_v102 main_v103 rfl shapeCasts_S1x64_S64,
    unary main_v103 main_v104 (broadcastInDim S1x64 ![1] bcast_S64_S1x64_1 : (⟨S64, .f32⟩ : BufTy).Contents (Elt F) → (⟨S1x64, .f32⟩ : BufTy).Contents (Elt F)) ]

/-- Window `main_part2`: the rest of layer 2 (@leaky_relu inlined over `main_call2`, its select is `main_v118`),
    its row normalisation, the concatenation of the four blocks of columns, its two row slices, the three
    index normalisations and row gathers, and the two products whose rows are summed next. -/
abbrev ops2 : List (HloOp τ sig (Elt F)) :=
  [ unary main_v104 main_v105 (broadcastInDim S150000x64 ![0, 1] bcast_S1x64_S150000x64_0_1 : (⟨S1x64, .f32⟩ : BufTy).Contents (Elt F) → (⟨S150000x64, .f32⟩ : BufTy).Contents (Elt F)),
    binary main_v101 main_v105 main_v106 (addf : (⟨S150000x64, .f32⟩ : BufTy).Contents (Elt F) → (⟨S150000x64, .f32⟩ : BufTy).Contents (Elt F) → (⟨S150000x64, .f32⟩ : BufTy).Contents (Elt F)),
    binary main_v76 main_v97 main_v107 (mulf : (⟨S150000x64, .f32⟩ : BufTy).Contents (Elt F) → (⟨S150000x64, .f32⟩ : BufTy).Contents (Elt F) → (⟨S150000x64, .f32⟩ : BufTy).Contents (Elt F)),
    unary main_arg4 main_v108 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v108 main_v109 rfl shapeCasts_S1x64x64_S64x64,
    unary main_v109 main_v110 ((transpose S64x64 [1, 0] · transposes_S64x64_S64x64_1_0) : (⟨S64x64, .f32⟩ : BufTy).Contents (Elt F) → (⟨S64x64, .f32⟩ : BufTy).Contents (Elt F)),
    binary main_v107 main_v110 main_v111 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v112 ((extractStridedSlice S1x64 ![2, 0] · slices_S3x64_S1x64_2_0) : (⟨S3x64, .f32⟩ : BufTy).Contents (Elt F) → (⟨S1x64, .f32⟩ : BufTy).Contents (Elt F)),
    reshape main_v112 main_v113 rfl shapeCasts_S1x64_S64,
    unary main_v113 main_v114 (broadcastInDim S1x64 ![1] bcast_S64_S1x64_1 : (⟨S64, .f32⟩ : BufTy).Contents (Elt F) → (⟨S1x64, .f32⟩ : BufTy).Contents (Elt F)),
    unary main_v114 main_v115 (broadcastInDim S150000x64 ![0, 1] bcast_S1x64_S150000x64_0_1 : (⟨S1x64, .f32⟩ : BufTy).Contents (Elt F) → (⟨S150000x64, .f32⟩ : BufTy).Contents (Elt F)),
    binary main_v111 main_v115 main_v116 (addf : (⟨S150000x64, .f32⟩ : BufTy).Contents (Elt F) → (⟨S150000x64, .f32⟩ : BufTy).Contents (Elt F) → (⟨S150000x64, .f32⟩ : BufTy).Contents (Elt F)),
    binary main_v106 main_v116 main_v117 (addf : (⟨S150000x64, .f32⟩ : BufTy).Contents (Elt F) → (⟨S150000x64, .f32⟩ : BufTy).Contents (Elt F) → (⟨S150000x64, .f32⟩ : BufTy).Contents (Elt F)),
    nullary main_cst_13 (constant S_ .f32 0x3C23D70A#32),
    nullary main_call2_cst (constant S_ .f32 0x00000000#32 : (⟨S_, .f32⟩ : BufTy).Contents (Elt F)),
    unary main_call2_cst main_call2_v0 (broadcastInDim S150000x64 ![] bcast_S_S150000x64 : (⟨S_, .f32⟩ : BufTy).Contents (Elt F) → (⟨S150000x64, .f32⟩ : BufTy).Contents (Elt F)),
    binary main_v117 main_call2_v0 main_call2_v1 (cmpf .oge : (⟨S150000x64, .f32⟩ : BufTy).Contents (Elt F) → (⟨S150000x64, .f32⟩ : BufTy).Contents (Elt F) → (⟨S150000x64, .i1⟩ : BufTy).Contents (Elt F)),
    unary main_cst_13 main_call2_v2 (id : (⟨S_, .f32⟩ : BufTy).Contents (Elt F) → (⟨S_, .f32⟩ : BufTy).Contents (Elt F)),
    unary main_call2_v2 main_call2_v3 (broadcastInDim S150000x64 ![] bcast_S_S150000x64 : (⟨S_, .f32⟩ : BufTy).Contents (Elt F) → (⟨S150000x64, .f32⟩ : BufTy).Contents (Elt F)),
    binary main_call2_v3 main_v117 main_call2_v4 (mulf : (⟨S150000x64, .f32⟩ : BufTy).Contents (Elt F) → (⟨S150000x64, .f32⟩ : BufTy).Contents (Elt F) → (⟨S150000x64, .f32⟩ : BufTy).Contents (Elt F)),
    ternary main_call2_v1 main_v117 main_call2_v4 main_v118 (select : (⟨S150000x64, .i1⟩ : BufTy).Contents (Elt F) → (⟨S150000x64, .f32⟩ : BufTy).Contents (Elt F) → (⟨S150000x64, .f32⟩ : BufTy).Contents (Elt F) → (⟨S150000x64, .f32⟩ : BufTy).Contents (Elt F)),
    binary main_v118 main_v118 main_v119 (mulf : (⟨S150000x64, .f32⟩ : BufTy).Contents (Elt F) → (⟨S150000x64, .f32⟩ : BufTy).Contents (Elt F) → (⟨S150000x64, .f32⟩ : BufTy).Contents (Elt F)),
    nullary main_cst_14 (constant S_ .f32 0x00000000#32),
    binary main_v119 main_cst_14 main_v120 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v120 main_v121 (broadcastInDim S150000x1 ![0] bcast_S150000_S150000x1_0 : (⟨S150000, .f32⟩ : BufTy).Contents (Elt F) → (⟨S150000x1, .f32⟩ : BufTy).Contents (Elt F)),
    unary main_v121 main_v122 (Host.sqrt : (⟨S150000x1, .f32⟩ : BufTy).Contents (Elt F) → (⟨S150000x1, .f32⟩ : BufTy).Contents (Elt F)),
    nullary main_cst_15 (constant S_ .f32 0x2B8CBCCC#32),
    unary main_cst_15 main_v123 (broadcastInDim S150000x1 ![] bcast_S_S150000x1 : (⟨S_, .f32⟩ : BufTy).Contents (Elt F) → (⟨S150000x1, .f32⟩ : BufTy).Contents (Elt F)),
    binary main_v122 main_v123 main_v124 (maximumf : (⟨S150000x1, .f32⟩ : BufTy).Contents (Elt F) → (⟨S150000x1, .f32⟩ : BufTy).Contents (Elt F) → (⟨S150000x1, .f32⟩ : BufTy).Contents (Elt F)),
    unary main_v124 main_v125 (broadcastInDim S150000x64 ![0, 1] bcast_S150000x1_S150000x64_0_1 : (⟨S150000x1, .f32⟩ : BufTy).Contents (Elt F) → (⟨S150000x64, .f32⟩ : BufTy).Contents (Elt F)),
    binary main_v118 main_v125 main_v126 (Host.divf : (⟨S150000x64, .f32⟩ : BufTy).Contents (Elt F) → (⟨S150000x64, .f32⟩ : BufTy).Contents (Elt F) → (⟨S150000x64, .f32⟩ : BufTy).Contents (Elt F)),
    nary ![main_v0, main_v42, main_v84, main_v126] main_v127 (fun u => concatenate S150000x256 1 [⟨S150000x64, u 0⟩, ⟨S150000x64, u 1⟩, ⟨S150000x64, u 2⟩, ⟨S150000x64, u 3⟩] concatenates_S150000x64_S150000x64_S150000x64_S150000x64_S150000x256_d1),
    unary main_v127 main_v128 ((extractStridedSlice S50000x256 ![0, 0] · slices_S150000x256_S50000x256_0_0) : (⟨S150000x256, .f32⟩ : BufTy).Contents (Elt F) → (⟨S50000x256, .f32⟩ : BufTy).Contents (Elt F)),
    unary main_v127 main_v129 ((extractStridedSlice S100000x256 ![50000, 0] · slices_S150000x256_S100000x256_50000_0) : (⟨S150000x256, .f32⟩ : BufTy).Contents (Elt F) → (⟨S100000x256, .f32⟩ : BufTy).Contents (Elt F)),
    nullary main_c_16 (constantI S_ 32 0#32),
    unary main_c_16 main_v130 (broadcastInDim S8192 ![] bcast_S_S8192 : (⟨S_, .i32⟩ : BufTy).Contents (Elt F) → (⟨S8192, .i32⟩ : BufTy).Contents (Elt F)),
    binary main_arg9 main_v130 main_v131 (cmpi .slt : (⟨S8192, .i32⟩ : BufTy).Contents (Elt F) → (⟨S8192, .i32⟩ : BufTy).Contents (Elt F) → (⟨S8192, .i1⟩ : BufTy).Contents (Elt F)),
    nullary main_c_17 (constantI S_ 32 50000#32),
    unary main_c_17 main_v132 (broadcastInDim S8192 ![] bcast_S_S8192 : (⟨S_, .i32⟩ : BufTy).Contents (Elt F) → (⟨S8192, .i32⟩ : BufTy).Contents (Elt F)),
    binary main_arg9 main_v132 main_v133 (addi : (⟨S8192, .i32⟩ : BufTy).Contents (Elt F) → (⟨S8192, .i32⟩ : BufTy).Contents (Elt F) → (⟨S8192, .i32⟩ : BufTy).Contents (Elt F)),
    ternary main_v131 main_v133 main_arg9 main_v134 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v134 main_v135 (broadcastInDim S8192x1 ![0] bcast_S8192_S8192x1_0 : (⟨S8192, .i32⟩ : BufTy).Contents (Elt F) → (⟨S8192x1, .i32⟩ : BufTy).Contents (Elt F)),
    binary main_v128 main_v135 main_v136 ((fun x i => Host.gather gather_S50000x256_S8192x1_S8192x256_1_0_n_n_0_1_1256 x i) : (⟨S50000x256, .f32⟩ : BufTy).Contents (Elt F) → (⟨S8192x1, .i32⟩ : BufTy).Contents (Elt F) → (⟨S8192x256, .f32⟩ : BufTy).Contents (Elt F)),
    nullary main_c_18 (constantI S_ 32 0#32),
    unary main_c_18 main_v137 (broadcastInDim S8192 ![] bcast_S_S8192 : (⟨S_, .i32⟩ : BufTy).Contents (Elt F) → (⟨S8192, .i32⟩ : BufTy).Contents (Elt F)),
    binary main_arg10 main_v137 main_v138 (cmpi .slt : (⟨S8192, .i32⟩ : BufTy).Contents (Elt F) → (⟨S8192, .i32⟩ : BufTy).Contents (Elt F) → (⟨S8192, .i1⟩ : BufTy).Contents (Elt F)),
    nullary main_c_19 (constantI S_ 32 100000#32),
    unary main_c_19 main_v139 (broadcastInDim S8192 ![] bcast_S_S8192 : (⟨S_, .i32⟩ : BufTy).Contents (Elt F) → (⟨S8192, .i32⟩ : BufTy).Contents (Elt F)),
    binary main_arg10 main_v139 main_v140 (addi : (⟨S8192, .i32⟩ : BufTy).Contents (Elt F) → (⟨S8192, .i32⟩ : BufTy).Contents (Elt F) → (⟨S8192, .i32⟩ : BufTy).Contents (Elt F)),
    ternary main_v138 main_v140 main_arg10 main_v141 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v141 main_v142 (broadcastInDim S8192x1 ![0] bcast_S8192_S8192x1_0 : (⟨S8192, .i32⟩ : BufTy).Contents (Elt F) → (⟨S8192x1, .i32⟩ : BufTy).Contents (Elt F)),
    binary main_v129 main_v142 main_v143 ((fun x i => Host.gather gather_S100000x256_S8192x1_S8192x256_1_0_n_n_0_1_1256 x i) : (⟨S100000x256, .f32⟩ : BufTy).Contents (Elt F) → (⟨S8192x1, .i32⟩ : BufTy).Contents (Elt F) → (⟨S8192x256, .f32⟩ : BufTy).Contents (Elt F)),
    nullary main_c_20 (constantI S_ 32 0#32),
    unary main_c_20 main_v144 (broadcastInDim S8192 ![] bcast_S_S8192 : (⟨S_, .i32⟩ : BufTy).Contents (Elt F) → (⟨S8192, .i32⟩ : BufTy).Contents (Elt F)),
    binary main_arg11 main_v144 main_v145 (cmpi .slt : (⟨S8192, .i32⟩ : BufTy).Contents (Elt F) → (⟨S8192, .i32⟩ : BufTy).Contents (Elt F) → (⟨S8192, .i1⟩ : BufTy).Contents (Elt F)),
    nullary main_c_21 (constantI S_ 32 100000#32),
    unary main_c_21 main_v146 (broadcastInDim S8192 ![] bcast_S_S8192 : (⟨S_, .i32⟩ : BufTy).Contents (Elt F) → (⟨S8192, .i32⟩ : BufTy).Contents (Elt F)),
    binary main_arg11 main_v146 main_v147 (addi : (⟨S8192, .i32⟩ : BufTy).Contents (Elt F) → (⟨S8192, .i32⟩ : BufTy).Contents (Elt F) → (⟨S8192, .i32⟩ : BufTy).Contents (Elt F)),
    ternary main_v145 main_v147 main_arg11 main_v148 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v148 main_v149 (broadcastInDim S8192x1 ![0] bcast_S8192_S8192x1_0 : (⟨S8192, .i32⟩ : BufTy).Contents (Elt F) → (⟨S8192x1, .i32⟩ : BufTy).Contents (Elt F)),
    binary main_v129 main_v149 main_v150 ((fun x i => Host.gather gather_S100000x256_S8192x1_S8192x256_1_0_n_n_0_1_1256 x i) : (⟨S100000x256, .f32⟩ : BufTy).Contents (Elt F) → (⟨S8192x1, .i32⟩ : BufTy).Contents (Elt F) → (⟨S8192x256, .f32⟩ : BufTy).Contents (Elt F)),
    binary main_v136 main_v143 main_v151 (mulf : (⟨S8192x256, .f32⟩ : BufTy).Contents (Elt F) → (⟨S8192x256, .f32⟩ : BufTy).Contents (Elt F) → (⟨S8192x256, .f32⟩ : BufTy).Contents (Elt F)),
    nullary main_cst_22 (constant S_ .f32 0x00000000#32),
    binary main_v151 main_cst_22 main_v152 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    binary main_v136 main_v150 main_v153 (mulf : (⟨S8192x256, .f32⟩ : BufTy).Contents (Elt F) → (⟨S8192x256, .f32⟩ : BufTy).Contents (Elt F) → (⟨S8192x256, .f32⟩ : BufTy).Contents (Elt F)),
    nullary main_cst_23 (constant S_ .f32 0x00000000#32) ]

/-- Window `main_part3`: the second row sum, the difference of the two scores, @log_sigmoid inlined over
    `main_call3` (@softplus over `main_call3.call0` inside it), the sum over the batch, the division by the
    batch size and the negation. -/
abbrev ops3 : List (HloOp τ sig (Elt F)) :=
  [ binary main_v153 main_cst_23 main_v154 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    binary main_v152 main_v154 main_v155 (subf : (⟨S8192, .f32⟩ : BufTy).Contents (Elt F) → (⟨S8192, .f32⟩ : BufTy).Contents (Elt F) → (⟨S8192, .f32⟩ : BufTy).Contents (Elt F)),
    unary main_v155 main_call3_v0 (Host.negf : (⟨S8192, .f32⟩ : BufTy).Contents (Elt F) → (⟨S8192, .f32⟩ : BufTy).Contents (Elt F)),
    nullary main_call3_call0_cst (constant S_ .f32 0x00000000#32 : (⟨S_, .f32⟩ : BufTy).Contents (Elt F)),
    unary main_call3_call0_cst main_call3_call0_v0 (broadcastInDim S8192 ![] bcast_S_S8192 : (⟨S_, .f32⟩ : BufTy).Contents (Elt F) → (⟨S8192, .f32⟩ : BufTy).Contents (Elt F)),
    binary main_call3_v0 main_call3_call0_v0 main_call3_call0_v1 (maximumf : (⟨S8192, .f32⟩ : BufTy).Contents (Elt F) → (⟨S8192, .f32⟩ : BufTy).Contents (Elt F) → (⟨S8192, .f32⟩ : BufTy).Contents (Elt F)),
    unary main_call3_call0_cst main_call3_call0_v2 (broadcastInDim S8192 ![] bcast_S_S8192 : (⟨S_, .f32⟩ : BufTy).Contents (Elt F) → (⟨S8192, .f32⟩ : BufTy).Contents (Elt F)),
    binary main_call3_v0 main_call3_call0_v2 main_call3_call0_v3 (subf : (⟨S8192, .f32⟩ : BufTy).Contents (Elt F) → (⟨S8192, .f32⟩ : BufTy).Contents (Elt F) → (⟨S8192, .f32⟩ : BufTy).Contents (Elt F)),
    binary main_call3_call0_v3 main_call3_call0_v3 main_call3_call0_v4 (cmpf .une : (⟨S8192, .f32⟩ : BufTy).Contents (Elt F) → (⟨S8192, .f32⟩ : BufTy).Contents (Elt F) → (⟨S8192, .i1⟩ : BufTy).Contents (Elt F)),
    unary main_call3_call0_cst main_call3_call0_v5 (broadcastInDim S8192 ![] bcast_S_S8192 : (⟨S_, .f32⟩ : BufTy).Contents (Elt F) → (⟨S8192, .f32⟩ : BufTy).Contents (Elt F)),
    binary main_call3_v0 main_call3_call0_v5 main_call3_call0_v6 (addf : (⟨S8192, .f32⟩ : BufTy).Contents (Elt F) → (⟨S8192, .f32⟩ : BufTy).Contents (Elt F) → (⟨S8192, .f32⟩ : BufTy).Contents (Elt F)),
    unary main_call3_call0_v3 main_call3_call0_v7 (Host.absf : (⟨S8192, .f32⟩ : BufTy).Contents (Elt F) → (⟨S8192, .f32⟩ : BufTy).Contents (Elt F)),
    unary main_call3_call0_v7 main_call3_call0_v8 (Host.negf : (⟨S8192, .f32⟩ : BufTy).Contents (Elt F) → (⟨S8192, .f32⟩ : BufTy).Contents (Elt F)),
    unary main_call3_call0_v8 main_call3_call0_v9 (Host.exp : (⟨S8192, .f32⟩ : BufTy).Contents (Elt F) → (⟨S8192, .f32⟩ : BufTy).Contents (Elt F)),
    unary main_call3_call0_v9 main_call3_call0_v10 (Host.log1p : (⟨S8192, .f32⟩ : BufTy).Contents (Elt F) → (⟨S8192, .f32⟩ : BufTy).Contents (Elt F)),
    binary main_call3_call0_v1 main_call3_call0_v10 main_call3_call0_v11 (addf : (⟨S8192, .f32⟩ : BufTy).Contents (Elt F) → (⟨S8192, .f32⟩ : BufTy).Contents (Elt F) → (⟨S8192, .f32⟩ : BufTy).Contents (Elt F)),
    ternary main_call3_call0_v4 main_call3_call0_v6 main_call3_call0_v11 main_call3_v1 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    unary main_call3_v1 main_v156 (Host.negf : (⟨S8192, .f32⟩ : BufTy).Contents (Elt F) → (⟨S8192, .f32⟩ : BufTy).Contents (Elt F)),
    nullary main_cst_24 (constant S_ .f32 0x00000000#32),
    binary main_v156 main_cst_24 main_v157 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_25 (constant S_ .f32 0x46000000#32),
    binary main_v157 main_cst_25 main_v158 (Host.divf : (⟨S_, .f32⟩ : BufTy).Contents (Elt F) → (⟨S_, .f32⟩ : BufTy).Contents (Elt F) → (⟨S_, .f32⟩ : BufTy).Contents (Elt F)),
    unary main_v158 main_v159 (Host.negf : (⟨S_, .f32⟩ : BufTy).Contents (Elt F) → (⟨S_, .f32⟩ : BufTy).Contents (Elt F)) ]

/-- @main's 221 operations, in order: the four windows one after the other. -/
abbrev ops : List (HloOp τ sig (Elt F)) := ops0 ++ (ops1 ++ (ops2 ++ ops3))

/-! ## @main is that line -/

set_option maxRecDepth 8192 in
set_option maxHeartbeats 4000000 in
/-- Window 0 is its list: the callee's definition unfolds at the call, the record at its fields. -/
theorem main_part0_eq (c : Dev nD) : main_part0 (F := F) c = seq ops0 := rfl

set_option maxRecDepth 8192 in
set_option maxHeartbeats 4000000 in
/-- Window 1 is its list: the callee's definition unfolds at the call, the record at its fields. -/
theorem main_part1_eq (c : Dev nD) : main_part1 (F := F) c = seq ops1 := rfl

set_option maxRecDepth 8192 in
set_option maxHeartbeats 4000000 in
/-- Window 2 is its list: the callee's definition unfolds at the call, the record at its fields. -/
theorem main_part2_eq (c : Dev nD) : main_part2 (F := F) c = seq ops2 := rfl

set_option maxRecDepth 8192 in
set_option maxHeartbeats 4000000 in
/-- Window 3 is its list: the callee's definition unfolds at the call, the record at its fields. -/
theorem main_part3_eq (c : Dev nD) : main_part3 (F := F) c = seq ops3 := rfl

set_option maxRecDepth 8192 in
/-- @main runs its windows in order; a concatenation runs as its parts in order (`seq_append`). -/
theorem main_eq (c : Dev nD) : main (F := F) c = seq ops := by
  simp only [ops, seq_append, ← main_part0_eq c, ← main_part1_eq c, ← main_part2_eq c, ← main_part3_eq c]
  rfl

/-- The fold over the whole line is the fold over the windows, one after the other. -/
theorem after_ops (V : Valuation τ sig (Elt F)) :
    after ops V = after ops3 (after ops2 (after ops1 (after ops0 V))) := by
  simp only [ops, after_append]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩

set_option maxRecDepth 8192 in
theorem ops1_sub : (ops1 : List (HloOp τ sig (Elt F))).Forall fun op => op.bufs ⊆ tcRefs τ sig :=
  ⟨binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., unary_bufs_sub .., reshape_bufs_sub .., unary_bufs_sub ..⟩

set_option maxRecDepth 8192 in
theorem ops2_sub : (ops2 : List (HloOp τ sig (Elt F))).Forall fun op => op.bufs ⊆ tcRefs τ sig :=
  ⟨unary_bufs_sub .., binary_bufs_sub .., binary_bufs_sub .., unary_bufs_sub .., reshape_bufs_sub .., unary_bufs_sub .., binary_bufs_sub .., unary_bufs_sub .., reshape_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., nary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub ..⟩

set_option maxRecDepth 8192 in
theorem ops3_sub : (ops3 : List (HloOp τ sig (Elt F))).Forall fun op => op.bufs ⊆ tcRefs τ sig :=
  ⟨binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., nullary_bufs_sub .., binary_bufs_sub .., unary_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-! ## What the line writes, and what it leaves alone -/

/-- An operation whose written set is the single reference `y` writes inside any list that holds `y`. -/
theorem wr {op : HloOp τ sig (Elt F)} {W : List (Ref sig .tc)} (y : Ref sig .tc)
    (hw : op.writes = {Proc.devRef .tc y} := by rfl) (hy : y ∈ W := by decide) :
    op.writes ⊆ (W.map (Proc.devRef (τ := τ) .tc)).toFinset := by
  rw [hw, Finset.singleton_subset_iff, List.mem_toFinset]
  exact List.mem_map_of_mem hy

/-- The references window 0 writes: each operation's result, in order. -/
abbrev ops0_W : List (Ref sig .tc) :=
  [main_v0, main_v1, main_c, main_v2, main_v3, main_c_0, main_v4, main_v5, main_v6, main_v7, main_v8, main_v9, main_v10, main_cst, main_v11, main_v12, main_v13, main_v14, main_v15, main_v16, main_v17, main_v18, main_v19, main_v20, main_v21, main_v22, main_v23, main_v24, main_v25, main_v26, main_v27, main_v28, main_v29, main_v30, main_v31, main_v32, main_v33, main_cst_1, main_call0_cst, main_call0_v0, main_call0_v1, main_call0_v2, main_call0_v3, main_call0_v4, main_v34, main_v35, main_cst_2, main_v36, main_v37, main_v38, main_cst_3, main_v39, main_v40, main_v41, main_v42, main_v43, main_c_4, main_v44, main_v45, main_c_5, main_v46, main_v47, main_v48, main_v49, main_v50, main_v51]

set_option maxRecDepth 8192 in
theorem ops0_writes : (ops0 : List (HloOp τ sig (Elt F))).Forall fun op =>
    op.writes ⊆ (ops0_W.map (Proc.devRef (τ := τ) .tc)).toFinset := by
  simp only [List.Forall]
  exact ⟨wr main_v0, wr main_v1, wr main_c, wr main_v2, wr main_v3, wr main_c_0, wr main_v4, wr main_v5, wr main_v6, wr main_v7, wr main_v8, wr main_v9, wr main_v10, wr main_cst, wr main_v11, wr main_v12, wr main_v13, wr main_v14, wr main_v15, wr main_v16, wr main_v17, wr main_v18, wr main_v19, wr main_v20, wr main_v21, wr main_v22, wr main_v23, wr main_v24, wr main_v25, wr main_v26, wr main_v27, wr main_v28, wr main_v29, wr main_v30, wr main_v31, wr main_v32, wr main_v33, wr main_cst_1, wr main_call0_cst, wr main_call0_v0, wr main_call0_v1, wr main_call0_v2, wr main_call0_v3, wr main_call0_v4, wr main_v34, wr main_v35, wr main_cst_2, wr main_v36, wr main_v37, wr main_v38, wr main_cst_3, wr main_v39, wr main_v40, wr main_v41, wr main_v42, wr main_v43, wr main_c_4, wr main_v44, wr main_v45, wr main_c_5, wr main_v46, wr main_v47, wr main_v48, wr main_v49, wr main_v50, wr main_v51⟩

/-- The references window 1 writes: each operation's result, in order. -/
abbrev ops1_W : List (Ref sig .tc) :=
  [main_v52, main_cst_6, main_v53, main_v54, main_v55, main_v56, main_v57, main_v58, main_v59, main_v60, main_v61, main_v62, main_v63, main_v64, main_v65, main_v66, main_v67, main_v68, main_v69, main_v70, main_v71, main_v72, main_v73, main_v74, main_v75, main_cst_7, main_call1_cst, main_call1_v0, main_call1_v1, main_call1_v2, main_call1_v3, main_call1_v4, main_v76, main_v77, main_cst_8, main_v78, main_v79, main_v80, main_cst_9, main_v81, main_v82, main_v83, main_v84, main_v85, main_c_10, main_v86, main_v87, main_c_11, main_v88, main_v89, main_v90, main_v91, main_v92, main_v93, main_v94, main_cst_12, main_v95, main_v96, main_v97, main_v98, main_v99, main_v100, main_v101, main_v102, main_v103, main_v104]

set_option maxRecDepth 8192 in
theorem ops1_writes : (ops1 : List (HloOp τ sig (Elt F))).Forall fun op =>
    op.writes ⊆ (ops1_W.map (Proc.devRef (τ := τ) .tc)).toFinset := by
  simp only [List.Forall]
  exact ⟨wr main_v52, wr main_cst_6, wr main_v53, wr main_v54, wr main_v55, wr main_v56, wr main_v57, wr main_v58, wr main_v59, wr main_v60, wr main_v61, wr main_v62, wr main_v63, wr main_v64, wr main_v65, wr main_v66, wr main_v67, wr main_v68, wr main_v69, wr main_v70, wr main_v71, wr main_v72, wr main_v73, wr main_v74, wr main_v75, wr main_cst_7, wr main_call1_cst, wr main_call1_v0, wr main_call1_v1, wr main_call1_v2, wr main_call1_v3, wr main_call1_v4, wr main_v76, wr main_v77, wr main_cst_8, wr main_v78, wr main_v79, wr main_v80, wr main_cst_9, wr main_v81, wr main_v82, wr main_v83, wr main_v84, wr main_v85, wr main_c_10, wr main_v86, wr main_v87, wr main_c_11, wr main_v88, wr main_v89, wr main_v90, wr main_v91, wr main_v92, wr main_v93, wr main_v94, wr main_cst_12, wr main_v95, wr main_v96, wr main_v97, wr main_v98, wr main_v99, wr main_v100, wr main_v101, wr main_v102, wr main_v103, wr main_v104⟩

/-- The references window 2 writes: each operation's result, in order. -/
abbrev ops2_W : List (Ref sig .tc) :=
  [main_v105, main_v106, main_v107, main_v108, main_v109, main_v110, main_v111, main_v112, main_v113, main_v114, main_v115, main_v116, main_v117, main_cst_13, main_call2_cst, main_call2_v0, main_call2_v1, main_call2_v2, main_call2_v3, main_call2_v4, main_v118, main_v119, main_cst_14, main_v120, main_v121, main_v122, main_cst_15, main_v123, main_v124, main_v125, main_v126, main_v127, main_v128, main_v129, main_c_16, main_v130, main_v131, main_c_17, main_v132, main_v133, main_v134, main_v135, main_v136, main_c_18, main_v137, main_v138, main_c_19, main_v139, main_v140, main_v141, main_v142, main_v143, main_c_20, main_v144, main_v145, main_c_21, main_v146, main_v147, main_v148, main_v149, main_v150, main_v151, main_cst_22, main_v152, main_v153, main_cst_23]

set_option maxRecDepth 8192 in
theorem ops2_writes : (ops2 : List (HloOp τ sig (Elt F))).Forall fun op =>
    op.writes ⊆ (ops2_W.map (Proc.devRef (τ := τ) .tc)).toFinset := by
  simp only [List.Forall]
  exact ⟨wr main_v105, wr main_v106, wr main_v107, wr main_v108, wr main_v109, wr main_v110, wr main_v111, wr main_v112, wr main_v113, wr main_v114, wr main_v115, wr main_v116, wr main_v117, wr main_cst_13, wr main_call2_cst, wr main_call2_v0, wr main_call2_v1, wr main_call2_v2, wr main_call2_v3, wr main_call2_v4, wr main_v118, wr main_v119, wr main_cst_14, wr main_v120, wr main_v121, wr main_v122, wr main_cst_15, wr main_v123, wr main_v124, wr main_v125, wr main_v126, wr main_v127, wr main_v128, wr main_v129, wr main_c_16, wr main_v130, wr main_v131, wr main_c_17, wr main_v132, wr main_v133, wr main_v134, wr main_v135, wr main_v136, wr main_c_18, wr main_v137, wr main_v138, wr main_c_19, wr main_v139, wr main_v140, wr main_v141, wr main_v142, wr main_v143, wr main_c_20, wr main_v144, wr main_v145, wr main_c_21, wr main_v146, wr main_v147, wr main_v148, wr main_v149, wr main_v150, wr main_v151, wr main_cst_22, wr main_v152, wr main_v153, wr main_cst_23⟩

/-- The references window 3 writes: each operation's result, in order. -/
abbrev ops3_W : List (Ref sig .tc) :=
  [main_v154, main_v155, main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1, main_v156, main_cst_24, main_v157, main_cst_25, main_v158, main_v159]

set_option maxRecDepth 8192 in
theorem ops3_writes : (ops3 : List (HloOp τ sig (Elt F))).Forall fun op =>
    op.writes ⊆ (ops3_W.map (Proc.devRef (τ := τ) .tc)).toFinset := by
  simp only [List.Forall]
  exact ⟨wr main_v154, wr main_v155, wr main_call3_v0, wr main_call3_call0_cst, wr main_call3_call0_v0, wr main_call3_call0_v1, wr main_call3_call0_v2, wr main_call3_call0_v3, wr main_call3_call0_v4, wr main_call3_call0_v5, wr main_call3_call0_v6, wr main_call3_call0_v7, wr main_call3_call0_v8, wr main_call3_call0_v9, wr main_call3_call0_v10, wr main_call3_call0_v11, wr main_call3_v1, wr main_v156, wr main_cst_24, wr main_v157, wr main_cst_25, wr main_v158, wr main_v159⟩

/-- A reference that no window writes keeps its contents through the whole line. -/
theorem keep (V : Valuation τ sig (Elt F)) (r : Ref sig .tc)
    (h0 : r ∉ ops0_W) (h1 : r ∉ ops1_W) (h2 : r ∉ ops2_W) (h3 : r ∉ ops3_W) :
    after ops V (Proc.devRef .tc r) = V (Proc.devRef .tc r) := by
  rw [after_ops, after_of_writes_sub ops3 _ ops3_writes h3, after_of_writes_sub ops2 _ ops2_writes h2,
    after_of_writes_sub ops1 _ ops1_writes h1, after_of_writes_sub ops0 _ ops0_writes h0]

/-! ## The run -/

/-- On every device, for any float values, from any memory with zero counters: every weakly fair execution of
    @main terminates with the result buffer at the fold of the operations over the launch contents, and the
    twelve arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v159) = StableHlo.after ops (fun b => m (c, b)) (Proc.devRef .tc main_v159)
      ∧ (r.2.mem ((c.tc : Thread nD τ).loc main_arg0) = m ((c.tc : Thread nD τ).loc main_arg0)
      ∧ (r.2.mem ((c.tc : Thread nD τ).loc main_arg1) = m ((c.tc : Thread nD τ).loc main_arg1)
      ∧ (r.2.mem ((c.tc : Thread nD τ).loc main_arg2) = m ((c.tc : Thread nD τ).loc main_arg2)
      ∧ (r.2.mem ((c.tc : Thread nD τ).loc main_arg3) = m ((c.tc : Thread nD τ).loc main_arg3)
      ∧ (r.2.mem ((c.tc : Thread nD τ).loc main_arg4) = m ((c.tc : Thread nD τ).loc main_arg4)
      ∧ (r.2.mem ((c.tc : Thread nD τ).loc main_arg5) = m ((c.tc : Thread nD τ).loc main_arg5)
      ∧ (r.2.mem ((c.tc : Thread nD τ).loc main_arg6) = m ((c.tc : Thread nD τ).loc main_arg6)
      ∧ (r.2.mem ((c.tc : Thread nD τ).loc main_arg7) = m ((c.tc : Thread nD τ).loc main_arg7)
      ∧ (r.2.mem ((c.tc : Thread nD τ).loc main_arg8) = m ((c.tc : Thread nD τ).loc main_arg8)
      ∧ (r.2.mem ((c.tc : Thread nD τ).loc main_arg9) = m ((c.tc : Thread nD τ).loc main_arg9)
      ∧ (r.2.mem ((c.tc : Thread nD τ).loc main_arg10) = m ((c.tc : Thread nD τ).loc main_arg10)
      ∧ (r.2.mem ((c.tc : Thread nD τ).loc main_arg11) = m ((c.tc : Thread nD τ).loc main_arg11)))))))))))))) :=
  (θ_run defs _ _).mono (fun _ h c => ⟨h c main_v159,
      (h c main_arg0).trans (keep _ main_arg0 (by decide) (by decide) (by decide) (by decide)),
      (h c main_arg1).trans (keep _ main_arg1 (by decide) (by decide) (by decide) (by decide)),
      (h c main_arg2).trans (keep _ main_arg2 (by decide) (by decide) (by decide) (by decide)),
      (h c main_arg3).trans (keep _ main_arg3 (by decide) (by decide) (by decide) (by decide)),
      (h c main_arg4).trans (keep _ main_arg4 (by decide) (by decide) (by decide) (by decide)),
      (h c main_arg5).trans (keep _ main_arg5 (by decide) (by decide) (by decide) (by decide)),
      (h c main_arg6).trans (keep _ main_arg6 (by decide) (by decide) (by decide) (by decide)),
      (h c main_arg7).trans (keep _ main_arg7 (by decide) (by decide) (by decide) (by decide)),
      (h c main_arg8).trans (keep _ main_arg8 (by decide) (by decide) (by decide) (by decide)),
      (h c main_arg9).trans (keep _ main_arg9 (by decide) (by decide) (by decide) (by decide)),
      (h c main_arg10).trans (keep _ main_arg10 (by decide) (by decide) (by decide) (by decide)),
      (h c main_arg11).trans (keep _ main_arg11 (by decide) (by decide) (by decide) (by decide))⟩)
    (run_seq scopedRefs_eq scopedSems_eq defs main (fun _ => ops) main_eq (fun _ => ops_sub) m ρ)

/-- The frame of the reference at the ideal instance: it terminates without a fault and its arguments end
    unchanged (the run, its result forgotten). -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun _ h c => (h c).2) (run m g)

end Cert.ReferenceIdeal.RefRun

end
-- ==== Proof.NgcfHostK.lean ====
/- The kernel program's host operations, grouped into the functions of the model they compute, at the ideal
   instance. Each definition is the literal composition of the printed operations of one stretch of the kernel
   program's @main — the printed operators, shapes, dimension records and operand order — as a function of that
   stretch's inputs:
     kEmb0   the stacked embedding table (users above items);
     kSpmm   the sparse product  A · x : per edge, the row of x at the (wrapped) column index, scaled by the
             edge's value, added into the row at the row index;
     kW      slice l of a stack of three 64×64 weight matrices, each transposed, as a matrix;
     kB      slice l of a stack of three bias vectors, as a row;
     kFin    the four blocks of columns side by side;
     kWrap   a negative index wrapped by the table's length;
     kBu, kBp  the rows of the final table a batch of user / item indices selects;
     kTail   the mean over the batch of a column of loss terms, negated. -/
import proofs.«125397_j74723841016248_1_alg».proof.KernelIdeal
import Idealize.ShloMosaic.PureOps.Ideal

noncomputable section

namespace Cert.NgcfHostK

open Idealize.ShloMosaic Cert.KernelIdeal Cert.KernelIdeal.Facts₀ Cert.KernelIdeal.Facts

variable [Cert.KernelIdeal.Facts]

/-- %0: the user table above the item table. -/
def kEmb0 (a0 : FVec Ideal S50000x64 .f32) (a1 : FVec Ideal S100000x64 .f32) : FVec Ideal S150000x64 .f32 :=
  concatenate S150000x64 0 [⟨S50000x64, a0⟩, ⟨S100000x64, a1⟩] concatenates_S50000x64_S100000x64_S150000x64_d0

/-- %5 … %17 (and again %27 … %39, %49 … %61): the edge values as a column; the column indices, a negative one
    wrapped by 150000, as a column; the rows of `x` they select; each scaled by its edge's value; added into
    a zero table at the row indices. -/
def kSpmm (vals : FVec Ideal S2000000 .f32) (rows cols : IVec S2000000 32) (x : FVec Ideal S150000x64 .f32) :
    FVec Ideal S150000x64 .f32 :=
  Host.scatterAdd (F := Ideal) scatter_S150000x64_S2000000x1_S2000000x64_1_0_0_1
    (broadcastInDim S150000x64 ![] bcast_S_S150000x64 (constant (F := Ideal) S_ .f32 0x00000000#32))
    (broadcastInDim S2000000x1 ![0] bcast_S2000000_S2000000x1_0 rows)
    (mulf (F := Ideal)
      (broadcastInDim S2000000x64 ![0, 1] bcast_S2000000x1_S2000000x64_0_1
        (broadcastInDim S2000000x1 ![0] bcast_S2000000_S2000000x1_0 vals))
      (Host.gather gather_S150000x64_S2000000x1_S2000000x64_1_0_n_n_0_1_164 x
        (broadcastInDim S2000000x1 ![0] bcast_S2000000_S2000000x1_0
          (select
            (cmpi .slt cols (broadcastInDim S2000000 ![] bcast_S_S2000000 (constantI S_ 32 0#32)))
            (addi cols (broadcastInDim S2000000 ![] bcast_S_S2000000 (constantI S_ 32 150000#32)))
            cols))))

/-- %1 (or %2), then %18, %19 (or %22, %23) at `l` = 0, and likewise at 1 and 2: every matrix of the stack `W`
    transposed; slice `l` of the result; that slice as a 64×64 matrix. -/
def kW (l : ℕ) (hS : S3x64x64.Slices ![l, 0, 0] S1x64x64) (W : FVec Ideal S3x64x64 .f32) : FVec Ideal S64x64 .f32 :=
  shapeCast S64x64
    (extractStridedSlice S1x64x64 ![l, 0, 0] (transpose S3x64x64 [0, 2, 1] W transposes_S3x64x64_S3x64x64_0_2_1) hS)
    shapeCasts_S1x64x64_S64x64

/-- %3 (or %4), then %20, %21 (or %24, %25) at `l` = 0, and likewise at 1 and 2: the stack of bias vectors `B` as
    a stack of rows; slice `l` of it; that slice as a 1×64 row. -/
def kB (l : ℕ) (hS : S3x1x64.Slices ![l, 0, 0] S1x1x64) (B : FVec Ideal S3x64 .f32) : FVec Ideal S1x64 .f32 :=
  shapeCast S1x64
    (extractStridedSlice S1x1x64 ![l, 0, 0] (shapeCast S3x1x64 B shapeCasts_S3x64_S3x1x64) hS)
    shapeCasts_S1x1x64_S1x64

/-- %71: the layer-0 table and the three normalised tables, side by side. -/
def kFin (e0 n0 n1 n2 : FVec Ideal S150000x64 .f32) : FVec Ideal S150000x256 .f32 :=
  concatenate S150000x256 1 [⟨S150000x64, e0⟩, ⟨S150000x64, n0⟩, ⟨S150000x64, n1⟩, ⟨S150000x64, n2⟩]
    concatenates_S150000x64_S150000x64_S150000x64_S150000x64_S150000x256_d1

/-- A batch of indices, a negative one wrapped by `n`, as a column: compare with zero, add `n`, select,
    broadcast. (%c_7 … %79 with `n` = 50000; %c_9 … %86 and %c_11 … %93 with `n` = 100000.) -/
def kWrap (n : BitVec 32) (u : IVec S8192 32) : IVec S8192x1 32 :=
  broadcastInDim S8192x1 ![0] bcast_S8192_S8192x1_0
    (select
      (cmpi .slt u (broadcastInDim S8192 ![] bcast_S_S8192 (constantI S_ 32 0#32)))
      (addi u (broadcastInDim S8192 ![] bcast_S_S8192 (constantI S_ 32 n)))
      u)

/-- %72, %c_7 … %80: the user rows (0 … 49999) of the final table, gathered at the batch's user indices. -/
def kBu (fin : FVec Ideal S150000x256 .f32) (u : IVec S8192 32) : FVec Ideal S8192x256 .f32 :=
  Host.gather gather_S50000x256_S8192x1_S8192x256_1_0_n_n_0_1_1256
    (extractStridedSlice S50000x256 ![0, 0] fin slices_S150000x256_S50000x256_0_0)
    (kWrap 50000#32 u)

/-- %73, %c_9 … %87 (and, at the negative items' indices, %c_11 … %94): the item rows (50000 … 149999) of
    the final table, gathered at a batch of item indices. -/
def kBp (fin : FVec Ideal S150000x256 .f32) (i : IVec S8192 32) : FVec Ideal S8192x256 .f32 :=
  Host.gather gather_S100000x256_S8192x1_S8192x256_1_0_n_n_0_1_1256
    (extractStridedSlice S100000x256 ![50000, 0] fin slices_S150000x256_S100000x256_50000_0)
    (kWrap 100000#32 i)

/-- %cst_13 … %98: the sum of the column of loss terms over both axes, from zero; divided by 8192; negated. -/
def kTail (v95 : FVec Ideal S8192x1 .f32) : FVec Ideal S_ .f32 :=
  Host.negf (F := Ideal)
    (Host.divf (F := Ideal)
      (Host.reduceAdd (F := Ideal) v95 (constant (F := Ideal) S_ .f32 0x00000000#32) reducesTo_S8192x1_S_d0_1 h_S_)
      (constant (F := Ideal) S_ .f32 0x46000000#32))

end Cert.NgcfHostK

end
-- ==== Proof.KIRead.lean ====
/- The kernel program's five stretches of host operations read back, at the ideal instance, over the fold of buffer
   contents through @main's nine segments: what each buffer that a later kernel region (or the returned value) reads
   holds at the boundary after its stretch, as the composed host function of the contents the stretch started from.
   A stretch's operations are unfolded in order — each result buffer at its operation's function of its operands'
   contents, every other buffer as it was — down to the contents at the stretch's entry; a buffer that an earlier
   segment wrote is walked back to that segment (no stretch between writes it, and it is no window's array of a
   region between), an argument to the launch memory. -/
import proofs.«125397_j74723841016248_1_alg».proof.Proof.KIFrame
import proofs.«125397_j74723841016248_1_alg».proof.Proof.NgcfHostK

set_option maxRecDepth 16384

noncomputable section

namespace Cert.KernelIdeal.ReadH

open Idealize.ShloMosaic Idealize.ShloMosaic.TcCoe Idealize.ShloMosaic.StableHlo Idealize.SL.Sem
open Cert.KernelIdeal Cert.KernelIdeal.Gen Cert.KernelIdeal.GenH Cert.NgcfHostK

variable (m : (ℓ : Loc nD τ sig) → Buf (Elt Ideal) ℓ) (ρ : Dev nD → PrngReg) (c : Dev nD)

/-! ## The launch memory's leaves: the twelve arguments on core `c` -/

abbrev a0 : FVec Ideal S50000x64 .f32 := m ((c : Thread nD τ).loc main_arg0)
abbrev a1 : FVec Ideal S100000x64 .f32 := m ((c : Thread nD τ).loc main_arg1)
abbrev a2 : FVec Ideal S3x64x64 .f32 := m ((c : Thread nD τ).loc main_arg2)
abbrev a3 : FVec Ideal S3x64 .f32 := m ((c : Thread nD τ).loc main_arg3)
abbrev a4 : FVec Ideal S3x64x64 .f32 := m ((c : Thread nD τ).loc main_arg4)
abbrev a5 : FVec Ideal S3x64 .f32 := m ((c : Thread nD τ).loc main_arg5)
abbrev a6 : FVec Ideal S2000000 .f32 := m ((c : Thread nD τ).loc main_arg6)
abbrev a7 : IVec S2000000 32 := m ((c : Thread nD τ).loc main_arg7)
abbrev a8 : IVec S2000000 32 := m ((c : Thread nD τ).loc main_arg8)
abbrev a9 : IVec S8192 32 := m ((c : Thread nD τ).loc main_arg9)
abbrev a10 : IVec S8192 32 := m ((c : Thread nD τ).loc main_arg10)
abbrev a11 : IVec S8192 32 := m ((c : Thread nD τ).loc main_arg11)

/-- The first boundary's contents at a buffer are the launch memory's. -/
theorem W0_arg (b : Ref sig .tc) : W0 m ρ c (Proc.devRef .tc b) = m ((c : Thread nD τ).loc b) := rfl

/-! ## A buffer a stretch does not write passes it unchanged -/

theorem W1_of (r : Ref sig .tc) (h : r ∉ hostOps0_W) : W1 m ρ c (Proc.devRef .tc r) = W0 m ρ c (Proc.devRef .tc r) :=
  StableHlo.after_of_writes_sub hostOps0 _ hostOps0_writes h
theorem W3_of (r : Ref sig .tc) (h : r ∉ hostOps1_W) : W3 m ρ c (Proc.devRef .tc r) = W2 m ρ c (Proc.devRef .tc r) :=
  StableHlo.after_of_writes_sub hostOps1 _ hostOps1_writes h
theorem W5_of (r : Ref sig .tc) (h : r ∉ hostOps2_W) : W5 m ρ c (Proc.devRef .tc r) = W4 m ρ c (Proc.devRef .tc r) :=
  StableHlo.after_of_writes_sub hostOps2 _ hostOps2_writes h
theorem W7_of (r : Ref sig .tc) (h : r ∉ hostOps3_W) : W7 m ρ c (Proc.devRef .tc r) = W6 m ρ c (Proc.devRef .tc r) :=
  StableHlo.after_of_writes_sub hostOps3 _ hostOps3_writes h
theorem W9_of (r : Ref sig .tc) (h : r ∉ hostOps4_W) : W9 m ρ c (Proc.devRef .tc r) = W8 m ρ c (Proc.devRef .tc r) :=
  StableHlo.after_of_writes_sub hostOps4 _ hostOps4_writes h

/-! ## Stretch 0: from the launch memory to region 0's entry -/

theorem read0_v0 : (W1 m ρ c (Proc.devRef .tc main_v0) : FVec Ideal S150000x64 .f32)
    = kEmb0 (a0 m c) (a1 m c) := by
  show StableHlo.after hostOps0 (W0 m ρ c) (Proc.devRef .tc main_v0) = _
  simp only [hostOps0]
  after_results_simp <;> rfl
theorem read0_v1 : (W1 m ρ c (Proc.devRef .tc main_v1) : FVec Ideal S3x64x64 .f32)
    = transpose S3x64x64 [0, 2, 1] (a2 m c) transposes_S3x64x64_S3x64x64_0_2_1 := by
  show StableHlo.after hostOps0 (W0 m ρ c) (Proc.devRef .tc main_v1) = _
  simp only [hostOps0]
  after_results_simp <;> rfl
theorem read0_v2 : (W1 m ρ c (Proc.devRef .tc main_v2) : FVec Ideal S3x64x64 .f32)
    = transpose S3x64x64 [0, 2, 1] (a4 m c) transposes_S3x64x64_S3x64x64_0_2_1 := by
  show StableHlo.after hostOps0 (W0 m ρ c) (Proc.devRef .tc main_v2) = _
  simp only [hostOps0]
  after_results_simp <;> rfl
theorem read0_v3 : (W1 m ρ c (Proc.devRef .tc main_v3) : FVec Ideal S3x1x64 .f32)
    = shapeCast S3x1x64 (a3 m c) shapeCasts_S3x64_S3x1x64 := by
  show StableHlo.after hostOps0 (W0 m ρ c) (Proc.devRef .tc main_v3) = _
  simp only [hostOps0]
  after_results_simp <;> rfl
theorem read0_v4 : (W1 m ρ c (Proc.devRef .tc main_v4) : FVec Ideal S3x1x64 .f32)
    = shapeCast S3x1x64 (a5 m c) shapeCasts_S3x64_S3x1x64 := by
  show StableHlo.after hostOps0 (W0 m ρ c) (Proc.devRef .tc main_v4) = _
  simp only [hostOps0]
  after_results_simp <;> rfl
theorem read0_v17 : (W1 m ρ c (Proc.devRef .tc main_v17) : FVec Ideal S150000x64 .f32)
    = kSpmm (a6 m c) (a7 m c) (a8 m c) (kEmb0 (a0 m c) (a1 m c)) := by
  show StableHlo.after hostOps0 (W0 m ρ c) (Proc.devRef .tc main_v17) = _
  simp only [hostOps0]
  after_results_simp <;> rfl
theorem read0_v19 : (W1 m ρ c (Proc.devRef .tc main_v19) : FVec Ideal S64x64 .f32)
    = kW 0 slices_S3x64x64_S1x64x64_0_0_0 (a2 m c) := by
  show StableHlo.after hostOps0 (W0 m ρ c) (Proc.devRef .tc main_v19) = _
  simp only [hostOps0]
  after_results_simp <;> rfl
theorem read0_v21 : (W1 m ρ c (Proc.devRef .tc main_v21) : FVec Ideal S1x64 .f32)
    = kB 0 slices_S3x1x64_S1x1x64_0_0_0 (a3 m c) := by
  show StableHlo.after hostOps0 (W0 m ρ c) (Proc.devRef .tc main_v21) = _
  simp only [hostOps0]
  after_results_simp <;> rfl
theorem read0_v23 : (W1 m ρ c (Proc.devRef .tc main_v23) : FVec Ideal S64x64 .f32)
    = kW 0 slices_S3x64x64_S1x64x64_0_0_0 (a4 m c) := by
  show StableHlo.after hostOps0 (W0 m ρ c) (Proc.devRef .tc main_v23) = _
  simp only [hostOps0]
  after_results_simp <;> rfl
theorem read0_v25 : (W1 m ρ c (Proc.devRef .tc main_v25) : FVec Ideal S1x64 .f32)
    = kB 0 slices_S3x1x64_S1x1x64_0_0_0 (a5 m c) := by
  show StableHlo.after hostOps0 (W0 m ρ c) (Proc.devRef .tc main_v25) = _
  simp only [hostOps0]
  after_results_simp <;> rfl

/-! ## Stretch 1: from region 0's exit to region 1's entry

The stretch reads the edge list (arguments 6, 7, 8) and the stacked weights and biases as stretch 0 left them
(`main_v1 … main_v4`): region 0 changed none of them. -/

theorem W2_arg6 : W2 m ρ c (Proc.devRef .tc main_arg6) = m ((c : Thread nD τ).loc main_arg6) :=
  (W2_of_ne m ρ c main_arg6 (by decide)).trans ((W1_of m ρ c main_arg6 (by decide)).trans rfl)
theorem W2_arg7 : W2 m ρ c (Proc.devRef .tc main_arg7) = m ((c : Thread nD τ).loc main_arg7) :=
  (W2_of_ne m ρ c main_arg7 (by decide)).trans ((W1_of m ρ c main_arg7 (by decide)).trans rfl)
theorem W2_arg8 : W2 m ρ c (Proc.devRef .tc main_arg8) = m ((c : Thread nD τ).loc main_arg8) :=
  (W2_of_ne m ρ c main_arg8 (by decide)).trans ((W1_of m ρ c main_arg8 (by decide)).trans rfl)
theorem W2_v1 : W2 m ρ c (Proc.devRef .tc main_v1) = W1 m ρ c (Proc.devRef .tc main_v1) := W2_of_ne m ρ c main_v1 (by decide)
theorem W2_v2 : W2 m ρ c (Proc.devRef .tc main_v2) = W1 m ρ c (Proc.devRef .tc main_v2) := W2_of_ne m ρ c main_v2 (by decide)
theorem W2_v3 : W2 m ρ c (Proc.devRef .tc main_v3) = W1 m ρ c (Proc.devRef .tc main_v3) := W2_of_ne m ρ c main_v3 (by decide)
theorem W2_v4 : W2 m ρ c (Proc.devRef .tc main_v4) = W1 m ρ c (Proc.devRef .tc main_v4) := W2_of_ne m ρ c main_v4 (by decide)

/-- Region 1's first input is region 0's first output, which the stretch does not write. -/
theorem W3_v26_0 : W3 m ρ c (Proc.devRef .tc main_v26_0) = W2 m ρ c (Proc.devRef .tc main_v26_0) := W3_of m ρ c main_v26_0 (by decide)

theorem read1_v39 : (W3 m ρ c (Proc.devRef .tc main_v39) : FVec Ideal S150000x64 .f32)
    = kSpmm (a6 m c) (a7 m c) (a8 m c) (W2 m ρ c (Proc.devRef .tc main_v26_0)) := by
  show StableHlo.after hostOps1 (W2 m ρ c) (Proc.devRef .tc main_v39) = _
  simp only [hostOps1]
  after_results_simp
  rw [W2_arg6, W2_arg7, W2_arg8]
  rfl
theorem read1_v41 : (W3 m ρ c (Proc.devRef .tc main_v41) : FVec Ideal S64x64 .f32)
    = kW 1 slices_S3x64x64_S1x64x64_1_0_0 (a2 m c) := by
  show StableHlo.after hostOps1 (W2 m ρ c) (Proc.devRef .tc main_v41) = _
  simp only [hostOps1]
  after_results_simp
  rw [W2_v1, read0_v1]
  rfl
theorem read1_v43 : (W3 m ρ c (Proc.devRef .tc main_v43) : FVec Ideal S1x64 .f32)
    = kB 1 slices_S3x1x64_S1x1x64_1_0_0 (a3 m c) := by
  show StableHlo.after hostOps1 (W2 m ρ c) (Proc.devRef .tc main_v43) = _
  simp only [hostOps1]
  after_results_simp
  rw [W2_v3, read0_v3]
  rfl
theorem read1_v45 : (W3 m ρ c (Proc.devRef .tc main_v45) : FVec Ideal S64x64 .f32)
    = kW 1 slices_S3x64x64_S1x64x64_1_0_0 (a4 m c) := by
  show StableHlo.after hostOps1 (W2 m ρ c) (Proc.devRef .tc main_v45) = _
  simp only [hostOps1]
  after_results_simp
  rw [W2_v2, read0_v2]
  rfl
theorem read1_v47 : (W3 m ρ c (Proc.devRef .tc main_v47) : FVec Ideal S1x64 .f32)
    = kB 1 slices_S3x1x64_S1x1x64_1_0_0 (a5 m c) := by
  show StableHlo.after hostOps1 (W2 m ρ c) (Proc.devRef .tc main_v47) = _
  simp only [hostOps1]
  after_results_simp
  rw [W2_v4, read0_v4]
  rfl

/-! ## Stretch 2: from region 1's exit to region 2's entry -/

theorem W4_arg6 : W4 m ρ c (Proc.devRef .tc main_arg6) = m ((c : Thread nD τ).loc main_arg6) :=
  (W4_of_ne m ρ c main_arg6 (by decide)).trans ((W3_of m ρ c main_arg6 (by decide)).trans (W2_arg6 m ρ c))
theorem W4_arg7 : W4 m ρ c (Proc.devRef .tc main_arg7) = m ((c : Thread nD τ).loc main_arg7) :=
  (W4_of_ne m ρ c main_arg7 (by decide)).trans ((W3_of m ρ c main_arg7 (by decide)).trans (W2_arg7 m ρ c))
theorem W4_arg8 : W4 m ρ c (Proc.devRef .tc main_arg8) = m ((c : Thread nD τ).loc main_arg8) :=
  (W4_of_ne m ρ c main_arg8 (by decide)).trans ((W3_of m ρ c main_arg8 (by decide)).trans (W2_arg8 m ρ c))
theorem W4_v1 : W4 m ρ c (Proc.devRef .tc main_v1) = W1 m ρ c (Proc.devRef .tc main_v1) :=
  (W4_of_ne m ρ c main_v1 (by decide)).trans ((W3_of m ρ c main_v1 (by decide)).trans (W2_v1 m ρ c))
theorem W4_v2 : W4 m ρ c (Proc.devRef .tc main_v2) = W1 m ρ c (Proc.devRef .tc main_v2) :=
  (W4_of_ne m ρ c main_v2 (by decide)).trans ((W3_of m ρ c main_v2 (by decide)).trans (W2_v2 m ρ c))
theorem W4_v3 : W4 m ρ c (Proc.devRef .tc main_v3) = W1 m ρ c (Proc.devRef .tc main_v3) :=
  (W4_of_ne m ρ c main_v3 (by decide)).trans ((W3_of m ρ c main_v3 (by decide)).trans (W2_v3 m ρ c))
theorem W4_v4 : W4 m ρ c (Proc.devRef .tc main_v4) = W1 m ρ c (Proc.devRef .tc main_v4) :=
  (W4_of_ne m ρ c main_v4 (by decide)).trans ((W3_of m ρ c main_v4 (by decide)).trans (W2_v4 m ρ c))

/-- Region 2's first input is region 1's first output, which the stretch does not write. -/
theorem W5_v48_0 : W5 m ρ c (Proc.devRef .tc main_v48_0) = W4 m ρ c (Proc.devRef .tc main_v48_0) := W5_of m ρ c main_v48_0 (by decide)

theorem read2_v61 : (W5 m ρ c (Proc.devRef .tc main_v61) : FVec Ideal S150000x64 .f32)
    = kSpmm (a6 m c) (a7 m c) (a8 m c) (W4 m ρ c (Proc.devRef .tc main_v48_0)) := by
  show StableHlo.after hostOps2 (W4 m ρ c) (Proc.devRef .tc main_v61) = _
  simp only [hostOps2]
  after_results_simp
  rw [W4_arg6, W4_arg7, W4_arg8]
  rfl
theorem read2_v63 : (W5 m ρ c (Proc.devRef .tc main_v63) : FVec Ideal S64x64 .f32)
    = kW 2 slices_S3x64x64_S1x64x64_2_0_0 (a2 m c) := by
  show StableHlo.after hostOps2 (W4 m ρ c) (Proc.devRef .tc main_v63) = _
  simp only [hostOps2]
  after_results_simp
  rw [W4_v1, read0_v1]
  rfl
theorem read2_v65 : (W5 m ρ c (Proc.devRef .tc main_v65) : FVec Ideal S1x64 .f32)
    = kB 2 slices_S3x1x64_S1x1x64_2_0_0 (a3 m c) := by
  show StableHlo.after hostOps2 (W4 m ρ c) (Proc.devRef .tc main_v65) = _
  simp only [hostOps2]
  after_results_simp
  rw [W4_v3, read0_v3]
  rfl
theorem read2_v67 : (W5 m ρ c (Proc.devRef .tc main_v67) : FVec Ideal S64x64 .f32)
    = kW 2 slices_S3x64x64_S1x64x64_2_0_0 (a4 m c) := by
  show StableHlo.after hostOps2 (W4 m ρ c) (Proc.devRef .tc main_v67) = _
  simp only [hostOps2]
  after_results_simp
  rw [W4_v2, read0_v2]
  rfl
theorem read2_v69 : (W5 m ρ c (Proc.devRef .tc main_v69) : FVec Ideal S1x64 .f32)
    = kB 2 slices_S3x1x64_S1x1x64_2_0_0 (a5 m c) := by
  show StableHlo.after hostOps2 (W4 m ρ c) (Proc.devRef .tc main_v69) = _
  simp only [hostOps2]
  after_results_simp
  rw [W4_v4, read0_v4]
  rfl

/-! ## Stretch 3: from region 2's exit to region 3's entry

The four tables set side by side were written in earlier segments and pass the later ones unchanged: the stacked
embedding table by stretch 0 (it is region 0's first input, which a region leaves as it found it), the normalised
tables by regions 0, 1 and 2 as their second outputs. -/

theorem W6_arg9 : W6 m ρ c (Proc.devRef .tc main_arg9) = m ((c : Thread nD τ).loc main_arg9) :=
  (W6_of_ne m ρ c main_arg9 (by decide)).trans <| (W5_of m ρ c main_arg9 (by decide)).trans <| (W4_of_ne m ρ c main_arg9 (by decide)).trans <|
    (W3_of m ρ c main_arg9 (by decide)).trans <| (W2_of_ne m ρ c main_arg9 (by decide)).trans <| (W1_of m ρ c main_arg9 (by decide)).trans rfl
theorem W6_arg10 : W6 m ρ c (Proc.devRef .tc main_arg10) = m ((c : Thread nD τ).loc main_arg10) :=
  (W6_of_ne m ρ c main_arg10 (by decide)).trans <| (W5_of m ρ c main_arg10 (by decide)).trans <| (W4_of_ne m ρ c main_arg10 (by decide)).trans <|
    (W3_of m ρ c main_arg10 (by decide)).trans <| (W2_of_ne m ρ c main_arg10 (by decide)).trans <| (W1_of m ρ c main_arg10 (by decide)).trans rfl
theorem W6_arg11 : W6 m ρ c (Proc.devRef .tc main_arg11) = m ((c : Thread nD τ).loc main_arg11) :=
  (W6_of_ne m ρ c main_arg11 (by decide)).trans <| (W5_of m ρ c main_arg11 (by decide)).trans <| (W4_of_ne m ρ c main_arg11 (by decide)).trans <|
    (W3_of m ρ c main_arg11 (by decide)).trans <| (W2_of_ne m ρ c main_arg11 (by decide)).trans <| (W1_of m ρ c main_arg11 (by decide)).trans rfl
/-- The stacked embedding table, from stretch 0 through three regions and two stretches. -/
theorem W6_v0 : (W6 m ρ c (Proc.devRef .tc main_v0) : FVec Ideal S150000x64 .f32) = kEmb0 (a0 m c) (a1 m c) :=
  (W6_of_ne m ρ c main_v0 (by decide)).trans <| (W5_of m ρ c main_v0 (by decide)).trans <| (W4_of_ne m ρ c main_v0 (by decide)).trans <|
    (W3_of m ρ c main_v0 (by decide)).trans <|
    ((W2_arr m ρ c 0).trans (((dat0 (V1 m ρ) c).arrAt_in 0 rfl _).trans (A_eq0 (V1 m ρ) c 0))).trans (read0_v0 m ρ c)
/-- Region 0's second output, through two regions and two stretches. -/
theorem W6_v26_1 : W6 m ρ c (Proc.devRef .tc main_v26_1) = W2 m ρ c (Proc.devRef .tc main_v26_1) :=
  (W6_of_ne m ρ c main_v26_1 (by decide)).trans <| (W5_of m ρ c main_v26_1 (by decide)).trans <| (W4_of_ne m ρ c main_v26_1 (by decide)).trans <|
    W3_of m ρ c main_v26_1 (by decide)
/-- Region 1's second output, through one region and one stretch. -/
theorem W6_v48_1 : W6 m ρ c (Proc.devRef .tc main_v48_1) = W4 m ρ c (Proc.devRef .tc main_v48_1) :=
  (W6_of_ne m ρ c main_v48_1 (by decide)).trans (W5_of m ρ c main_v48_1 (by decide))

/-- The final table at region 3's entry: the four tables side by side. -/
abbrev fin : FVec Ideal S150000x256 .f32 :=
  kFin (kEmb0 (a0 m c) (a1 m c)) (W2 m ρ c (Proc.devRef .tc main_v26_1)) (W4 m ρ c (Proc.devRef .tc main_v48_1)) (W6 m ρ c (Proc.devRef .tc main_v70_1))

theorem read3_v80 : (W7 m ρ c (Proc.devRef .tc main_v80) : FVec Ideal S8192x256 .f32)
    = kBu (fin m ρ c) (a9 m c) := by
  have h : (W7 m ρ c (Proc.devRef .tc main_v80) : FVec Ideal S8192x256 .f32)
      = kBu (kFin (W6 m ρ c (Proc.devRef .tc main_v0)) (W6 m ρ c (Proc.devRef .tc main_v26_1)) (W6 m ρ c (Proc.devRef .tc main_v48_1))
          (W6 m ρ c (Proc.devRef .tc main_v70_1))) (W6 m ρ c (Proc.devRef .tc main_arg9)) := by
    show StableHlo.after hostOps3 (W6 m ρ c) (Proc.devRef .tc main_v80) = _
    simp only [hostOps3]
    after_results_simp <;> rfl
  rw [h, W6_v0, W6_v26_1, W6_v48_1, W6_arg9]
theorem read3_v87 : (W7 m ρ c (Proc.devRef .tc main_v87) : FVec Ideal S8192x256 .f32)
    = kBp (fin m ρ c) (a10 m c) := by
  have h : (W7 m ρ c (Proc.devRef .tc main_v87) : FVec Ideal S8192x256 .f32)
      = kBp (kFin (W6 m ρ c (Proc.devRef .tc main_v0)) (W6 m ρ c (Proc.devRef .tc main_v26_1)) (W6 m ρ c (Proc.devRef .tc main_v48_1))
          (W6 m ρ c (Proc.devRef .tc main_v70_1))) (W6 m ρ c (Proc.devRef .tc main_arg10)) := by
    show StableHlo.after hostOps3 (W6 m ρ c) (Proc.devRef .tc main_v87) = _
    simp only [hostOps3]
    after_results_simp <;> rfl
  rw [h, W6_v0, W6_v26_1, W6_v48_1, W6_arg10]
theorem read3_v94 : (W7 m ρ c (Proc.devRef .tc main_v94) : FVec Ideal S8192x256 .f32)
    = kBp (fin m ρ c) (a11 m c) := by
  have h : (W7 m ρ c (Proc.devRef .tc main_v94) : FVec Ideal S8192x256 .f32)
      = kBp (kFin (W6 m ρ c (Proc.devRef .tc main_v0)) (W6 m ρ c (Proc.devRef .tc main_v26_1)) (W6 m ρ c (Proc.devRef .tc main_v48_1))
          (W6 m ρ c (Proc.devRef .tc main_v70_1))) (W6 m ρ c (Proc.devRef .tc main_arg11)) := by
    show StableHlo.after hostOps3 (W6 m ρ c) (Proc.devRef .tc main_v94) = _
    simp only [hostOps3]
    after_results_simp <;> rfl
  rw [h, W6_v0, W6_v26_1, W6_v48_1, W6_arg11]

/-! ## Stretch 4: from region 3's exit to the returned value -/

theorem read4_v98 : (W9 m ρ c (Proc.devRef .tc main_v98) : FVec Ideal S_ .f32)
    = kTail (W8 m ρ c (Proc.devRef .tc main_v95)) := by
  show StableHlo.after hostOps4 (W8 m ρ c) (Proc.devRef .tc main_v98) = _
  simp only [hostOps4]
  after_results_simp <;> rfl

end Cert.KernelIdeal.ReadH

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«125397_j74723841016248_1_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«125397_j74723841016248_1_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«125397_j74723841016248_1_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«125397_j74723841016248_1_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«125397_j74723841016248_1_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibRowOps.lean ====
/-
  Row operations of a matrix, and of a stack of matrices, read at an index given by coordinates, at the ideal
  values (floats are extended reals, every operation exact).

  A sum or a maximum along the last axis, the "keep the reduced axis as a unit axis" reshaping that follows it, and the
  broadcast of that column back over the row are written in two spellings: the vector unit's
  (`multi_reduction`, `shape_cast` [n] → [n, 1], `broadcast` [n, 1] → [n, m]) on one matrix, and the host's
  (`reduce`, `broadcast_in_dim` [B, n] → [B, n, 1] → [B, n, m]) on a stack of B matrices. Each lemma reads one such
  operation at the coordinates (c, k), respectively (b, c, k): a row sum is the sum over the row's entries, a row
  maximum the fold of `max` over them from the initial value, the two layout operations read the operand at the
  row's coordinate. Read this way the two spellings are the same function of the matrix b of the stack.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.RowOps

open Idealize.ShloMosaic Idealize.ShloMosaic.ValueIdx

variable {B n m : Nat} {α : Type}

/-! ## The reduced index with the row's coordinate put back -/

/-- In a matrix reduced along its rows, row `c` with column `k` put back is the entry (c, k). -/
theorem lift_ix1 (h : (⟨2, ![n, m]⟩ : Shape).Reduces [1] ⟨1, ![n]⟩) (c : Fin n) (k : Fin m) :
    h.lift (ix1 c) k = ix2 c k := by
  funext a; apply Fin.ext; fin_cases a <;> rfl

/-- In a stack of matrices reduced along the rows, row (b, c) with column `k` put back is the entry (b, c, k). -/
theorem lift_ix2 (h : (⟨3, ![B, n, m]⟩ : Shape).Reduces [2] ⟨2, ![B, n]⟩) (b : Fin B) (c : Fin n) (k : Fin m) :
    h.lift (ix2 b c) k = ix3 b c k := by
  funext a; apply Fin.ext; fin_cases a <;> rfl

/-! ## Row sums -/

/-- The vector unit's sum along the rows of a matrix, from the zero accumulator, at row `c`: the sum of the row's entries. -/
theorem vec_rowSum (v : FVec Ideal ⟨2, ![n, m]⟩ .f32) (h : (⟨2, ![n, m]⟩ : Shape).Reduces [1] ⟨1, ![n]⟩)
    (hφ : FKind.Formats .f32) (hacc : (0x00000000#32 : BitVec 32) = 0x00000000#32) (c : Fin n) :
    multiReduction .add [1] ⟨1, ![n]⟩ v 0x00000000#32 h hφ hacc (ix1 c) = ∑ k : Fin m, v (ix2 c k) :=
  (Ideal.multiReduction_add_single v 0x00000000#32 h hφ hacc (ix1 c)).trans
    (Finset.sum_congr rfl fun k _ => congrArg v (lift_ix1 h c k))

/-- The host's sum along the rows of a stack of matrices, at row (b, c): the initial value plus the sum of the row's entries. -/
theorem host_rowSum (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduceAdd x init h' hu (ix2 b c) = init (Shape.Idx.first hu) + ∑ k : Fin m, x (ix3 b c k) := by
  simp only [Host.reduceAdd, Ideal.hostReduceAdd_def]
  rw [Ideal.hostReduceAdd_single h' h]
  exact congrArg (_ + ·) (Finset.sum_congr rfl fun k _ => congrArg x (lift_ix2 h b c k))

/-! ## Row maxima -/

/-- The vector unit's maximum along the rows of a matrix, from the accumulator -∞, at row `c`: the fold of `max` over the row. -/
theorem vec_rowMax (v : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (c : Fin n) :
    multiReduction .maximumf [1] ⟨1, ![n]⟩ v 0xFF800000#32 h hφ hacc (ix1 c)
      = (Finset.univ : Finset (Fin m)).fold max (Ideal.ofBits .f32 0xFF800000#32) (fun k => v (ix2 c k)) :=
  (Ideal.multiReduction_maximumf_single v 0xFF800000#32 h hφ hacc (ix1 c)).trans
    (congrArg (fun f => Finset.fold max (Ideal.ofBits .f32 0xFF800000#32) f (Finset.univ : Finset (Fin m)))
      (funext fun k => congrArg v (lift_ix1 h c k)))

/-- The host's maximum along the rows of a stack of matrices, at row (b, c): the fold of `max` over the row from the initial value. -/
theorem host_rowMax (x : FVec Ideal ⟨3, ![B, n, m]⟩ .f32) (init : (⟨0, ![]⟩ : Shape).Idx → Ideal .f32)
    (h' : (⟨3, ![B, n, m]⟩ : Shape).ReducesTo [2] ⟨2, ![B, n]⟩) (h : (⟨3, ![B, n, m]⟩ : Shape).Reduces [2] ⟨2, ![B, n]⟩)
    (hu : 0 < (⟨0, ![]⟩ : Shape).numel) (b : Fin B) (c : Fin n) :
    Host.reduce FloatOps.maximumf x init h' hu (ix2 b c)
      = (Finset.univ : Finset (Fin m)).fold max (init (Shape.Idx.first hu)) (fun k => x (ix3 b c k)) := by
  rw [Host.reduce_eq_fold_single FloatOps.maximumf x init h' h hu]
  exact congrArg (fun f => Finset.fold max (init (Shape.Idx.first hu)) f (Finset.univ : Finset (Fin m)))
    (funext fun k => congrArg x (lift_ix2 h b c k))

/-! ## The reduced axis kept as a unit axis, and the column broadcast back over the rows -/

/-- A vector of `n` entries cast to a column reads, at (c, 0), entry `c`. -/
theorem vec_col (v : (⟨1, ![n]⟩ : Shape).Idx → α) (h : (⟨1, ![n]⟩ : Shape).ShapeCasts ⟨2, ![n, 1]⟩) (c : Fin n) (u : Fin 1) :
    shapeCast ⟨2, ![n, 1]⟩ v h (ix2 c u) = v (ix1 c) :=
  shapeCast_apply v h _ _ (by
    have hu : u.val = 0 := by omega
    rw [Shape.rowMajor_val_one, Shape.rowMajor_val_two]
    show c.val = c.val * 1 + u.val
    omega)

/-- A column broadcast over `m` columns reads, at (c, k), the column's entry `c`. -/
theorem vec_colBroadcast (w : (⟨2, ![n, 1]⟩ : Shape).Idx → α) (h : (⟨2, ![n, 1]⟩ : Shape).Broadcasts ⟨2, ![n, m]⟩)
    (c : Fin n) (k : Fin m) : broadcastTo ⟨2, ![n, m]⟩ w h (ix2 c k) = w (ix2 c (0 : Fin 1)) := by
  refine broadcastTo_apply w h (ix2 c k) (ix2 c (0 : Fin 1)) fun ax => ?_
  match ax with
  | ⟨0, _⟩ =>
    show c.val = if n = 1 then 0 else c.val
    split
    · have := c.isLt; omega
    · rfl
  | ⟨1, _⟩ =>
    show (0 : Nat) = if (1 : Nat) = 1 then 0 else k.val
    rw [if_pos rfl]

/-- The host's `broadcast_in_dim` of a [B, n] array to [B, n, 1] reads, at (b, c, 0), the entry (b, c). -/
theorem host_col (v : (⟨2, ![B, n]⟩ : Shape).Idx → α) (h : (⟨2, ![B, n]⟩ : Shape).BroadcastsInDim ⟨3, ![B, n, 1]⟩ ![0, 1])
    (b : Fin B) (c : Fin n) (u : Fin 1) : broadcastInDim ⟨3, ![B, n, 1]⟩ ![0, 1] h v (ix3 b c u) = v (ix2 b c) := by
  refine broadcastInDim_apply _ h v (ix3 b c u) (ix2 b c) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl

/-- The host's `broadcast_in_dim` of a [B, n, 1] array to [B, n, m] reads, at (b, c, k), the entry (b, c, 0). -/
theorem host_colBroadcast (w : (⟨3, ![B, n, 1]⟩ : Shape).Idx → α)
    (h : (⟨3, ![B, n, 1]⟩ : Shape).BroadcastsInDim ⟨3, ![B, n, m]⟩ ![0, 1, 2]) (b : Fin B) (c : Fin n) (k : Fin m) :
    broadcastInDim ⟨3, ![B, n, m]⟩ ![0, 1, 2] h w (ix3 b c k) = w (ix3 b c (0 : Fin 1)) := by
  refine broadcastInDim_apply _ h w (ix3 b c k) (ix3 b c (0 : Fin 1)) fun a => ?_
  match a with
  | ⟨0, _⟩ =>
    show b.val = if B = 1 then 0 else b.val
    split
    · have := b.isLt; omega
    · rfl
  | ⟨1, _⟩ =>
    show c.val = if n = 1 then 0 else c.val
    split
    · have := c.isLt; omega
    · rfl
  | ⟨2, _⟩ =>
    show (0 : Nat) = if (1 : Nat) = 1 then 0 else k.val
    rw [if_pos rfl]

/-! ## Pointwise operations in the host's and the vector unit's spelling: the same function of each entry -/

theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem host_sqrt_apply {s : Shape} {φ : FTy} (x : FVec Ideal s φ) (i : s.Idx) : Host.sqrt x i = Ideal.sqrt (x i) := rfl
theorem host_exp_apply {s : Shape} {φ : FTy} (x : FVec Ideal s φ) (i : s.Idx) : Host.exp x i = Ideal.exp (x i) := rfl
theorem host_divf_apply {s : Shape} {φ : FTy} (x y : FVec Ideal s φ) (i : s.Idx) : Host.divf x y i = Ideal.div (x i) (y i) := rfl
/-- A scalar constant of the vector unit is the extended real its bit pattern denotes. -/
theorem scalar_ofBits (φ : FTy) (w : BitVec φ.bits) : Scalar.ofBits (F := Ideal) φ w = Ideal.ofBits φ w := rfl

/-- The host's `broadcast_in_dim` of a rank-zero array reads its one entry everywhere. -/
theorem host_splat {t : Shape} (x : (⟨0, ![]⟩ : Shape).Idx → α) (h : (⟨0, ![]⟩ : Shape).BroadcastsInDim t ![]) (j : t.Idx) :
    broadcastInDim t ![] h x j = x ix0 :=
  broadcastInDim_apply _ h x j ix0 fun a => a.elim0

end Cert.Lib.RowOps

end
-- ==== Proof.NgcfLayer.lean ====
/-
  ONE LAYER OF THE GRAPH NETWORK AS WHOLE-ARRAY FUNCTIONS, at the ideal values (floats are extended reals, every
  operation exact, a change of format the identity).

  From the node embeddings `emb` and their neighbourhood sums `t1e` (both `[R, 64]`) a layer forms
    pre  = (t1e · w1 + b1) + ((emb ∘ t1e) · w2 + b2)          (two dense layers, the second on the entrywise product)
    new  = pre where pre ≥ 0, pre · slope elsewhere           (the leaky rectifier)
    norm = new / max(√(row sum of new²), eps)                 (each row divided by its Euclidean length, floored)
  with `w1, w2 : [64, 64]`, `b1, b2 : [1, 64]`.  Every output row depends on the same row of `emb` and `t1e` and on
  nothing else of them, so the functions are stated for any number `R` of rows: a block of rows of the result is the
  function of the blocks.  The vector unit's spelling of `new` and `norm` on a block (matrix products of narrowed
  operands into a zero accumulator, one-row biases broadcast over the rows, a lane sum, a column broadcast) and the
  host's spelling on whole arrays (`dot_general`, biases broadcast twice, a `reduce`, `broadcast_in_dim`s) are both
  shown to be these functions.  Sums are compared term by term in the same order; the only algebra used is that
  multiplication commutes and that zero is neutral for addition.
-/
import proofs.«125397_j74723841016248_1_alg».proof.Proof.LibProdRows
import proofs.«125397_j74723841016248_1_alg».proof.Proof.LibRowBias
import proofs.«125397_j74723841016248_1_alg».proof.Proof.LibRowOps
import proofs.«125397_j74723841016248_1_alg».proof.Proof.Gen.KernelIdeal.Skeleton

noncomputable section

open scoped BigOperators

namespace Cert.NgcfLayer

open Idealize.ShloMosaic Idealize.ShloMosaic.ValueIdx Cert.DenseRow Cert.RowBias Cert.ProdRows Cert.Lib.RowOps

/-- An `[R, C]` array of extended reals. -/
abbrev M (R C : ℕ) : Type := (⟨2, ![R, C]⟩ : Shape).Idx → EReal

/-- The slope of the leaky rectifier below zero: the value of its float pattern (never evaluated). -/
def slope : EReal := Ideal.ofBits .f32 0x3C23D70A#32

/-- The floor under a row's length. -/
def eps : EReal := Ideal.ofBits .f32 0x2B8CBCCC#32

/-- The leaky rectifier on one number: itself where it is at least zero, `slope` times itself elsewhere. -/
def leaky1 (x : EReal) : EReal :=
  Scalar.select (FloatOps.cmpf (F := Ideal) (φ := .f32) .oge x zf) x (x * slope)

/-- The sum of the two dense layers. -/
def preArr {R : ℕ} (emb t1e : M R 64) (w1 : M 64 64) (b1 : M 1 64) (w2 : M 64 64) (b2 : M 1 64) : M R 64 :=
  addArr (layerArr t1e w1 (unrow b1)) (layerArr (fun i => emb i * t1e i) w2 (unrow b2))

/-- The layer's new embeddings. -/
def newArr {R : ℕ} (emb t1e : M R 64) (w1 : M 64 64) (b1 : M 1 64) (w2 : M 64 64) (b2 : M 1 64) : M R 64 :=
  fun i => leaky1 (preArr emb t1e w1 b1 w2 b2 i)

/-- One entry of a row divided by the row's floored Euclidean length. -/
def norm1 (x : Fin 64 → EReal) (c : Fin 64) : EReal :=
  Ideal.div (x c) (max (Ideal.sqrt (∑ k : Fin 64, x k * x k)) eps)

/-- Every row divided by its floored Euclidean length. -/
def normArr {R : ℕ} (x : M R 64) : M R 64 :=
  fun i => norm1 (fun k => x (ix2 (idxEquiv2 (n0 := R) (n1 := 64) i).1 k)) (idxEquiv2 (n0 := R) (n1 := 64) i).2

theorem preArr_apply {R : ℕ} (emb t1e : M R 64) (w1 : M 64 64) (b1 : M 1 64) (w2 : M 64 64) (b2 : M 1 64) (p : Fin R) (c : Fin 64) :
    preArr emb t1e w1 b1 w2 b2 (ix2 p c)
      = layer (fun k => t1e (ix2 p k)) (fun k j => w1 (ix2 k j)) (fun j => unrow b1 (ix1 j)) c
        + layer (fun k => emb (ix2 p k) * t1e (ix2 p k)) (fun k j => w2 (ix2 k j)) (fun j => unrow b2 (ix1 j)) c := rfl

theorem normArr_apply {R : ℕ} (x : M R 64) (p : Fin R) (c : Fin 64) :
    normArr x (ix2 p c) = norm1 (fun k => x (ix2 p k)) c := rfl

/-! ## Each output row depends on the same input rows only -/

theorem newArr_rows {R R' : ℕ} (emb t1e : M R 64) (EMB T1E : M R' 64) (w1 : M 64 64) (b1 : M 1 64) (w2 : M 64 64) (b2 : M 1 64)
    (p : Fin R) (p' : Fin R') (h1 : ∀ k : Fin 64, emb (ix2 p k) = EMB (ix2 p' k)) (h2 : ∀ k : Fin 64, t1e (ix2 p k) = T1E (ix2 p' k))
    (c : Fin 64) : newArr emb t1e w1 b1 w2 b2 (ix2 p c) = newArr EMB T1E w1 b1 w2 b2 (ix2 p' c) := by
  show leaky1 (preArr emb t1e w1 b1 w2 b2 (ix2 p c)) = leaky1 (preArr EMB T1E w1 b1 w2 b2 (ix2 p' c))
  rw [preArr_apply, preArr_apply, show (fun k => t1e (ix2 p k)) = fun k => T1E (ix2 p' k) from funext h2,
    show (fun k => emb (ix2 p k) * t1e (ix2 p k)) = fun k => EMB (ix2 p' k) * T1E (ix2 p' k) from
      funext fun k => by rw [h1 k, h2 k]]

/-- The same with the weights and biases allowed to differ as terms while agreeing entry by entry. -/
theorem newArr_congr {R R' : ℕ} (emb t1e : M R 64) (EMB T1E : M R' 64) (w1 W1 : M 64 64) (b1 B1 : M 1 64) (w2 W2 : M 64 64) (b2 B2 : M 1 64)
    (p : Fin R) (p' : Fin R') (h1 : ∀ k : Fin 64, emb (ix2 p k) = EMB (ix2 p' k)) (h2 : ∀ k : Fin 64, t1e (ix2 p k) = T1E (ix2 p' k))
    (hw1 : ∀ k j : Fin 64, w1 (ix2 k j) = W1 (ix2 k j)) (hb1 : ∀ j : Fin 64, b1 (ix2 (0 : Fin 1) j) = B1 (ix2 (0 : Fin 1) j))
    (hw2 : ∀ k j : Fin 64, w2 (ix2 k j) = W2 (ix2 k j)) (hb2 : ∀ j : Fin 64, b2 (ix2 (0 : Fin 1) j) = B2 (ix2 (0 : Fin 1) j))
    (c : Fin 64) : newArr emb t1e w1 b1 w2 b2 (ix2 p c) = newArr EMB T1E W1 B1 W2 B2 (ix2 p' c) := by
  have ew1 : w1 = W1 := funext fun i => by
    obtain ⟨k, j, rfl⟩ : ∃ (k : Fin 64) (j : Fin 64), i = ix2 k j := ⟨i 0, i 1, eq_ix2 i⟩
    exact hw1 k j
  have ew2 : w2 = W2 := funext fun i => by
    obtain ⟨k, j, rfl⟩ : ∃ (k : Fin 64) (j : Fin 64), i = ix2 k j := ⟨i 0, i 1, eq_ix2 i⟩
    exact hw2 k j
  have eb1 : b1 = B1 := funext fun i => by
    obtain ⟨k, j, rfl⟩ : ∃ (k : Fin 1) (j : Fin 64), i = ix2 k j := ⟨i 0, i 1, eq_ix2 i⟩
    obtain rfl : k = 0 := Subsingleton.elim _ _
    exact hb1 j
  have eb2 : b2 = B2 := funext fun i => by
    obtain ⟨k, j, rfl⟩ : ∃ (k : Fin 1) (j : Fin 64), i = ix2 k j := ⟨i 0, i 1, eq_ix2 i⟩
    obtain rfl : k = 0 := Subsingleton.elim _ _
    exact hb2 j
  rw [ew1, ew2, eb1, eb2]
  exact newArr_rows emb t1e EMB T1E W1 B1 W2 B2 p p' h1 h2 c

theorem normArr_rows {R R' : ℕ} (x : M R 64) (X : M R' 64) (p : Fin R) (p' : Fin R')
    (h : ∀ k : Fin 64, x (ix2 p k) = X (ix2 p' k)) (c : Fin 64) : normArr x (ix2 p c) = normArr X (ix2 p' c) := by
  rw [normArr_apply, normArr_apply, show (fun k => x (ix2 p k)) = fun k => X (ix2 p' k) from funext h]

/-! ## The vector unit's spelling, on a block of 6000 rows -/

open Cert.KernelIdeal Cert.KernelIdeal.Gen

/-- The printed dimension record of the block's matrix product is the plain one. -/
theorem dot_plain : dot_S6000x64_S64x64_S6000x64_1_0_0_1_n_n = DotDims.plain 6000 64 64 := rfl

/-- Narrowing an array already of the right shape changes nothing at the ideal values. -/
theorem narrow_self {s : Shape} (v : FVec Ideal s .f32) (h : s.ShapeCasts s) (h' : FTy.bits .bf16 < FTy.bits .f32) :
    (truncf .bf16 (shapeCast s v h) h' : s.Idx → EReal) = v := by
  funext j
  show FloatOps.truncf (F := Ideal) .bf16 h' (shapeCast s v h j) = v j
  rw [Ideal.truncf_def, shapeCast_self]

/-- The pre-activation in the vector unit's spelling on a block: two matrix products of narrowed operands into zero
    accumulators, each plus its one-row bias broadcast over the rows, added. -/
def kpreTerm (v0 v2 : FVec Ideal S6000x64 .f32) (v4 : FVec Ideal S64x64 .f32) (v6 : FVec Ideal S1x64 .f32)
    (v8 : FVec Ideal S64x64 .f32) (v10 : FVec Ideal S1x64 .f32) : FVec Ideal S6000x64 .f32 :=
    addf (addf (matmul dot_S6000x64_S64x64_S6000x64_1_0_0_1_n_n none (truncf .bf16 (shapeCast S6000x64 v2 shapeCasts_S6000x64_S6000x64) bitsLt_bf16_f32)
            (truncf .bf16 (shapeCast S64x64 v4 shapeCasts_S64x64_S64x64) bitsLt_bf16_f32) (constant S6000x64 .f32 0x00000000#32))
          (broadcastTo S6000x64 (shapeCast S1x64 v6 shapeCasts_S1x64_S1x64) broadcasts_S1x64_S6000x64))
        (addf (matmul dot_S6000x64_S64x64_S6000x64_1_0_0_1_n_n none
              (truncf .bf16 (mulf (shapeCast S6000x64 v0 shapeCasts_S6000x64_S6000x64) (shapeCast S6000x64 v2 shapeCasts_S6000x64_S6000x64)) bitsLt_bf16_f32)
              (truncf .bf16 (shapeCast S64x64 v8 shapeCasts_S64x64_S64x64) bitsLt_bf16_f32) (constant S6000x64 .f32 0x00000000#32))
          (broadcastTo S6000x64 (shapeCast S1x64 v10 shapeCasts_S1x64_S1x64) broadcasts_S1x64_S6000x64))

/-- It is the sum of the two dense layers. -/
theorem kpre (v0 v2 : FVec Ideal S6000x64 .f32) (v4 : FVec Ideal S64x64 .f32) (v6 : FVec Ideal S1x64 .f32)
    (v8 : FVec Ideal S64x64 .f32) (v10 : FVec Ideal S1x64 .f32) :
    kpreTerm v0 v2 v4 v6 v8 v10 = preArr (R := 6000) v0 v2 v4 v6 v8 v10 := by
  unfold kpreTerm
  rw [dot_plain]
  rw [klayer1Arr (DotDims.plain 6000 64 64) rfl rfl (Cert.PlainDot.lhs_at 6000 64 64) (Cert.PlainDot.rhs_at 6000 64 64),
    klayer1Arr (DotDims.plain 6000 64 64) rfl rfl (Cert.PlainDot.lhs_at 6000 64 64) (Cert.PlainDot.rhs_at 6000 64 64)]
  rw [narrow_self, narrow_self, narrow_self]
  have e : (truncf .bf16 (mulf (shapeCast S6000x64 v0 shapeCasts_S6000x64_S6000x64) (shapeCast S6000x64 v2 shapeCasts_S6000x64_S6000x64)) bitsLt_bf16_f32
      : S6000x64.Idx → EReal) = fun i => v0 i * v2 i := by
    funext j
    show FloatOps.truncf (F := Ideal) .bf16 bitsLt_bf16_f32 (FloatOps.mulf (shapeCast S6000x64 v0 shapeCasts_S6000x64_S6000x64 j) (shapeCast S6000x64 v2 shapeCasts_S6000x64_S6000x64 j)) = _
    rw [Ideal.truncf_def, shapeCast_self, shapeCast_self]
    rfl
  rw [e]
  rfl

/-- The block of new embeddings the kernel stores. -/
theorem k0_pay1_eq (v0 v2 : FVec Ideal S6000x64 .f32) (v4 : FVec Ideal S64x64 .f32) (v6 : FVec Ideal S1x64 .f32)
    (v8 : FVec Ideal S64x64 .f32) (v10 : FVec Ideal S1x64 .f32) :
    k0_pay1 (F := Ideal) v0 v2 v4 v6 v8 v10 = newArr (R := 6000) v0 v2 v4 v6 v8 v10 := by
  have e : k0_pay1 (F := Ideal) v0 v2 v4 v6 v8 v10 = fun i => leaky1 (kpreTerm v0 v2 v4 v6 v8 v10 i) := rfl
  rw [e, kpre]
  rfl

/-- Rows divided by their floored lengths, in the vector unit's spelling on a block: the squares summed along the lanes
    from a zero accumulator, the sums laid out as a column, its square root floored, the column broadcast back over the
    rows, the quotient. -/
def knormTerm (x : FVec Ideal S6000x64 .f32) : FVec Ideal S6000x64 .f32 :=
  divf x (broadcastTo S6000x64 (maximumf (sqrt (shapeCast S6000x1
      (multiReduction .add [1] S6000 (mulf x x) 0x00000000#32 reduces_S6000x64_S6000 (.inl rfl) rfl) shapeCasts_S6000_S6000x1))
    (broadcast S6000x1 (Scalar.ofBits (F := Ideal) .f32 0x2B8CBCCC#32))) broadcasts_S6000x1_S6000x64)

theorem knorm (x : FVec Ideal S6000x64 .f32) : knormTerm x = normArr (R := 6000) x := by
  funext i
  obtain ⟨p, c, rfl⟩ : ∃ (p : Fin 6000) (c : Fin 64), i = ix2 p c := ⟨i 0, i 1, eq_ix2 i⟩
  rw [normArr_apply]
  unfold knormTerm
  show Ideal.div (x (ix2 p c)) (broadcastTo S6000x64 _ broadcasts_S6000x1_S6000x64 (ix2 p c)) = _
  rw [vec_colBroadcast (n := 6000) (m := 64)]
  show Ideal.div (x (ix2 p c)) (max (Ideal.sqrt (shapeCast S6000x1 _ shapeCasts_S6000_S6000x1 (ix2 p (0 : Fin 1)))) eps) = _
  rw [vec_col (n := 6000), vec_rowSum (n := 6000) (m := 64)]
  rfl

/-- The block of normalised embeddings the kernel stores. -/
theorem k0_pay2_eq (v0 v2 : FVec Ideal S6000x64 .f32) (v4 : FVec Ideal S64x64 .f32) (v6 : FVec Ideal S1x64 .f32)
    (v8 : FVec Ideal S64x64 .f32) (v10 : FVec Ideal S1x64 .f32) :
    k0_pay2 (F := Ideal) v0 v2 v4 v6 v8 v10 = normArr (R := 6000) (newArr (R := 6000) v0 v2 v4 v6 v8 v10) := by
  have e : k0_pay2 (F := Ideal) v0 v2 v4 v6 v8 v10 = knormTerm (k0_pay1 (F := Ideal) v0 v2 v4 v6 v8 v10) := rfl
  rw [e, knorm, k0_pay1_eq]

/-- The second and third layer's kernels are the first's text. -/
theorem k1_pay1_eq (v0 v2 : FVec Ideal S6000x64 .f32) (v4 : FVec Ideal S64x64 .f32) (v6 : FVec Ideal S1x64 .f32)
    (v8 : FVec Ideal S64x64 .f32) (v10 : FVec Ideal S1x64 .f32) :
    k1_pay1 (F := Ideal) v0 v2 v4 v6 v8 v10 = newArr (R := 6000) v0 v2 v4 v6 v8 v10 :=
  (rfl : k1_pay1 (F := Ideal) v0 v2 v4 v6 v8 v10 = k0_pay1 (F := Ideal) v0 v2 v4 v6 v8 v10).trans (k0_pay1_eq v0 v2 v4 v6 v8 v10)
theorem k1_pay2_eq (v0 v2 : FVec Ideal S6000x64 .f32) (v4 : FVec Ideal S64x64 .f32) (v6 : FVec Ideal S1x64 .f32)
    (v8 : FVec Ideal S64x64 .f32) (v10 : FVec Ideal S1x64 .f32) :
    k1_pay2 (F := Ideal) v0 v2 v4 v6 v8 v10 = normArr (R := 6000) (newArr (R := 6000) v0 v2 v4 v6 v8 v10) :=
  (rfl : k1_pay2 (F := Ideal) v0 v2 v4 v6 v8 v10 = k0_pay2 (F := Ideal) v0 v2 v4 v6 v8 v10).trans (k0_pay2_eq v0 v2 v4 v6 v8 v10)
theorem k2_pay1_eq (v0 v2 : FVec Ideal S6000x64 .f32) (v4 : FVec Ideal S64x64 .f32) (v6 : FVec Ideal S1x64 .f32)
    (v8 : FVec Ideal S64x64 .f32) (v10 : FVec Ideal S1x64 .f32) :
    k2_pay1 (F := Ideal) v0 v2 v4 v6 v8 v10 = newArr (R := 6000) v0 v2 v4 v6 v8 v10 :=
  (rfl : k2_pay1 (F := Ideal) v0 v2 v4 v6 v8 v10 = k0_pay1 (F := Ideal) v0 v2 v4 v6 v8 v10).trans (k0_pay1_eq v0 v2 v4 v6 v8 v10)
theorem k2_pay2_eq (v0 v2 : FVec Ideal S6000x64 .f32) (v4 : FVec Ideal S64x64 .f32) (v6 : FVec Ideal S1x64 .f32)
    (v8 : FVec Ideal S64x64 .f32) (v10 : FVec Ideal S1x64 .f32) :
    k2_pay2 (F := Ideal) v0 v2 v4 v6 v8 v10 = normArr (R := 6000) (newArr (R := 6000) v0 v2 v4 v6 v8 v10) :=
  (rfl : k2_pay2 (F := Ideal) v0 v2 v4 v6 v8 v10 = k0_pay2 (F := Ideal) v0 v2 v4 v6 v8 v10).trans (k0_pay2_eq v0 v2 v4 v6 v8 v10)

end Cert.NgcfLayer

end
-- ==== Proof.KIValue0.lean ====
/-
  What the first layer's pallas_call leaves in its two output arrays, at the ideal values: each grid point writes one block of
  6000 rows, and because every output row of the layer depends only on the same rows of the two tall inputs (and on the
  whole small weights and biases, which every point sees whole), block `t` is rows `6000·t …` of the layer applied to
  the whole arrays.  The 25 blocks tile the 150000 rows, so the arrays end as `newArr` and `normArr (newArr …)` of the
  arrays the region is entered with.
-/
import proofs.«125397_j74723841016248_1_alg».proof.Proof.KIFrame0
import proofs.«125397_j74723841016248_1_alg».proof.Proof.NgcfLayer
import Idealize.ShloMosaic.Lib.Pipeline.Value

set_option maxRecDepth 16384

noncomputable section

namespace Cert.KernelIdeal.ValH

open Cert.KernelIdeal Cert.KernelIdeal.Gen Cert.KernelIdeal.GenH Cert.NgcfLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the tall windows' block row is the point, every other block index is zero. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The new embeddings as one function of the arrays the region is entered with. -/
abbrev Gnew0 (c : Dev nD) : M 150000 64 :=
  newArr (R := 150000) (V c main_v0) (V c main_v17) (V c main_v19) (V c main_v21) (V c main_v23) (V c main_v25)

/-- Entry `(p, q)` of the block of new embeddings at point `t` is entry `(6000·t + p, q)` of `Gnew`. -/
theorem blk_new0 (c : Dev nD) (t : Fin cfg0.N) (p : Fin 6000) (q : Fin 64) (p' : Fin 150000) (hp : p'.val = t.val * 6000 + p.val) :
    newArr (R := 6000) (iblk0 V c 0 t) (iblk0 V c 1 t) (iblk0 V c 2 t) (iblk0 V c 3 t) (iblk0 V c 4 t) (iblk0 V c 5 t) (ix2 p q)
      = Gnew0 V c (ix2 p' q) := by
  obtain ⟨e00, e01, e10, e11, e20, e21, e30, e31, e40, e41, e50, e51, e60, e61, e70, e71⟩ := idx_facts0 t
  refine newArr_congr (R := 6000) (R' := 150000) _ _ _ _ _ _ _ _ _ _ _ _ p p' (fun k => ?_) (fun k => ?_) (fun a b => ?_) (fun b => ?_) (fun a b => ?_) (fun b => ?_) q
  · show V c main_v0 (((cfg0.win 0).blk t).view.emb (ix2 p k)) = V c main_v0 (ix2 p' k)
    refine congrArg _ (funext fun a => Fin.ext ?_)
    match a with
    | ⟨0, _⟩ => show win0_0.index t (0 : Fin 2) * 6000 + 1 * p.val = p'.val; omega
    | ⟨1, _⟩ => show win0_0.index t (1 : Fin 2) * 64 + 1 * k.val = k.val; omega
  · show V c main_v17 (((cfg0.win 1).blk t).view.emb (ix2 p k)) = V c main_v17 (ix2 p' k)
    refine congrArg _ (funext fun a => Fin.ext ?_)
    match a with
    | ⟨0, _⟩ => show win0_1.index t (0 : Fin 2) * 6000 + 1 * p.val = p'.val; omega
    | ⟨1, _⟩ => show win0_1.index t (1 : Fin 2) * 64 + 1 * k.val = k.val; omega
  · show V c main_v19 (((cfg0.win 2).blk t).view.emb (ix2 a b)) = V c main_v19 (ix2 a b)
    refine congrArg _ (funext fun x => Fin.ext ?_)
    match x with
    | ⟨0, _⟩ => show win0_2.index t (0 : Fin 2) * 64 + 1 * a.val = a.val; omega
    | ⟨1, _⟩ => show win0_2.index t (1 : Fin 2) * 64 + 1 * b.val = b.val; omega
  · show V c main_v21 (((cfg0.win 3).blk t).view.emb (ix2 (0 : Fin 1) b)) = V c main_v21 (ix2 (0 : Fin 1) b)
    refine congrArg _ (funext fun x => Fin.ext ?_)
    match x with
    | ⟨0, _⟩ => show win0_3.index t (0 : Fin 2) * 1 + 1 * 0 = 0; omega
    | ⟨1, _⟩ => show win0_3.index t (1 : Fin 2) * 64 + 1 * b.val = b.val; omega
  · show V c main_v23 (((cfg0.win 4).blk t).view.emb (ix2 a b)) = V c main_v23 (ix2 a b)
    refine congrArg _ (funext fun x => Fin.ext ?_)
    match x with
    | ⟨0, _⟩ => show win0_4.index t (0 : Fin 2) * 64 + 1 * a.val = a.val; omega
    | ⟨1, _⟩ => show win0_4.index t (1 : Fin 2) * 64 + 1 * b.val = b.val; omega
  · show V c main_v25 (((cfg0.win 5).blk t).view.emb (ix2 (0 : Fin 1) b)) = V c main_v25 (ix2 (0 : Fin 1) b)
    refine congrArg _ (funext fun x => Fin.ext ?_)
    match x with
    | ⟨0, _⟩ => show win0_5.index t (0 : Fin 2) * 1 + 1 * 0 = 0; omega
    | ⟨1, _⟩ => show win0_5.index t (1 : Fin 2) * 64 + 1 * b.val = b.val; omega

/-- A point of the grid is below 25. -/
theorem t_lt0 (t : Fin cfg0.N) : t.val < 25 := lt_of_lt_of_eq t.isLt N_0

/-- WHAT POINT `t` WRITES BACK to the array of new embeddings is block `t` of `Gnew`. -/
theorem flushed0_6_eq (c : Dev nD) (t : Fin cfg0.N) :
    (dat0 V c).flushed 6 t = ((cfg0.win 6).blk t).view.read (Elt Ideal) (Gnew0 V c) := by
  show (cfg0.win 6).cut (grid0.coords t) ((dat0 V c).after 6 t) = _
  rw [after0_6]
  unfold out0_6
  rw [View.canon_unit_zero hz0]
  simp only [View.ld_unit_zero (S := S6000x64) hz0, View.ld_unit_zero (S := S64x64) hz0, View.ld_unit_zero (S := S1x64) hz0]
  rw [k0_pay1_eq]
  obtain ⟨e00, e01, e10, e11, e20, e21, e30, e31, e40, e41, e50, e51, e60, e61, e70, e71⟩ := idx_facts0 t
  have ht := t_lt0 t
  funext j
  obtain ⟨p, q, rfl⟩ : ∃ (p : Fin 6000) (q : Fin 64), j = ix2 p q := ⟨j 0, j 1, eq_ix2 j⟩
  have hemb : ((cfg0.win 6).blk t).view.emb (ix2 p q) = ix2 (⟨t.val * 6000 + p.val, by have := p.isLt; omega⟩ : Fin 150000) q := by
    funext a; apply Fin.ext
    match a with
    | ⟨0, _⟩ => show win0_6.index t (0 : Fin 2) * 6000 + 1 * p.val = t.val * 6000 + p.val; omega
    | ⟨1, _⟩ => show win0_6.index t (1 : Fin 2) * 64 + 1 * q.val = q.val; omega
  show newArr (R := 6000) (iblk0 V c 0 t) (iblk0 V c 1 t) (iblk0 V c 2 t) (iblk0 V c 3 t) (iblk0 V c 4 t) (iblk0 V c 5 t) (ix2 p q)
    = Gnew0 V c (((cfg0.win 6).blk t).view.emb (ix2 p q))
  rw [hemb]
  exact blk_new0 V c t p q _ rfl

/-- WHAT POINT `t` WRITES BACK to the array of normalised embeddings is block `t` of `normArr Gnew`. -/
theorem flushed0_7_eq (c : Dev nD) (t : Fin cfg0.N) :
    (dat0 V c).flushed 7 t = ((cfg0.win 7).blk t).view.read (Elt Ideal) (normArr (R := 150000) (Gnew0 V c)) := by
  show (cfg0.win 7).cut (grid0.coords t) ((dat0 V c).after 7 t) = _
  rw [after0_7]
  unfold out0_7
  rw [View.canon_unit_zero hz0]
  simp only [View.ld_unit_zero (S := S6000x64) hz0, View.ld_unit_zero (S := S64x64) hz0, View.ld_unit_zero (S := S1x64) hz0]
  rw [k0_pay2_eq]
  obtain ⟨e00, e01, e10, e11, e20, e21, e30, e31, e40, e41, e50, e51, e60, e61, e70, e71⟩ := idx_facts0 t
  have ht := t_lt0 t
  funext j
  obtain ⟨p, q, rfl⟩ : ∃ (p : Fin 6000) (q : Fin 64), j = ix2 p q := ⟨j 0, j 1, eq_ix2 j⟩
  have hemb : ((cfg0.win 7).blk t).view.emb (ix2 p q) = ix2 (⟨t.val * 6000 + p.val, by have := p.isLt; omega⟩ : Fin 150000) q := by
    funext a; apply Fin.ext
    match a with
    | ⟨0, _⟩ => show win0_7.index t (0 : Fin 2) * 6000 + 1 * p.val = t.val * 6000 + p.val; omega
    | ⟨1, _⟩ => show win0_7.index t (1 : Fin 2) * 64 + 1 * q.val = q.val; omega
  show normArr (R := 6000) (newArr (R := 6000) (iblk0 V c 0 t) (iblk0 V c 1 t) (iblk0 V c 2 t) (iblk0 V c 3 t) (iblk0 V c 4 t) (iblk0 V c 5 t)) (ix2 p q)
    = normArr (R := 150000) (Gnew0 V c) (((cfg0.win 7).blk t).view.emb (ix2 p q))
  rw [hemb]
  exact normArr_rows _ _ p _ (fun k => blk_new0 V c t p k _ rfl) q

/-- An index of the array is in point `t`'s block of window 6 iff its row is among the block's 6000 rows. -/
theorem mem_blk0_6 (t : Fin cfg0.N) (i : S150000x64.Idx) :
    i ∈ ((cfg0.win 6).blk t).view.set ↔ ∀ a : Fin 2, win0_6.index t a * S6000x64.size a ≤ (i a).val ∧ (i a).val < win0_6.index t a * S6000x64.size a + S6000x64.size a := by
  show i ∈ ((View.whole main_v26_0).slice (win0_6.rect t)).set ↔ _
  rw [View.set_slice_whole, Rect.mem_set_unit]
  exact Iff.rfl
theorem mem_blk0_7 (t : Fin cfg0.N) (i : S150000x64.Idx) :
    i ∈ ((cfg0.win 7).blk t).view.set ↔ ∀ a : Fin 2, win0_7.index t a * S6000x64.size a ≤ (i a).val ∧ (i a).val < win0_7.index t a * S6000x64.size a + S6000x64.size a := by
  show i ∈ ((View.whole main_v26_1).slice (win0_7.rect t)).set ↔ _
  rw [View.set_slice_whole, Rect.mem_set_unit]
  exact Iff.rfl

/-- The point whose block holds row `r`. -/
def ptOf0 (r : ℕ) (hr : r < 150000) : Fin cfg0.N := ⟨r / 6000, by rw [show cfg0.N = 25 from N_0]; omega⟩

theorem cover0_6 (i : S150000x64.Idx) : ∃ t : Fin cfg0.N, (cfg0.win 6).flush t = true ∧ i ∈ ((cfg0.win 6).blk t).view.set := by
  have hi0 : (i 0).val < 150000 := (i 0).isLt
  have hi1 : (i 1).val < 64 := (i 1).isLt
  refine ⟨ptOf0 (i 0).val hi0, flush0_6 _, ?_⟩
  obtain ⟨e00, e01, e10, e11, e20, e21, e30, e31, e40, e41, e50, e51, e60, e61, e70, e71⟩ := idx_facts0 (ptOf0 (i 0).val hi0)
  have hv : (ptOf0 (i 0).val hi0).val = (i 0).val / 6000 := rfl
  rw [mem_blk0_6]
  intro a
  match a with
  | ⟨0, _⟩ => show win0_6.index _ (0 : Fin 2) * 6000 ≤ (i 0).val ∧ (i 0).val < win0_6.index _ (0 : Fin 2) * 6000 + 6000; omega
  | ⟨1, _⟩ => show win0_6.index _ (1 : Fin 2) * 64 ≤ (i 1).val ∧ (i 1).val < win0_6.index _ (1 : Fin 2) * 64 + 64; omega

theorem cover0_7 (i : S150000x64.Idx) : ∃ t : Fin cfg0.N, (cfg0.win 7).flush t = true ∧ i ∈ ((cfg0.win 7).blk t).view.set := by
  have hi0 : (i 0).val < 150000 := (i 0).isLt
  have hi1 : (i 1).val < 64 := (i 1).isLt
  refine ⟨ptOf0 (i 0).val hi0, flush0_7 _, ?_⟩
  obtain ⟨e00, e01, e10, e11, e20, e21, e30, e31, e40, e41, e50, e51, e60, e61, e70, e71⟩ := idx_facts0 (ptOf0 (i 0).val hi0)
  have hv : (ptOf0 (i 0).val hi0).val = (i 0).val / 6000 := rfl
  rw [mem_blk0_7]
  intro a
  match a with
  | ⟨0, _⟩ => show win0_7.index _ (0 : Fin 2) * 6000 ≤ (i 0).val ∧ (i 0).val < win0_7.index _ (0 : Fin 2) * 6000 + 6000; omega
  | ⟨1, _⟩ => show win0_7.index _ (1 : Fin 2) * 64 ≤ (i 1).val ∧ (i 1).val < win0_7.index _ (1 : Fin 2) * 64 + 64; omega

/-- THE ARRAYS after the region: the new embeddings, and their rows normalised. -/
theorem final0_6 (c : Dev nD) : (dat0 V c).arrAt 6 cfg0.N = Gnew0 V c :=
  (dat0 V c).arrAt_eq_of_cover 6 (Gnew0 V c) (fun t _ => flushed0_6_eq V c t) (cover0_6)
theorem final0_7 (c : Dev nD) : (dat0 V c).arrAt 7 cfg0.N = normArr (R := 150000) (Gnew0 V c) :=
  (dat0 V c).arrAt_eq_of_cover 7 (normArr (R := 150000) (Gnew0 V c)) (fun t _ => flushed0_7_eq V c t) (cover0_7)

end Cert.KernelIdeal.ValH

end
-- ==== Proof.KIValue1.lean ====
/-
  What the second layer's pallas_call leaves in its two output arrays, at the ideal values: each grid point writes one block of
  6000 rows, and because every output row of the layer depends only on the same rows of the two tall inputs (and on the
  whole small weights and biases, which every point sees whole), block `t` is rows `6000·t …` of the layer applied to
  the whole arrays.  The 25 blocks tile the 150000 rows, so the arrays end as `newArr` and `normArr (newArr …)` of the
  arrays the region is entered with.
-/
import proofs.«125397_j74723841016248_1_alg».proof.Proof.KIFrame1
import proofs.«125397_j74723841016248_1_alg».proof.Proof.NgcfLayer
import Idealize.ShloMosaic.Lib.Pipeline.Value

set_option maxRecDepth 16384

noncomputable section

namespace Cert.KernelIdeal.ValH

open Cert.KernelIdeal Cert.KernelIdeal.Gen Cert.KernelIdeal.GenH Cert.NgcfLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the tall windows' block row is the point, every other block index is zero. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The new embeddings as one function of the arrays the region is entered with. -/
abbrev Gnew1 (c : Dev nD) : M 150000 64 :=
  newArr (R := 150000) (V c main_v26_0) (V c main_v39) (V c main_v41) (V c main_v43) (V c main_v45) (V c main_v47)

/-- Entry `(p, q)` of the block of new embeddings at point `t` is entry `(6000·t + p, q)` of `Gnew`. -/
theorem blk_new1 (c : Dev nD) (t : Fin cfg1.N) (p : Fin 6000) (q : Fin 64) (p' : Fin 150000) (hp : p'.val = t.val * 6000 + p.val) :
    newArr (R := 6000) (iblk1 V c 0 t) (iblk1 V c 1 t) (iblk1 V c 2 t) (iblk1 V c 3 t) (iblk1 V c 4 t) (iblk1 V c 5 t) (ix2 p q)
      = Gnew1 V c (ix2 p' q) := by
  obtain ⟨e00, e01, e10, e11, e20, e21, e30, e31, e40, e41, e50, e51, e60, e61, e70, e71⟩ := idx_facts1 t
  refine newArr_congr (R := 6000) (R' := 150000) _ _ _ _ _ _ _ _ _ _ _ _ p p' (fun k => ?_) (fun k => ?_) (fun a b => ?_) (fun b => ?_) (fun a b => ?_) (fun b => ?_) q
  · show V c main_v26_0 (((cfg1.win 0).blk t).view.emb (ix2 p k)) = V c main_v26_0 (ix2 p' k)
    refine congrArg _ (funext fun a => Fin.ext ?_)
    match a with
    | ⟨0, _⟩ => show win1_0.index t (0 : Fin 2) * 6000 + 1 * p.val = p'.val; omega
    | ⟨1, _⟩ => show win1_0.index t (1 : Fin 2) * 64 + 1 * k.val = k.val; omega
  · show V c main_v39 (((cfg1.win 1).blk t).view.emb (ix2 p k)) = V c main_v39 (ix2 p' k)
    refine congrArg _ (funext fun a => Fin.ext ?_)
    match a with
    | ⟨0, _⟩ => show win1_1.index t (0 : Fin 2) * 6000 + 1 * p.val = p'.val; omega
    | ⟨1, _⟩ => show win1_1.index t (1 : Fin 2) * 64 + 1 * k.val = k.val; omega
  · show V c main_v41 (((cfg1.win 2).blk t).view.emb (ix2 a b)) = V c main_v41 (ix2 a b)
    refine congrArg _ (funext fun x => Fin.ext ?_)
    match x with
    | ⟨0, _⟩ => show win1_2.index t (0 : Fin 2) * 64 + 1 * a.val = a.val; omega
    | ⟨1, _⟩ => show win1_2.index t (1 : Fin 2) * 64 + 1 * b.val = b.val; omega
  · show V c main_v43 (((cfg1.win 3).blk t).view.emb (ix2 (0 : Fin 1) b)) = V c main_v43 (ix2 (0 : Fin 1) b)
    refine congrArg _ (funext fun x => Fin.ext ?_)
    match x with
    | ⟨0, _⟩ => show win1_3.index t (0 : Fin 2) * 1 + 1 * 0 = 0; omega
    | ⟨1, _⟩ => show win1_3.index t (1 : Fin 2) * 64 + 1 * b.val = b.val; omega
  · show V c main_v45 (((cfg1.win 4).blk t).view.emb (ix2 a b)) = V c main_v45 (ix2 a b)
    refine congrArg _ (funext fun x => Fin.ext ?_)
    match x with
    | ⟨0, _⟩ => show win1_4.index t (0 : Fin 2) * 64 + 1 * a.val = a.val; omega
    | ⟨1, _⟩ => show win1_4.index t (1 : Fin 2) * 64 + 1 * b.val = b.val; omega
  · show V c main_v47 (((cfg1.win 5).blk t).view.emb (ix2 (0 : Fin 1) b)) = V c main_v47 (ix2 (0 : Fin 1) b)
    refine congrArg _ (funext fun x => Fin.ext ?_)
    match x with
    | ⟨0, _⟩ => show win1_5.index t (0 : Fin 2) * 1 + 1 * 0 = 0; omega
    | ⟨1, _⟩ => show win1_5.index t (1 : Fin 2) * 64 + 1 * b.val = b.val; omega

/-- A point of the grid is below 25. -/
theorem t_lt1 (t : Fin cfg1.N) : t.val < 25 := lt_of_lt_of_eq t.isLt N_1

/-- WHAT POINT `t` WRITES BACK to the array of new embeddings is block `t` of `Gnew`. -/
theorem flushed1_6_eq (c : Dev nD) (t : Fin cfg1.N) :
    (dat1 V c).flushed 6 t = ((cfg1.win 6).blk t).view.read (Elt Ideal) (Gnew1 V c) := by
  show (cfg1.win 6).cut (grid1.coords t) ((dat1 V c).after 6 t) = _
  rw [after1_6]
  unfold out1_6
  rw [View.canon_unit_zero hz1]
  simp only [View.ld_unit_zero (S := S6000x64) hz1, View.ld_unit_zero (S := S64x64) hz1, View.ld_unit_zero (S := S1x64) hz1]
  rw [k1_pay1_eq]
  obtain ⟨e00, e01, e10, e11, e20, e21, e30, e31, e40, e41, e50, e51, e60, e61, e70, e71⟩ := idx_facts1 t
  have ht := t_lt1 t
  funext j
  obtain ⟨p, q, rfl⟩ : ∃ (p : Fin 6000) (q : Fin 64), j = ix2 p q := ⟨j 0, j 1, eq_ix2 j⟩
  have hemb : ((cfg1.win 6).blk t).view.emb (ix2 p q) = ix2 (⟨t.val * 6000 + p.val, by have := p.isLt; omega⟩ : Fin 150000) q := by
    funext a; apply Fin.ext
    match a with
    | ⟨0, _⟩ => show win1_6.index t (0 : Fin 2) * 6000 + 1 * p.val = t.val * 6000 + p.val; omega
    | ⟨1, _⟩ => show win1_6.index t (1 : Fin 2) * 64 + 1 * q.val = q.val; omega
  show newArr (R := 6000) (iblk1 V c 0 t) (iblk1 V c 1 t) (iblk1 V c 2 t) (iblk1 V c 3 t) (iblk1 V c 4 t) (iblk1 V c 5 t) (ix2 p q)
    = Gnew1 V c (((cfg1.win 6).blk t).view.emb (ix2 p q))
  rw [hemb]
  exact blk_new1 V c t p q _ rfl

/-- WHAT POINT `t` WRITES BACK to the array of normalised embeddings is block `t` of `normArr Gnew`. -/
theorem flushed1_7_eq (c : Dev nD) (t : Fin cfg1.N) :
    (dat1 V c).flushed 7 t = ((cfg1.win 7).blk t).view.read (Elt Ideal) (normArr (R := 150000) (Gnew1 V c)) := by
  show (cfg1.win 7).cut (grid1.coords t) ((dat1 V c).after 7 t) = _
  rw [after1_7]
  unfold out1_7
  rw [View.canon_unit_zero hz1]
  simp only [View.ld_unit_zero (S := S6000x64) hz1, View.ld_unit_zero (S := S64x64) hz1, View.ld_unit_zero (S := S1x64) hz1]
  rw [k1_pay2_eq]
  obtain ⟨e00, e01, e10, e11, e20, e21, e30, e31, e40, e41, e50, e51, e60, e61, e70, e71⟩ := idx_facts1 t
  have ht := t_lt1 t
  funext j
  obtain ⟨p, q, rfl⟩ : ∃ (p : Fin 6000) (q : Fin 64), j = ix2 p q := ⟨j 0, j 1, eq_ix2 j⟩
  have hemb : ((cfg1.win 7).blk t).view.emb (ix2 p q) = ix2 (⟨t.val * 6000 + p.val, by have := p.isLt; omega⟩ : Fin 150000) q := by
    funext a; apply Fin.ext
    match a with
    | ⟨0, _⟩ => show win1_7.index t (0 : Fin 2) * 6000 + 1 * p.val = t.val * 6000 + p.val; omega
    | ⟨1, _⟩ => show win1_7.index t (1 : Fin 2) * 64 + 1 * q.val = q.val; omega
  show normArr (R := 6000) (newArr (R := 6000) (iblk1 V c 0 t) (iblk1 V c 1 t) (iblk1 V c 2 t) (iblk1 V c 3 t) (iblk1 V c 4 t) (iblk1 V c 5 t)) (ix2 p q)
    = normArr (R := 150000) (Gnew1 V c) (((cfg1.win 7).blk t).view.emb (ix2 p q))
  rw [hemb]
  exact normArr_rows _ _ p _ (fun k => blk_new1 V c t p k _ rfl) q

/-- An index of the array is in point `t`'s block of window 6 iff its row is among the block's 6000 rows. -/
theorem mem_blk1_6 (t : Fin cfg1.N) (i : S150000x64.Idx) :
    i ∈ ((cfg1.win 6).blk t).view.set ↔ ∀ a : Fin 2, win1_6.index t a * S6000x64.size a ≤ (i a).val ∧ (i a).val < win1_6.index t a * S6000x64.size a + S6000x64.size a := by
  show i ∈ ((View.whole main_v48_0).slice (win1_6.rect t)).set ↔ _
  rw [View.set_slice_whole, Rect.mem_set_unit]
  exact Iff.rfl
theorem mem_blk1_7 (t : Fin cfg1.N) (i : S150000x64.Idx) :
    i ∈ ((cfg1.win 7).blk t).view.set ↔ ∀ a : Fin 2, win1_7.index t a * S6000x64.size a ≤ (i a).val ∧ (i a).val < win1_7.index t a * S6000x64.size a + S6000x64.size a := by
  show i ∈ ((View.whole main_v48_1).slice (win1_7.rect t)).set ↔ _
  rw [View.set_slice_whole, Rect.mem_set_unit]
  exact Iff.rfl

/-- The point whose block holds row `r`. -/
def ptOf1 (r : ℕ) (hr : r < 150000) : Fin cfg1.N := ⟨r / 6000, by rw [show cfg1.N = 25 from N_1]; omega⟩

theorem cover1_6 (i : S150000x64.Idx) : ∃ t : Fin cfg1.N, (cfg1.win 6).flush t = true ∧ i ∈ ((cfg1.win 6).blk t).view.set := by
  have hi0 : (i 0).val < 150000 := (i 0).isLt
  have hi1 : (i 1).val < 64 := (i 1).isLt
  refine ⟨ptOf1 (i 0).val hi0, flush1_6 _, ?_⟩
  obtain ⟨e00, e01, e10, e11, e20, e21, e30, e31, e40, e41, e50, e51, e60, e61, e70, e71⟩ := idx_facts1 (ptOf1 (i 0).val hi0)
  have hv : (ptOf1 (i 0).val hi0).val = (i 0).val / 6000 := rfl
  rw [mem_blk1_6]
  intro a
  match a with
  | ⟨0, _⟩ => show win1_6.index _ (0 : Fin 2) * 6000 ≤ (i 0).val ∧ (i 0).val < win1_6.index _ (0 : Fin 2) * 6000 + 6000; omega
  | ⟨1, _⟩ => show win1_6.index _ (1 : Fin 2) * 64 ≤ (i 1).val ∧ (i 1).val < win1_6.index _ (1 : Fin 2) * 64 + 64; omega

theorem cover1_7 (i : S150000x64.Idx) : ∃ t : Fin cfg1.N, (cfg1.win 7).flush t = true ∧ i ∈ ((cfg1.win 7).blk t).view.set := by
  have hi0 : (i 0).val < 150000 := (i 0).isLt
  have hi1 : (i 1).val < 64 := (i 1).isLt
  refine ⟨ptOf1 (i 0).val hi0, flush1_7 _, ?_⟩
  obtain ⟨e00, e01, e10, e11, e20, e21, e30, e31, e40, e41, e50, e51, e60, e61, e70, e71⟩ := idx_facts1 (ptOf1 (i 0).val hi0)
  have hv : (ptOf1 (i 0).val hi0).val = (i 0).val / 6000 := rfl
  rw [mem_blk1_7]
  intro a
  match a with
  | ⟨0, _⟩ => show win1_7.index _ (0 : Fin 2) * 6000 ≤ (i 0).val ∧ (i 0).val < win1_7.index _ (0 : Fin 2) * 6000 + 6000; omega
  | ⟨1, _⟩ => show win1_7.index _ (1 : Fin 2) * 64 ≤ (i 1).val ∧ (i 1).val < win1_7.index _ (1 : Fin 2) * 64 + 64; omega

/-- THE ARRAYS after the region: the new embeddings, and their rows normalised. -/
theorem final1_6 (c : Dev nD) : (dat1 V c).arrAt 6 cfg1.N = Gnew1 V c :=
  (dat1 V c).arrAt_eq_of_cover 6 (Gnew1 V c) (fun t _ => flushed1_6_eq V c t) (cover1_6)
theorem final1_7 (c : Dev nD) : (dat1 V c).arrAt 7 cfg1.N = normArr (R := 150000) (Gnew1 V c) :=
  (dat1 V c).arrAt_eq_of_cover 7 (normArr (R := 150000) (Gnew1 V c)) (fun t _ => flushed1_7_eq V c t) (cover1_7)

end Cert.KernelIdeal.ValH

end
-- ==== Proof.KIValue2.lean ====
/-
  What the third layer's pallas_call leaves in its two output arrays, at the ideal values: each grid point writes one block of
  6000 rows, and because every output row of the layer depends only on the same rows of the two tall inputs (and on the
  whole small weights and biases, which every point sees whole), block `t` is rows `6000·t …` of the layer applied to
  the whole arrays.  The 25 blocks tile the 150000 rows, so the arrays end as `newArr` and `normArr (newArr …)` of the
  arrays the region is entered with.
-/
import proofs.«125397_j74723841016248_1_alg».proof.Proof.KIFrame2
import proofs.«125397_j74723841016248_1_alg».proof.Proof.NgcfLayer
import Idealize.ShloMosaic.Lib.Pipeline.Value

set_option maxRecDepth 16384

noncomputable section

namespace Cert.KernelIdeal.ValH

open Cert.KernelIdeal Cert.KernelIdeal.Gen Cert.KernelIdeal.GenH Cert.NgcfLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the tall windows' block row is the point, every other block index is zero. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- The new embeddings as one function of the arrays the region is entered with. -/
abbrev Gnew2 (c : Dev nD) : M 150000 64 :=
  newArr (R := 150000) (V c main_v48_0) (V c main_v61) (V c main_v63) (V c main_v65) (V c main_v67) (V c main_v69)

/-- Entry `(p, q)` of the block of new embeddings at point `t` is entry `(6000·t + p, q)` of `Gnew`. -/
theorem blk_new2 (c : Dev nD) (t : Fin cfg2.N) (p : Fin 6000) (q : Fin 64) (p' : Fin 150000) (hp : p'.val = t.val * 6000 + p.val) :
    newArr (R := 6000) (iblk2 V c 0 t) (iblk2 V c 1 t) (iblk2 V c 2 t) (iblk2 V c 3 t) (iblk2 V c 4 t) (iblk2 V c 5 t) (ix2 p q)
      = Gnew2 V c (ix2 p' q) := by
  obtain ⟨e00, e01, e10, e11, e20, e21, e30, e31, e40, e41, e50, e51, e60, e61, e70, e71⟩ := idx_facts2 t
  refine newArr_congr (R := 6000) (R' := 150000) _ _ _ _ _ _ _ _ _ _ _ _ p p' (fun k => ?_) (fun k => ?_) (fun a b => ?_) (fun b => ?_) (fun a b => ?_) (fun b => ?_) q
  · show V c main_v48_0 (((cfg2.win 0).blk t).view.emb (ix2 p k)) = V c main_v48_0 (ix2 p' k)
    refine congrArg _ (funext fun a => Fin.ext ?_)
    match a with
    | ⟨0, _⟩ => show win2_0.index t (0 : Fin 2) * 6000 + 1 * p.val = p'.val; omega
    | ⟨1, _⟩ => show win2_0.index t (1 : Fin 2) * 64 + 1 * k.val = k.val; omega
  · show V c main_v61 (((cfg2.win 1).blk t).view.emb (ix2 p k)) = V c main_v61 (ix2 p' k)
    refine congrArg _ (funext fun a => Fin.ext ?_)
    match a with
    | ⟨0, _⟩ => show win2_1.index t (0 : Fin 2) * 6000 + 1 * p.val = p'.val; omega
    | ⟨1, _⟩ => show win2_1.index t (1 : Fin 2) * 64 + 1 * k.val = k.val; omega
  · show V c main_v63 (((cfg2.win 2).blk t).view.emb (ix2 a b)) = V c main_v63 (ix2 a b)
    refine congrArg _ (funext fun x => Fin.ext ?_)
    match x with
    | ⟨0, _⟩ => show win2_2.index t (0 : Fin 2) * 64 + 1 * a.val = a.val; omega
    | ⟨1, _⟩ => show win2_2.index t (1 : Fin 2) * 64 + 1 * b.val = b.val; omega
  · show V c main_v65 (((cfg2.win 3).blk t).view.emb (ix2 (0 : Fin 1) b)) = V c main_v65 (ix2 (0 : Fin 1) b)
    refine congrArg _ (funext fun x => Fin.ext ?_)
    match x with
    | ⟨0, _⟩ => show win2_3.index t (0 : Fin 2) * 1 + 1 * 0 = 0; omega
    | ⟨1, _⟩ => show win2_3.index t (1 : Fin 2) * 64 + 1 * b.val = b.val; omega
  · show V c main_v67 (((cfg2.win 4).blk t).view.emb (ix2 a b)) = V c main_v67 (ix2 a b)
    refine congrArg _ (funext fun x => Fin.ext ?_)
    match x with
    | ⟨0, _⟩ => show win2_4.index t (0 : Fin 2) * 64 + 1 * a.val = a.val; omega
    | ⟨1, _⟩ => show win2_4.index t (1 : Fin 2) * 64 + 1 * b.val = b.val; omega
  · show V c main_v69 (((cfg2.win 5).blk t).view.emb (ix2 (0 : Fin 1) b)) = V c main_v69 (ix2 (0 : Fin 1) b)
    refine congrArg _ (funext fun x => Fin.ext ?_)
    match x with
    | ⟨0, _⟩ => show win2_5.index t (0 : Fin 2) * 1 + 1 * 0 = 0; omega
    | ⟨1, _⟩ => show win2_5.index t (1 : Fin 2) * 64 + 1 * b.val = b.val; omega

/-- A point of the grid is below 25. -/
theorem t_lt2 (t : Fin cfg2.N) : t.val < 25 := lt_of_lt_of_eq t.isLt N_2

/-- WHAT POINT `t` WRITES BACK to the array of new embeddings is block `t` of `Gnew`. -/
theorem flushed2_6_eq (c : Dev nD) (t : Fin cfg2.N) :
    (dat2 V c).flushed 6 t = ((cfg2.win 6).blk t).view.read (Elt Ideal) (Gnew2 V c) := by
  show (cfg2.win 6).cut (grid2.coords t) ((dat2 V c).after 6 t) = _
  rw [after2_6]
  unfold out2_6
  rw [View.canon_unit_zero hz2]
  simp only [View.ld_unit_zero (S := S6000x64) hz2, View.ld_unit_zero (S := S64x64) hz2, View.ld_unit_zero (S := S1x64) hz2]
  rw [k2_pay1_eq]
  obtain ⟨e00, e01, e10, e11, e20, e21, e30, e31, e40, e41, e50, e51, e60, e61, e70, e71⟩ := idx_facts2 t
  have ht := t_lt2 t
  funext j
  obtain ⟨p, q, rfl⟩ : ∃ (p : Fin 6000) (q : Fin 64), j = ix2 p q := ⟨j 0, j 1, eq_ix2 j⟩
  have hemb : ((cfg2.win 6).blk t).view.emb (ix2 p q) = ix2 (⟨t.val * 6000 + p.val, by have := p.isLt; omega⟩ : Fin 150000) q := by
    funext a; apply Fin.ext
    match a with
    | ⟨0, _⟩ => show win2_6.index t (0 : Fin 2) * 6000 + 1 * p.val = t.val * 6000 + p.val; omega
    | ⟨1, _⟩ => show win2_6.index t (1 : Fin 2) * 64 + 1 * q.val = q.val; omega
  show newArr (R := 6000) (iblk2 V c 0 t) (iblk2 V c 1 t) (iblk2 V c 2 t) (iblk2 V c 3 t) (iblk2 V c 4 t) (iblk2 V c 5 t) (ix2 p q)
    = Gnew2 V c (((cfg2.win 6).blk t).view.emb (ix2 p q))
  rw [hemb]
  exact blk_new2 V c t p q _ rfl

/-- WHAT POINT `t` WRITES BACK to the array of normalised embeddings is block `t` of `normArr Gnew`. -/
theorem flushed2_7_eq (c : Dev nD) (t : Fin cfg2.N) :
    (dat2 V c).flushed 7 t = ((cfg2.win 7).blk t).view.read (Elt Ideal) (normArr (R := 150000) (Gnew2 V c)) := by
  show (cfg2.win 7).cut (grid2.coords t) ((dat2 V c).after 7 t) = _
  rw [after2_7]
  unfold out2_7
  rw [View.canon_unit_zero hz2]
  simp only [View.ld_unit_zero (S := S6000x64) hz2, View.ld_unit_zero (S := S64x64) hz2, View.ld_unit_zero (S := S1x64) hz2]
  rw [k2_pay2_eq]
  obtain ⟨e00, e01, e10, e11, e20, e21, e30, e31, e40, e41, e50, e51, e60, e61, e70, e71⟩ := idx_facts2 t
  have ht := t_lt2 t
  funext j
  obtain ⟨p, q, rfl⟩ : ∃ (p : Fin 6000) (q : Fin 64), j = ix2 p q := ⟨j 0, j 1, eq_ix2 j⟩
  have hemb : ((cfg2.win 7).blk t).view.emb (ix2 p q) = ix2 (⟨t.val * 6000 + p.val, by have := p.isLt; omega⟩ : Fin 150000) q := by
    funext a; apply Fin.ext
    match a with
    | ⟨0, _⟩ => show win2_7.index t (0 : Fin 2) * 6000 + 1 * p.val = t.val * 6000 + p.val; omega
    | ⟨1, _⟩ => show win2_7.index t (1 : Fin 2) * 64 + 1 * q.val = q.val; omega
  show normArr (R := 6000) (newArr (R := 6000) (iblk2 V c 0 t) (iblk2 V c 1 t) (iblk2 V c 2 t) (iblk2 V c 3 t) (iblk2 V c 4 t) (iblk2 V c 5 t)) (ix2 p q)
    = normArr (R := 150000) (Gnew2 V c) (((cfg2.win 7).blk t).view.emb (ix2 p q))
  rw [hemb]
  exact normArr_rows _ _ p _ (fun k => blk_new2 V c t p k _ rfl) q

/-- An index of the array is in point `t`'s block of window 6 iff its row is among the block's 6000 rows. -/
theorem mem_blk2_6 (t : Fin cfg2.N) (i : S150000x64.Idx) :
    i ∈ ((cfg2.win 6).blk t).view.set ↔ ∀ a : Fin 2, win2_6.index t a * S6000x64.size a ≤ (i a).val ∧ (i a).val < win2_6.index t a * S6000x64.size a + S6000x64.size a := by
  show i ∈ ((View.whole main_v70_0).slice (win2_6.rect t)).set ↔ _
  rw [View.set_slice_whole, Rect.mem_set_unit]
  exact Iff.rfl
theorem mem_blk2_7 (t : Fin cfg2.N) (i : S150000x64.Idx) :
    i ∈ ((cfg2.win 7).blk t).view.set ↔ ∀ a : Fin 2, win2_7.index t a * S6000x64.size a ≤ (i a).val ∧ (i a).val < win2_7.index t a * S6000x64.size a + S6000x64.size a := by
  show i ∈ ((View.whole main_v70_1).slice (win2_7.rect t)).set ↔ _
  rw [View.set_slice_whole, Rect.mem_set_unit]
  exact Iff.rfl

/-- The point whose block holds row `r`. -/
def ptOf2 (r : ℕ) (hr : r < 150000) : Fin cfg2.N := ⟨r / 6000, by rw [show cfg2.N = 25 from N_2]; omega⟩

theorem cover2_6 (i : S150000x64.Idx) : ∃ t : Fin cfg2.N, (cfg2.win 6).flush t = true ∧ i ∈ ((cfg2.win 6).blk t).view.set := by
  have hi0 : (i 0).val < 150000 := (i 0).isLt
  have hi1 : (i 1).val < 64 := (i 1).isLt
  refine ⟨ptOf2 (i 0).val hi0, flush2_6 _, ?_⟩
  obtain ⟨e00, e01, e10, e11, e20, e21, e30, e31, e40, e41, e50, e51, e60, e61, e70, e71⟩ := idx_facts2 (ptOf2 (i 0).val hi0)
  have hv : (ptOf2 (i 0).val hi0).val = (i 0).val / 6000 := rfl
  rw [mem_blk2_6]
  intro a
  match a with
  | ⟨0, _⟩ => show win2_6.index _ (0 : Fin 2) * 6000 ≤ (i 0).val ∧ (i 0).val < win2_6.index _ (0 : Fin 2) * 6000 + 6000; omega
  | ⟨1, _⟩ => show win2_6.index _ (1 : Fin 2) * 64 ≤ (i 1).val ∧ (i 1).val < win2_6.index _ (1 : Fin 2) * 64 + 64; omega

theorem cover2_7 (i : S150000x64.Idx) : ∃ t : Fin cfg2.N, (cfg2.win 7).flush t = true ∧ i ∈ ((cfg2.win 7).blk t).view.set := by
  have hi0 : (i 0).val < 150000 := (i 0).isLt
  have hi1 : (i 1).val < 64 := (i 1).isLt
  refine ⟨ptOf2 (i 0).val hi0, flush2_7 _, ?_⟩
  obtain ⟨e00, e01, e10, e11, e20, e21, e30, e31, e40, e41, e50, e51, e60, e61, e70, e71⟩ := idx_facts2 (ptOf2 (i 0).val hi0)
  have hv : (ptOf2 (i 0).val hi0).val = (i 0).val / 6000 := rfl
  rw [mem_blk2_7]
  intro a
  match a with
  | ⟨0, _⟩ => show win2_7.index _ (0 : Fin 2) * 6000 ≤ (i 0).val ∧ (i 0).val < win2_7.index _ (0 : Fin 2) * 6000 + 6000; omega
  | ⟨1, _⟩ => show win2_7.index _ (1 : Fin 2) * 64 ≤ (i 1).val ∧ (i 1).val < win2_7.index _ (1 : Fin 2) * 64 + 64; omega

/-- THE ARRAYS after the region: the new embeddings, and their rows normalised. -/
theorem final2_6 (c : Dev nD) : (dat2 V c).arrAt 6 cfg2.N = Gnew2 V c :=
  (dat2 V c).arrAt_eq_of_cover 6 (Gnew2 V c) (fun t _ => flushed2_6_eq V c t) (cover2_6)
theorem final2_7 (c : Dev nD) : (dat2 V c).arrAt 7 cfg2.N = normArr (R := 150000) (Gnew2 V c) :=
  (dat2 V c).arrAt_eq_of_cover 7 (normArr (R := 150000) (Gnew2 V c)) (fun t _ => flushed2_7_eq V c t) (cover2_7)

end Cert.KernelIdeal.ValH

end
-- ==== Proof.NgcfLoss.lean ====
/-
  The loss of the two programs as one function of three embedding blocks, at the ideal values (a float is an
  extended real, every operation exact).

  For a row r of three [R, 256] blocks u, p, n the loss term is  -softplus (-(⟨u r, p r⟩ - ⟨u r, n r⟩))  with
  softplus x = max x 0 + log1p (exp (-|x|)) and |x| = max x (-x): the logarithm of the sigmoid of the difference of
  the two inner products. The kernel computes it row by row on the vector unit; the reference computes it on whole
  arrays on the host, then both programs take the mean over the rows and negate it.

  The two spellings differ in three ways, none of which matters on the extended reals:
  * the kernel negates by subtracting from zero (0 - y = -y), and both programs subtract or add a zero they then
    test (y - 0 = y, y + 0 = y);
  * both guard softplus by an "is not a number" test — the comparison of y - 0 with itself by "not equal"; on a linear
    order nothing differs from itself, so the mask is zero everywhere and the guarded branch is never taken;
  * the vector unit's row sum starts from nothing while the host's starts from the initial value zero, and the
    kernel program sums a column [R, 1] over both axes while the reference sums a vector [R] over its one axis:
    the same finite sum, re-indexed along (r, 0) ↦ r.
-/
import proofs.«125397_j74723841016248_1_alg».proof.Proof.Gen.KernelIdeal.Skeleton
import proofs.«125397_j74723841016248_1_alg».proof.ReferenceIdeal
import proofs.«125397_j74723841016248_1_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

namespace Cert.NgcfLoss

open Idealize.ShloMosaic Idealize.ShloMosaic.ValueIdx
open Cert.Lib

/-! ## The loss term of one row -/

/-- softplus on the extended reals, in the spelling both programs use: max x 0 + log1p (exp (-|x|)). -/
def softplus (x : EReal) : EReal := max x 0 + Ideal.log1p (Ideal.exp (-(max x (-x))))

/-- The loss term of one row: minus softplus of minus the difference of the two inner products. -/
def lossRow (u p n : Fin 256 → EReal) : EReal :=
  -(softplus (-((∑ k, u k * p k) - ∑ k, u k * n k)))

/-- The loss terms of the rows of three [R, 256] blocks, as a column [R, 1]. -/
def lossArr {R : ℕ} (bu bp bn : (⟨2, ![R, 256]⟩ : Shape).Idx → EReal) : (⟨2, ![R, 1]⟩ : Shape).Idx → EReal :=
  fun i => lossRow (fun k => bu (ix2 (i 0) k)) (fun k => bp (ix2 (i 0) k)) (fun k => bn (ix2 (i 0) k))

theorem lossArr_apply {R : ℕ} (bu bp bn : (⟨2, ![R, 256]⟩ : Shape).Idx → EReal) (p : Fin R) (u : Fin 1) :
    lossArr bu bp bn (ix2 p u)
      = lossRow (fun k => bu (ix2 p k)) (fun k => bp (ix2 p k)) (fun k => bn (ix2 p k)) := rfl

/-! ## The two spellings of the term on the two row sums -/

/-- Nothing differs from itself: the ordered "not equal" test of a value against itself is the zero mask. -/
theorem cmp_one_self (d : EReal) : Ideal.cmp .one d d = 0#1 := by simp [Ideal.cmp]

/-- … and so is the unordered one. -/
theorem cmp_une_self (d : EReal) : Ideal.cmp .une d d = 0#1 := by simp [Ideal.cmp]

/-- The kernel's chain on the two row sums `a`, `b`, with `z` the zero constant it subtracts from and tests against. -/
theorem ker_scalar (z a b : EReal) (hz : z = 0) :
    z - Scalar.select (Ideal.cmp .one (z - (a - b) - z) (z - (a - b) - z)) (z - (a - b) + z)
          (max (z - (a - b)) z + Ideal.log1p (Ideal.exp (z - max (z - (a - b) - z) (-(z - (a - b) - z)))))
      = -(softplus (-(a - b))) := by
  subst hz
  rw [cmp_one_self, select_zero, zero_sub, zero_sub, zero_sub, sub_zero]
  rfl

/-- The reference's chain on the two row sums. -/
theorem ref_scalar (z a b : EReal) (hz : z = 0) :
    -(Scalar.select (Ideal.cmp .une (-(a - b) - z) (-(a - b) - z)) (-(a - b) + z)
          (max (-(a - b)) z + Ideal.log1p (Ideal.exp (-(max (-(a - b) - z) (-(-(a - b) - z)))))))
      = -(softplus (-(a - b))) := by
  subst hz
  rw [cmp_une_self, select_zero, sub_zero]
  rfl

/-! ## The kernel's payload -/

section Kernel
open Cert.KernelIdeal Cert.KernelIdeal.Gen

/-- One row sum of the payload: the product of two blocks, summed along the rows on the vector unit from the zero
    accumulator and kept as a column, read at (p, c), is the inner product of the two rows. -/
theorem ker_rowDot (x y : FVec Ideal S2048x256 .f32) (p : Fin 2048) (c : Fin 1) :
    shapeCast S2048x1
        (multiReduction .add [1] S2048 (mulf x y) 0x00000000#32 reduces_S2048x256_S2048 (.inl rfl) rfl)
        shapeCasts_S2048_S2048x1 (ix2 p c)
      = ∑ k : Fin 256, x (ix2 p k) * y (ix2 p k) :=
  (RowOps.vec_col _ shapeCasts_S2048_S2048x1 p c).trans
    (RowOps.vec_rowSum (mulf x y) reduces_S2048x256_S2048 (.inl rfl) rfl p)

/-- The payload at (p, c) is the loss term of row p of the three loaded blocks. -/
theorem k3_pay1_apply (v0 v2 v4 : Vec Ideal S2048x256 .f32) (p : Fin 2048) (c : Fin 1) :
    k3_pay1 (F := Ideal) v0 v2 v4 (ix2 p c)
      = lossRow (fun k => v0 (ix2 p k)) (fun k => v2 (ix2 p k)) (fun k => v4 (ix2 p k)) := by
  unfold k3_pay1
  simp only [shapeCast_self]
  refine (ker_scalar (Ideal.ofBits .f32 0x00000000#32) _ _ Ideal.ofBits_zero_f32).trans ?_
  rw [ker_rowDot, ker_rowDot]
  rfl

theorem k3_pay1_eq (v0 v2 v4 : Vec Ideal S2048x256 .f32) :
    k3_pay1 (F := Ideal) v0 v2 v4 = lossArr (R := 2048) v0 v2 v4 := by
  funext i
  obtain ⟨p, c, rfl⟩ : ∃ (p : Fin 2048) (c : Fin 1), i = ix2 p c := ⟨i 0, i 1, eq_ix2 i⟩
  exact k3_pay1_apply v0 v2 v4 p c

end Kernel

/-! ## A row of the loss depends on that row of the blocks only -/

/-- Two triples of blocks, of any heights, that agree on a row of each give the same loss term there. -/
theorem lossArr_rows {R R' : ℕ} (a b c : (⟨2, ![R, 256]⟩ : Shape).Idx → EReal)
    (A B C : (⟨2, ![R', 256]⟩ : Shape).Idx → EReal) (p : Fin R) (p' : Fin R')
    (ha : ∀ k : Fin 256, a (ix2 p k) = A (ix2 p' k)) (hb : ∀ k : Fin 256, b (ix2 p k) = B (ix2 p' k))
    (hc : ∀ k : Fin 256, c (ix2 p k) = C (ix2 p' k)) (u : Fin 1) :
    lossArr a b c (ix2 p u) = lossArr A B C (ix2 p' u) := by
  rw [lossArr_apply, lossArr_apply, funext ha, funext hb, funext hc]

/-! ## Sums over a vector's and a column's index set -/

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- A sum over the index set of a column [n, 1] is the sum over its rows of the entry (r, 0). -/
theorem sum_col {M : Type*} [AddCommMonoid M] {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- The host's sum along the rows of a matrix, at row `c`: the initial value plus the sum of the row's entries. -/
theorem host_rowSum2 {n m : ℕ} (x : FVec Ideal ⟨2, ![n, m]⟩ .f32) (init : (⟨0, ![]⟩ : Shape).Idx → Ideal .f32)
    (h' : (⟨2, ![n, m]⟩ : Shape).ReducesTo [1] ⟨1, ![n]⟩) (h : (⟨2, ![n, m]⟩ : Shape).Reduces [1] ⟨1, ![n]⟩)
    (hu : 0 < (⟨0, ![]⟩ : Shape).numel) (c : Fin n) :
    Host.reduceAdd x init h' hu (ix1 c) = init (Shape.Idx.first hu) + ∑ k : Fin m, x (ix2 c k) := by
  simp only [Host.reduceAdd, Ideal.hostReduceAdd_def]
  rw [Ideal.hostReduceAdd_single h' h]
  exact congrArg (_ + ·) (Finset.sum_congr rfl fun k _ => congrArg x (RowOps.lift_ix1 h c k))

/-- The host's sum of a whole array to a scalar: the initial value plus the sum over every index. -/
theorem host_sumAll {s : Shape} {axes : List (Fin s.rank)} (x : FVec Ideal s .f32)
    (init : (⟨0, ![]⟩ : Shape).Idx → Ideal .f32) (h' : s.ReducesTo axes ⟨0, ![]⟩)
    (hu : 0 < (⟨0, ![]⟩ : Shape).numel) (j : (⟨0, ![]⟩ : Shape).Idx) :
    Host.reduceAdd x init h' hu j = init (Shape.Idx.first hu) + ∑ i : s.Idx, x i := by
  simp only [Host.reduceAdd, Ideal.hostReduceAdd_def]
  exact Ideal.hostReduceAdd_total h' (fun b => b.elim0) x _ j

/-! ## The two programs' tails -/

section Tail
variable [hR : Cert.ReferenceIdeal.Facts]

/-- The kernel program's host operations after its last region, on the region's [8192, 1] result: the sum over both
    axes from the zero constant, divided by the constant 8192, negated. Its two side conditions (the shape relation of the
    reduction, a rank-zero array is not empty) are the theorems that prove those two stated facts of the program. -/
def kerTail (v95 : FVec Ideal Cert.KernelIdeal.S8192x1 .f32) : FVec Ideal Cert.KernelIdeal.S_ .f32 :=
  have cst_13 : FVec Ideal Cert.KernelIdeal.S_ .f32 := constant (F := Ideal) Cert.KernelIdeal.S_ .f32 0x00000000#32
  have v96 : FVec Ideal Cert.KernelIdeal.S_ .f32 :=
    Host.reduceAdd (F := Ideal) v95 cst_13 Cert.KernelIdeal.Gen.reducesTo_S8192x1_S_d0_1 Cert.KernelIdeal.Gen.h_S_
  have cst_14 : FVec Ideal Cert.KernelIdeal.S_ .f32 := constant (F := Ideal) Cert.KernelIdeal.S_ .f32 0x46000000#32
  have v97 : FVec Ideal Cert.KernelIdeal.S_ .f32 := Host.divf (F := Ideal) v96 cst_14
  Host.negf (F := Ideal) v97

open Cert.ReferenceIdeal Cert.ReferenceIdeal.Facts₀ in
/-- The reference's per-row part on the three gathered [8192, 256] arrays: the two products, their sums across
    dimension 1 from zero constants, the difference, and the logarithm of the sigmoid of it as the outlined functions
    spell it (negate, softplus, negate). -/
def refRows (bu bp bn : FVec Ideal Cert.ReferenceIdeal.S8192x256 .f32) : FVec Ideal Cert.ReferenceIdeal.S8192 .f32 :=
  have v151 : FVec Ideal S8192x256 .f32 := mulf bu bp
  have cst_22 : FVec Ideal S_ .f32 := constant (F := Ideal) S_ .f32 0x00000000#32
  have v152 : FVec Ideal S8192 .f32 := Host.reduceAdd (F := Ideal) v151 cst_22 reducesTo_S8192x256_S8192_d1 h_S_
  have v153 : FVec Ideal S8192x256 .f32 := mulf bu bn
  have cst_23 : FVec Ideal S_ .f32 := constant (F := Ideal) S_ .f32 0x00000000#32
  have v154 : FVec Ideal S8192 .f32 := Host.reduceAdd (F := Ideal) v153 cst_23 reducesTo_S8192x256_S8192_d1 h_S_
  have v155 : FVec Ideal S8192 .f32 := subf v152 v154
  -- @log_sigmoid
  have l0 : FVec Ideal S8192 .f32 := Host.negf (F := Ideal) v155
  -- @softplus
  have cst : FVec Ideal S_ .f32 := constant (F := Ideal) S_ .f32 0x00000000#32
  have s0 : FVec Ideal S8192 .f32 := broadcastInDim S8192 ![] bcast_S_S8192 cst
  have s1 : FVec Ideal S8192 .f32 := maximumf l0 s0
  have s2 : FVec Ideal S8192 .f32 := broadcastInDim S8192 ![] bcast_S_S8192 cst
  have s3 : FVec Ideal S8192 .f32 := subf l0 s2
  have s4 : IVec S8192 1 := cmpf .une s3 s3
  have s5 : FVec Ideal S8192 .f32 := broadcastInDim S8192 ![] bcast_S_S8192 cst
  have s6 : FVec Ideal S8192 .f32 := addf l0 s5
  have s7 : FVec Ideal S8192 .f32 := Host.absf (F := Ideal) s3
  have s8 : FVec Ideal S8192 .f32 := Host.negf (F := Ideal) s7
  have s9 : FVec Ideal S8192 .f32 := Host.exp (F := Ideal) s8
  have s10 : FVec Ideal S8192 .f32 := Host.log1p (F := Ideal) s9
  have s11 : FVec Ideal S8192 .f32 := addf s1 s10
  have s12 : FVec Ideal S8192 .f32 := select s4 s6 s11
  -- back in @log_sigmoid
  Host.negf (F := Ideal) s12

open Cert.ReferenceIdeal Cert.ReferenceIdeal.Facts₀ in
/-- The reference's loss on the three gathered arrays: the per-row part, summed across dimension 0 from the zero
    constant, divided by the constant 8192, negated. -/
def refTail (bu bp bn : FVec Ideal Cert.ReferenceIdeal.S8192x256 .f32) : FVec Ideal Cert.ReferenceIdeal.S_ .f32 :=
  have v156 : FVec Ideal S8192 .f32 := refRows bu bp bn
  have cst_24 : FVec Ideal S_ .f32 := constant (F := Ideal) S_ .f32 0x00000000#32
  have v157 : FVec Ideal S_ .f32 := Host.reduceAdd (F := Ideal) v156 cst_24 reducesTo_S8192_S_d0 h_S_
  have cst_25 : FVec Ideal S_ .f32 := constant (F := Ideal) S_ .f32 0x46000000#32
  have v158 : FVec Ideal S_ .f32 := Host.divf (F := Ideal) v157 cst_25
  Host.negf (F := Ideal) v158

/-- The reference's per-row part at row `a` is the loss term of row `a` of the three arrays. -/
theorem refRows_apply (bu bp bn : FVec Ideal Cert.ReferenceIdeal.S8192x256 .f32) (a : Fin 8192) :
    refRows bu bp bn (ix1 a)
      = lossRow (fun k => bu (ix2 a k)) (fun k => bp (ix2 a k)) (fun k => bn (ix2 a k)) := by
  unfold refRows
  dsimp only
  refine (ref_scalar (Ideal.ofBits .f32 0x00000000#32) _ _ Ideal.ofBits_zero_f32).trans ?_
  rw [host_rowSum2 _ _ _ (by decide) _ a, host_rowSum2 _ _ _ (by decide) _ a]
  show -(softplus (-((Ideal.ofBits .f32 0x00000000#32 + ∑ k : Fin 256, bu (ix2 a k) * bp (ix2 a k))
      - (Ideal.ofBits .f32 0x00000000#32 + ∑ k : Fin 256, bu (ix2 a k) * bn (ix2 a k))))) = _
  rw [Ideal.ofBits_zero_f32, zero_add, zero_add]
  rfl

end Tail

section TailEq
variable [hR : Cert.ReferenceIdeal.Facts]

/-- The reference's sum of its per-row part over its one axis is the kernel program's sum of the column of loss terms
    over both axes: the initial values are the same zero, and the two index sets correspond along r ↦ (r, 0). -/
theorem sum_refRows_eq (bu bp bn : FVec Ideal Cert.ReferenceIdeal.S8192x256 .f32)
    (j : (⟨0, ![]⟩ : Shape).Idx) :
    Host.reduceAdd (F := Ideal) (refRows bu bp bn) (constant (F := Ideal) Cert.ReferenceIdeal.S_ .f32 0x00000000#32)
        Cert.ReferenceIdeal.Facts₀.reducesTo_S8192_S_d0 Cert.ReferenceIdeal.Facts₀.h_S_ j
      = Host.reduceAdd (F := Ideal) (lossArr (R := 8192) bu bp bn)
          (constant (F := Ideal) Cert.KernelIdeal.S_ .f32 0x00000000#32)
          Cert.KernelIdeal.Gen.reducesTo_S8192x1_S_d0_1 Cert.KernelIdeal.Gen.h_S_ j := by
  rw [host_sumAll, host_sumAll, sum_idx1, sum_col]
  exact congrArg (_ + ·) (Finset.sum_congr rfl fun a _ =>
    (refRows_apply bu bp bn a).trans (lossArr_apply bu bp bn a 0).symm)

/-- The reference's loss on three [8192, 256] arrays is the kernel program's tail on the column of their rows' loss terms. -/
theorem tail_eq (bu bp bn : FVec Ideal Cert.ReferenceIdeal.S8192x256 .f32) :
    refTail bu bp bn = kerTail (lossArr (R := 8192) bu bp bn) := by
  funext j
  unfold refTail kerTail
  dsimp only
  show -(Ideal.div (Host.reduceAdd (F := Ideal) (refRows bu bp bn) _ _ _ j) _)
      = -(Ideal.div (Host.reduceAdd (F := Ideal) (lossArr (R := 8192) bu bp bn) _ _ _ j) _)
  rw [sum_refRows_eq]

end TailEq

end Cert.NgcfLoss

end
-- ==== Proof.KIValue3.lean ====
/-
  What the last pallas_call leaves in its output array, at the ideal values: each of the 4 grid points writes one block
  of 2048 rows of the per-example loss, each row a function of the same row of the three gathered tables, so the array
  ends as the loss of the whole tables, row by row.
-/
import proofs.«125397_j74723841016248_1_alg».proof.Proof.KIFrame3
import proofs.«125397_j74723841016248_1_alg».proof.Proof.NgcfLoss
import Idealize.ShloMosaic.Lib.Pipeline.Value

set_option maxRecDepth 16384

noncomputable section

namespace Cert.KernelIdeal.ValH

open Cert.KernelIdeal Cert.KernelIdeal.Gen Cert.KernelIdeal.GenH Cert.NgcfLoss
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: every window's block row is the point, its block column zero. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- The per-example loss as one function of the three gathered tables the region is entered with. -/
abbrev Gloss (c : Dev nD) : (⟨2, ![8192, 1]⟩ : Shape).Idx → EReal :=
  lossArr (R := 8192) (V c main_v80) (V c main_v87) (V c main_v94)

theorem t_lt3 (t : Fin cfg3.N) : t.val < 4 := lt_of_lt_of_eq t.isLt N_3

/-- Row `p` of the block of losses at point `t` is row `2048·t + p` of `Gloss`. -/
theorem blk_loss (c : Dev nD) (t : Fin cfg3.N) (p : Fin 2048) (u : Fin 1) (p' : Fin 8192) (hp : p'.val = t.val * 2048 + p.val) :
    lossArr (R := 2048) (iblk3 V c 0 t) (iblk3 V c 1 t) (iblk3 V c 2 t) (ix2 p u) = Gloss V c (ix2 p' u) := by
  obtain ⟨e00, e01, e10, e11, e20, e21, e30, e31⟩ := idx_facts3 t
  refine lossArr_rows (R := 2048) (R' := 8192) _ _ _ _ _ _ p p' (fun k => ?_) (fun k => ?_) (fun k => ?_) u
  · show V c main_v80 (((cfg3.win 0).blk t).view.emb (ix2 p k)) = V c main_v80 (ix2 p' k)
    refine congrArg _ (funext fun a => Fin.ext ?_)
    match a with
    | ⟨0, _⟩ => show win3_0.index t (0 : Fin 2) * 2048 + 1 * p.val = p'.val; omega
    | ⟨1, _⟩ => show win3_0.index t (1 : Fin 2) * 256 + 1 * k.val = k.val; omega
  · show V c main_v87 (((cfg3.win 1).blk t).view.emb (ix2 p k)) = V c main_v87 (ix2 p' k)
    refine congrArg _ (funext fun a => Fin.ext ?_)
    match a with
    | ⟨0, _⟩ => show win3_1.index t (0 : Fin 2) * 2048 + 1 * p.val = p'.val; omega
    | ⟨1, _⟩ => show win3_1.index t (1 : Fin 2) * 256 + 1 * k.val = k.val; omega
  · show V c main_v94 (((cfg3.win 2).blk t).view.emb (ix2 p k)) = V c main_v94 (ix2 p' k)
    refine congrArg _ (funext fun a => Fin.ext ?_)
    match a with
    | ⟨0, _⟩ => show win3_2.index t (0 : Fin 2) * 2048 + 1 * p.val = p'.val; omega
    | ⟨1, _⟩ => show win3_2.index t (1 : Fin 2) * 256 + 1 * k.val = k.val; omega

/-- WHAT POINT `t` WRITES BACK is block `t` of `Gloss`. -/
theorem flushed3_3_eq (c : Dev nD) (t : Fin cfg3.N) :
    (dat3 V c).flushed 3 t = ((cfg3.win 3).blk t).view.read (Elt Ideal) (Gloss V c) := by
  show (cfg3.win 3).cut (grid3.coords t) ((dat3 V c).after 3 t) = _
  rw [after3_3]
  unfold out3_3
  rw [View.canon_unit_zero hz3]
  simp only [View.ld_unit_zero (S := S2048x256) hz3]
  rw [k3_pay1_eq]
  obtain ⟨e00, e01, e10, e11, e20, e21, e30, e31⟩ := idx_facts3 t
  have ht := t_lt3 t
  funext j
  obtain ⟨p, u, rfl⟩ : ∃ (p : Fin 2048) (u : Fin 1), j = ix2 p u := ⟨j 0, j 1, eq_ix2 j⟩
  have hemb : ((cfg3.win 3).blk t).view.emb (ix2 p u) = ix2 (⟨t.val * 2048 + p.val, by have := p.isLt; omega⟩ : Fin 8192) u := by
    funext a; apply Fin.ext
    match a with
    | ⟨0, _⟩ => show win3_3.index t (0 : Fin 2) * 2048 + 1 * p.val = t.val * 2048 + p.val; omega
    | ⟨1, _⟩ => show win3_3.index t (1 : Fin 2) * 1 + 1 * u.val = u.val; omega
  show lossArr (R := 2048) (iblk3 V c 0 t) (iblk3 V c 1 t) (iblk3 V c 2 t) (ix2 p u)
    = Gloss V c (((cfg3.win 3).blk t).view.emb (ix2 p u))
  rw [hemb]
  exact blk_loss V c t p u _ rfl

theorem mem_blk3_3 (t : Fin cfg3.N) (i : S8192x1.Idx) :
    i ∈ ((cfg3.win 3).blk t).view.set ↔ ∀ a : Fin 2, win3_3.index t a * S2048x1.size a ≤ (i a).val ∧ (i a).val < win3_3.index t a * S2048x1.size a + S2048x1.size a := by
  show i ∈ ((View.whole main_v95).slice (win3_3.rect t)).set ↔ _
  rw [View.set_slice_whole, Rect.mem_set_unit]
  exact Iff.rfl

/-- The point whose block holds row `r`. -/
def ptOf3 (r : ℕ) (hr : r < 8192) : Fin cfg3.N := ⟨r / 2048, by rw [show cfg3.N = 4 from N_3]; omega⟩

theorem cover3_3v (i : S8192x1.Idx) : ∃ t : Fin cfg3.N, (cfg3.win 3).flush t = true ∧ i ∈ ((cfg3.win 3).blk t).view.set := by
  have hi0 : (i 0).val < 8192 := (i 0).isLt
  have hi1 : (i 1).val < 1 := (i 1).isLt
  refine ⟨ptOf3 (i 0).val hi0, flush3_3 _, ?_⟩
  obtain ⟨e00, e01, e10, e11, e20, e21, e30, e31⟩ := idx_facts3 (ptOf3 (i 0).val hi0)
  have hv : (ptOf3 (i 0).val hi0).val = (i 0).val / 2048 := rfl
  rw [mem_blk3_3]
  intro a
  match a with
  | ⟨0, _⟩ => show win3_3.index _ (0 : Fin 2) * 2048 ≤ (i 0).val ∧ (i 0).val < win3_3.index _ (0 : Fin 2) * 2048 + 2048; omega
  | ⟨1, _⟩ => show win3_3.index _ (1 : Fin 2) * 1 ≤ (i 1).val ∧ (i 1).val < win3_3.index _ (1 : Fin 2) * 1 + 1; omega

/-- THE ARRAY after the region: the loss of every example. -/
theorem final3_3 (c : Dev nD) : (dat3 V c).arrAt 3 cfg3.N = Gloss V c :=
  (dat3 V c).arrAt_eq_of_cover 3 (Gloss V c) (fun t _ => flushed3_3_eq V c t) (cover3_3v)

end Cert.KernelIdeal.ValH

end
-- ==== Proof.NgcfHost.lean ====
/- The reference's host operations, grouped into the functions of the model they compute, at the ideal
   instance. Each definition is the literal composition of the printed operations of one stretch of the
   reference's @main — the printed operators, shapes, dimension records and operand order — as a function of
   that stretch's inputs:
     hEmb0   the stacked embedding table (users above items);
     hSpmm   the sparse product  A · x : per edge, the row of x at the (wrapped) column index, scaled by the
             edge's value, added into the row at the row index;
     hLin    one dense layer  t · Wᵀ + b  at slice l of the stacked weights and biases;
     hLeaky  leaky ReLU with slope 0x3C23D70A, as @leaky_relu and @_where compute it;
     hNew    a layer's new embeddings  leaky (lin₁ (A x) + lin₂ (x ⊙ A x));
     hNorm   row-wise L2 normalisation with the floor 0x2B8CBCCC under the division;
     hFin    the four blocks of columns side by side;
     hWrap   a negative index wrapped by the table's length;
     hBu, hBp  the rows of the final table a batch of user / item indices selects. -/
import proofs.«125397_j74723841016248_1_alg».proof.ReferenceIdeal
import Idealize.ShloMosaic.PureOps.Ideal

noncomputable section

namespace Cert.NgcfHost

open Idealize.ShloMosaic Cert.ReferenceIdeal Cert.ReferenceIdeal.Facts₀ Cert.ReferenceIdeal.Facts

variable [Cert.ReferenceIdeal.Facts]

/-- %0: the user table above the item table. -/
def hEmb0 (a0 : FVec Ideal S50000x64 .f32) (a1 : FVec Ideal S100000x64 .f32) : FVec Ideal S150000x64 .f32 :=
  concatenate S150000x64 0 [⟨S50000x64, a0⟩, ⟨S100000x64, a1⟩] concatenates_S50000x64_S100000x64_S150000x64_d0

/-- %1 … %13 (and again %43 … %55, %85 … %97): the edge values as a column; the column indices, a negative one
    wrapped by 150000, as a column; the rows of `x` they select; each scaled by its edge's value; added into
    a zero table at the row indices. -/
def hSpmm (vals : FVec Ideal S2000000 .f32) (rows cols : IVec S2000000 32) (x : FVec Ideal S150000x64 .f32) :
    FVec Ideal S150000x64 .f32 :=
  Host.scatterAdd (F := Ideal) scatter_S150000x64_S2000000x1_S2000000x64_1_0_0_1
    (broadcastInDim S150000x64 ![] bcast_S_S150000x64 (constant (F := Ideal) S_ .f32 0x00000000#32))
    (broadcastInDim S2000000x1 ![0] bcast_S2000000_S2000000x1_0 rows)
    (mulf (F := Ideal)
      (broadcastInDim S2000000x64 ![0, 1] bcast_S2000000x1_S2000000x64_0_1
        (broadcastInDim S2000000x1 ![0] bcast_S2000000_S2000000x1_0 vals))
      (Host.gather gather_S150000x64_S2000000x1_S2000000x64_1_0_n_n_0_1_164 x
        (broadcastInDim S2000000x1 ![0] bcast_S2000000_S2000000x1_0
          (select
            (cmpi .slt cols (broadcastInDim S2000000 ![] bcast_S_S2000000 (constantI S_ 32 0#32)))
            (addi cols (broadcastInDim S2000000 ![] bcast_S_S2000000 (constantI S_ 32 150000#32)))
            cols))))

/-- One dense layer at slice `l` of the stacked weights `W` and biases `B`: the slice of `W` as a 64×64 matrix,
    transposed; `t` times it, contracting `t`'s columns; the slice of `B` as a row, broadcast over the rows;
    their sum. (%14 … %22 with `t` = %13, and %24 … %32 with `t` = %23, at `l` = 0; likewise at 1 and 2.) -/
def hLin (l : ℕ) (hW : S3x64x64.Slices ![l, 0, 0] S1x64x64) (hB : S3x64.Slices ![l, 0] S1x64)
    (t : FVec Ideal S150000x64 .f32) (W : FVec Ideal S3x64x64 .f32) (B : FVec Ideal S3x64 .f32) :
    FVec Ideal S150000x64 .f32 :=
  addf (F := Ideal)
    (Host.dotGeneral (F := Ideal) dot_S150000x64_S64x64_S150000x64_1_0_0_1_n_n none t
      (transpose S64x64 [1, 0]
        (shapeCast S64x64 (extractStridedSlice S1x64x64 ![l, 0, 0] W hW) shapeCasts_S1x64x64_S64x64)
        transposes_S64x64_S64x64_1_0))
    (broadcastInDim S150000x64 ![0, 1] bcast_S1x64_S150000x64_0_1
      (broadcastInDim S1x64 ![1] bcast_S64_S1x64_1
        (shapeCast S64 (extractStridedSlice S1x64 ![l, 0] B hB) shapeCasts_S1x64_S64)))

/-- @leaky_relu with its slope operand 0x3C23D70A, @_where inlined: where `p ≥ 0` (ordered) `p`, elsewhere
    the slope times `p`. -/
def hLeaky (p : FVec Ideal S150000x64 .f32) : FVec Ideal S150000x64 .f32 :=
  select
    (cmpf (F := Ideal) .oge p (broadcastInDim S150000x64 ![] bcast_S_S150000x64 (constant (F := Ideal) S_ .f32 0x00000000#32)))
    p
    (mulf (F := Ideal)
      (broadcastInDim S150000x64 ![] bcast_S_S150000x64 (id (constant (F := Ideal) S_ .f32 0x3C23D70A#32)))
      p)

/-- A layer's new embeddings from its input `x` and `t = A · x`: the first dense layer of `t`, plus the second
    dense layer of `x ⊙ t`, through the leaky ReLU. (%14 … %34 at `l` = 0 with `x` = %0, `t` = %13;
    %56 … %76 at 1; %98 … %118 at 2.) -/
def hNew (l : ℕ) (hW : S3x64x64.Slices ![l, 0, 0] S1x64x64) (hB : S3x64.Slices ![l, 0] S1x64)
    (x t : FVec Ideal S150000x64 .f32) (W1 : FVec Ideal S3x64x64 .f32) (B1 : FVec Ideal S3x64 .f32)
    (W2 : FVec Ideal S3x64x64 .f32) (B2 : FVec Ideal S3x64 .f32) : FVec Ideal S150000x64 .f32 :=
  hLeaky (addf (F := Ideal) (hLin l hW hB t W1 B1) (hLin l hW hB (mulf (F := Ideal) x t) W2 B2))

/-- %35 … %42 (and %77 … %84, %119 … %126): each row divided by the larger of its Euclidean length and
    0x2B8CBCCC. -/
def hNorm (x : FVec Ideal S150000x64 .f32) : FVec Ideal S150000x64 .f32 :=
  Host.divf (F := Ideal) x
    (broadcastInDim S150000x64 ![0, 1] bcast_S150000x1_S150000x64_0_1
      (maximumf (F := Ideal)
        (Host.sqrt (F := Ideal)
          (broadcastInDim S150000x1 ![0] bcast_S150000_S150000x1_0
            (Host.reduceAdd (F := Ideal) (mulf (F := Ideal) x x) (constant (F := Ideal) S_ .f32 0x00000000#32)
              reducesTo_S150000x64_S150000_d1 h_S_)))
        (broadcastInDim S150000x1 ![] bcast_S_S150000x1 (constant (F := Ideal) S_ .f32 0x2B8CBCCC#32))))

/-- %127: the layer-0 table and the three normalised tables, side by side. -/
def hFin (e0 n0 n1 n2 : FVec Ideal S150000x64 .f32) : FVec Ideal S150000x256 .f32 :=
  concatenate S150000x256 1 [⟨S150000x64, e0⟩, ⟨S150000x64, n0⟩, ⟨S150000x64, n1⟩, ⟨S150000x64, n2⟩]
    concatenates_S150000x64_S150000x64_S150000x64_S150000x64_S150000x256_d1

/-- A batch of indices, a negative one wrapped by `n`, as a column: compare with zero, add `n`, select,
    broadcast. (%c_16 … %135 with `n` = 50000; %c_18 … %142 and %c_20 … %149 with `n` = 100000.) -/
def hWrap (n : BitVec 32) (u : IVec S8192 32) : IVec S8192x1 32 :=
  broadcastInDim S8192x1 ![0] bcast_S8192_S8192x1_0
    (select
      (cmpi .slt u (broadcastInDim S8192 ![] bcast_S_S8192 (constantI S_ 32 0#32)))
      (addi u (broadcastInDim S8192 ![] bcast_S_S8192 (constantI S_ 32 n)))
      u)

/-- %128, %c_16 … %136: the user rows (0 … 49999) of the final table, gathered at the batch's user indices. -/
def hBu (fin : FVec Ideal S150000x256 .f32) (u : IVec S8192 32) : FVec Ideal S8192x256 .f32 :=
  Host.gather gather_S50000x256_S8192x1_S8192x256_1_0_n_n_0_1_1256
    (extractStridedSlice S50000x256 ![0, 0] fin slices_S150000x256_S50000x256_0_0)
    (hWrap 50000#32 u)

/-- %129, %c_18 … %143 (and, at the negative items' indices, %c_20 … %150): the item rows (50000 … 149999) of
    the final table, gathered at a batch of item indices. -/
def hBp (fin : FVec Ideal S150000x256 .f32) (i : IVec S8192 32) : FVec Ideal S8192x256 .f32 :=
  Host.gather gather_S100000x256_S8192x1_S8192x256_1_0_n_n_0_1_1256
    (extractStridedSlice S100000x256 ![50000, 0] fin slices_S150000x256_S100000x256_50000_0)
    (hWrap 100000#32 i)

end Cert.NgcfHost

end
-- ==== Proof.NgcfLayerHost.lean ====
/-
  The host's spelling of one layer of the graph network IS the whole-array layer of NgcfLayer, at the ideal values;
  and the two programs' different routes to one layer's weights and biases arrive at the same arrays.

  The stacked weights `W : [3, 64, 64]` hold, for layer `l`, the matrix `W[l]`; a layer multiplies by its transpose,
  `wT l W (k, c) = W (l, c, k)`.  One program transposes the stack's last two axes first and then takes slice `l`;
  the other takes slice `l` and transposes the 64×64 matrix: both are `wT l W`.  The stacked biases `B : [3, 64]`
  give the row `bRow l B (0, c) = B (l, c)`, reached through a `[3, 1, 64]` reshape or through a `[64]` vector.
-/
import proofs.«125397_j74723841016248_1_alg».proof.Proof.NgcfLayer
import proofs.«125397_j74723841016248_1_alg».proof.Proof.NgcfHost

noncomputable section

open scoped BigOperators

namespace Cert.NgcfLayer

open Idealize.ShloMosaic Idealize.ShloMosaic.ValueIdx Cert.DenseRow Cert.RowBias Cert.ProdRows Cert.Lib.RowOps

/-- Layer `l`'s weight matrix, transposed. -/
def wT (l : Fin 3) (W : (⟨3, ![3, 64, 64]⟩ : Shape).Idx → EReal) : M 64 64 :=
  fun i => W (ix3 l (idxEquiv2 (n0 := 64) (n1 := 64) i).2 (idxEquiv2 (n0 := 64) (n1 := 64) i).1)

/-- Layer `l`'s bias, as one row. -/
def bRow (l : Fin 3) (B : (⟨2, ![3, 64]⟩ : Shape).Idx → EReal) : M 1 64 :=
  fun i => B (ix2 l (idxEquiv2 (n0 := 1) (n1 := 64) i).2)

theorem wT_apply (l : Fin 3) (W : (⟨3, ![3, 64, 64]⟩ : Shape).Idx → EReal) (k c : Fin 64) : wT l W (ix2 k c) = W (ix3 l c k) := rfl
theorem bRow_apply (l : Fin 3) (B : (⟨2, ![3, 64]⟩ : Shape).Idx → EReal) (u : Fin 1) (c : Fin 64) : bRow l B (ix2 u c) = B (ix2 l c) := rfl

section Layout
variable {α : Type}

/-- Slice `l` of the stack, as a matrix, transposed: the reference's route. -/
theorem slice_then_transpose (l : Fin 3) (W : (⟨3, ![3, 64, 64]⟩ : Shape).Idx → α)
    (hS : (⟨3, ![3, 64, 64]⟩ : Shape).Slices ![l.val, 0, 0] ⟨3, ![1, 64, 64]⟩)
    (hC : (⟨3, ![1, 64, 64]⟩ : Shape).ShapeCasts ⟨2, ![64, 64]⟩)
    (hT : (⟨2, ![64, 64]⟩ : Shape).Transposes [1, 0] ⟨2, ![64, 64]⟩) (k c : Fin 64) :
    transpose ⟨2, ![64, 64]⟩ [1, 0] (shapeCast ⟨2, ![64, 64]⟩ (extractStridedSlice ⟨3, ![1, 64, 64]⟩ ![l.val, 0, 0] W hS) hC) hT (ix2 k c)
      = W (ix3 l c k) := by
  refine (transpose_apply _ _ hT (ix2 k c) (ix2 c k) fun b => ?_).trans ?_
  · match b with
    | ⟨0, _⟩ => rfl
    | ⟨1, _⟩ => rfl
  refine (shapeCast_apply _ hC (ix2 c k) (ix3 (0 : Fin 1) c k) ?_).trans ?_
  · rw [Shape.rowMajor_val_three, Shape.rowMajor_val_two]
    show (0 * 64 + c.val) * 64 + k.val = c.val * 64 + k.val
    omega
  refine extractStridedSlice_apply _ W hS (ix3 (0 : Fin 1) c k) (ix3 l c k) fun a => ?_
  match a with
  | ⟨0, _⟩ => show l.val = l.val + 0; omega
  | ⟨1, _⟩ => show c.val = 0 + c.val; omega
  | ⟨2, _⟩ => show k.val = 0 + k.val; omega

/-- The stack with its last two axes exchanged, slice `l` of it, as a matrix: the kernel program's route. -/
theorem transpose_then_slice (l : Fin 3) (W : (⟨3, ![3, 64, 64]⟩ : Shape).Idx → α)
    (hT : (⟨3, ![3, 64, 64]⟩ : Shape).Transposes [0, 2, 1] ⟨3, ![3, 64, 64]⟩)
    (hS : (⟨3, ![3, 64, 64]⟩ : Shape).Slices ![l.val, 0, 0] ⟨3, ![1, 64, 64]⟩)
    (hC : (⟨3, ![1, 64, 64]⟩ : Shape).ShapeCasts ⟨2, ![64, 64]⟩) (k c : Fin 64) :
    shapeCast ⟨2, ![64, 64]⟩ (extractStridedSlice ⟨3, ![1, 64, 64]⟩ ![l.val, 0, 0] (transpose ⟨3, ![3, 64, 64]⟩ [0, 2, 1] W hT) hS) hC (ix2 k c)
      = W (ix3 l c k) := by
  refine (shapeCast_apply _ hC (ix2 k c) (ix3 (0 : Fin 1) k c) ?_).trans ?_
  · rw [Shape.rowMajor_val_three, Shape.rowMajor_val_two]
    show (0 * 64 + k.val) * 64 + c.val = k.val * 64 + c.val
    omega
  refine (extractStridedSlice_apply _ _ hS (ix3 (0 : Fin 1) k c) (ix3 l k c) fun a => ?_).trans ?_
  · match a with
    | ⟨0, _⟩ => show l.val = l.val + 0; omega
    | ⟨1, _⟩ => show k.val = 0 + k.val; omega
    | ⟨2, _⟩ => show c.val = 0 + c.val; omega
  refine transpose_apply _ W hT (ix3 l k c) (ix3 l c k) fun b => ?_
  match b with
  | ⟨0, _⟩ => rfl
  | ⟨1, _⟩ => rfl
  | ⟨2, _⟩ => rfl

/-- Row `l` of the biases as a `[64]` vector: the reference's route. -/
theorem bias_vec (l : Fin 3) (B : (⟨2, ![3, 64]⟩ : Shape).Idx → α)
    (hS : (⟨2, ![3, 64]⟩ : Shape).Slices ![l.val, 0] ⟨2, ![1, 64]⟩) (hC : (⟨2, ![1, 64]⟩ : Shape).ShapeCasts ⟨1, ![64]⟩) (c : Fin 64) :
    shapeCast ⟨1, ![64]⟩ (extractStridedSlice ⟨2, ![1, 64]⟩ ![l.val, 0] B hS) hC (ix1 c) = B (ix2 l c) := by
  refine (shapeCast_apply _ hC (ix1 c) (ix2 (0 : Fin 1) c) ?_).trans ?_
  · rw [Shape.rowMajor_val_two, Shape.rowMajor_val_one]
    show 0 * 64 + c.val = c.val
    omega
  refine extractStridedSlice_apply _ B hS (ix2 (0 : Fin 1) c) (ix2 l c) fun a => ?_
  match a with
  | ⟨0, _⟩ => show l.val = l.val + 0; omega
  | ⟨1, _⟩ => show c.val = 0 + c.val; omega

/-- The biases reshaped to `[3, 1, 64]`, slice `l`, as one row: the kernel program's route. -/
theorem bias_row (l : Fin 3) (B : (⟨2, ![3, 64]⟩ : Shape).Idx → α)
    (h1 : (⟨2, ![3, 64]⟩ : Shape).ShapeCasts ⟨3, ![3, 1, 64]⟩)
    (hS : (⟨3, ![3, 1, 64]⟩ : Shape).Slices ![l.val, 0, 0] ⟨3, ![1, 1, 64]⟩)
    (hC : (⟨3, ![1, 1, 64]⟩ : Shape).ShapeCasts ⟨2, ![1, 64]⟩) (u : Fin 1) (c : Fin 64) :
    shapeCast ⟨2, ![1, 64]⟩ (extractStridedSlice ⟨3, ![1, 1, 64]⟩ ![l.val, 0, 0] (shapeCast ⟨3, ![3, 1, 64]⟩ B h1) hS) hC (ix2 u c)
      = B (ix2 l c) := by
  have hu : u.val = 0 := by omega
  refine (shapeCast_apply _ hC (ix2 u c) (ix3 (0 : Fin 1) (0 : Fin 1) c) ?_).trans ?_
  · rw [Shape.rowMajor_val_three, Shape.rowMajor_val_two]
    show (0 * 1 + 0) * 64 + c.val = u.val * 64 + c.val
    omega
  refine (extractStridedSlice_apply _ _ hS (ix3 (0 : Fin 1) (0 : Fin 1) c) (ix3 l (0 : Fin 1) c) fun a => ?_).trans ?_
  · match a with
    | ⟨0, _⟩ => show l.val = l.val + 0; omega
    | ⟨1, _⟩ => show 0 = 0 + 0; omega
    | ⟨2, _⟩ => show c.val = 0 + c.val; omega
  refine shapeCast_apply B h1 (ix3 l (0 : Fin 1) c) (ix2 l c) ?_
  rw [Shape.rowMajor_val_three, Shape.rowMajor_val_two]
  show l.val * 64 + c.val = (l.val * 1 + 0) * 64 + c.val
  omega

end Layout

/-! ## The host's spelling on whole arrays -/

open Cert.ReferenceIdeal Cert.NgcfHost

variable [Cert.ReferenceIdeal.Facts]

/-- The reference's dimension record for `[150000, 64] · [64, 64]` is the plain one. -/
theorem hdot_plain : Cert.ReferenceIdeal.dot_S150000x64_S64x64_S150000x64_1_0_0_1_n_n = DotDims.plain 150000 64 64 := rfl

/-- One dense layer of the host at slice `l`. -/
theorem hLin_eq (l : Fin 3) (hW : S3x64x64.Slices ![l.val, 0, 0] S1x64x64) (hB : S3x64.Slices ![l.val, 0] S1x64)
    (t : FVec Ideal S150000x64 .f32) (W : FVec Ideal S3x64x64 .f32) (B : FVec Ideal S3x64 .f32) :
    hLin l.val hW hB t W B = layerArr (R := 150000) (K := 64) (N := 64) t (wT l W) (unrow (bRow l B)) := by
  unfold hLin
  rw [hdot_plain, Cert.PlainDot.hlayer 150000 64 64]
  have ew : (transpose S64x64 [1, 0] (shapeCast S64x64 (extractStridedSlice S1x64x64 ![l.val, 0, 0] W hW) (Facts₀.shapeCasts_S1x64x64_S64x64)) (Facts₀.transposes_S64x64_S64x64_1_0)
      : (⟨2, ![64, 64]⟩ : Shape).Idx → EReal) = wT l W := by
    funext i
    obtain ⟨k, c, rfl⟩ : ∃ (k : Fin 64) (c : Fin 64), i = ix2 k c := ⟨i 0, i 1, eq_ix2 i⟩
    exact slice_then_transpose l W hW _ _ k c
  have eb : (shapeCast S64 (extractStridedSlice S1x64 ![l.val, 0] B hB) (Facts₀.shapeCasts_S1x64_S64) : (⟨1, ![64]⟩ : Shape).Idx → EReal)
      = unrow (bRow l B) := by
    funext i
    rw [eq_ix1 i]
    exact bias_vec l B hB _ (i 0)
  rw [ew, eb]

/-- The host's leaky rectifier, entry by entry. -/
theorem hLeaky_apply (p : FVec Ideal S150000x64 .f32) (i : S150000x64.Idx) : hLeaky p i = leaky1 (p i) := by
  unfold hLeaky
  show Scalar.select (FloatOps.cmpf (F := Ideal) (φ := .f32) .oge (p i) (broadcastInDim (s := S_) S150000x64 ![] _ (constant (F := Ideal) S_ .f32 0x00000000#32) i)) (p i)
      (FloatOps.mulf (F := Ideal) (φ := .f32) (broadcastInDim (s := S_) S150000x64 ![] _ (id (constant (F := Ideal) S_ .f32 0x3C23D70A#32)) i) (p i)) = _
  rw [host_splat, host_splat]
  show Scalar.select (FloatOps.cmpf (F := Ideal) (φ := .f32) .oge (p i) zf) (p i) (slope * p i) = leaky1 (p i)
  rw [mul_comm]
  rfl

/-- A layer's new embeddings on the host. -/
theorem hNew_eq (l : Fin 3) (hW : S3x64x64.Slices ![l.val, 0, 0] S1x64x64) (hB : S3x64.Slices ![l.val, 0] S1x64)
    (x t : FVec Ideal S150000x64 .f32) (W1 : FVec Ideal S3x64x64 .f32) (B1 : FVec Ideal S3x64 .f32)
    (W2 : FVec Ideal S3x64x64 .f32) (B2 : FVec Ideal S3x64 .f32) :
    hNew l.val hW hB x t W1 B1 W2 B2 = newArr (R := 150000) x t (wT l W1) (bRow l B1) (wT l W2) (bRow l B2) := by
  funext i
  unfold hNew
  rw [hLeaky_apply, hLin_eq, hLin_eq]
  rfl

/-- The host's sum of a matrix along its rows from an initial value. -/
theorem host_rowSum2 {n m : ℕ} (x : FVec Ideal ⟨2, ![n, m]⟩ .f32) (init : (⟨0, ![]⟩ : Shape).Idx → Ideal .f32)
    (h' : (⟨2, ![n, m]⟩ : Shape).ReducesTo [1] ⟨1, ![n]⟩) (h : (⟨2, ![n, m]⟩ : Shape).Reduces [1] ⟨1, ![n]⟩)
    (hu : 0 < (⟨0, ![]⟩ : Shape).numel) (c : Fin n) :
    Host.reduceAdd x init h' hu (ix1 c) = init (Shape.Idx.first hu) + ∑ k : Fin m, x (ix2 c k) := by
  simp only [Host.reduceAdd, Ideal.hostReduceAdd_def]
  rw [Ideal.hostReduceAdd_single h' h]
  exact congrArg (_ + ·) (Finset.sum_congr rfl fun k _ => congrArg x (lift_ix1 h c k))

/-- Rows divided by their floored lengths in the host's spelling, for any extents: the squares summed along the rows
    from a zero constant, the sums laid out as a column, its square root floored by a constant, the column broadcast back
    over the rows, the quotient — read at `(p, c)`. -/
theorem hnorm_gen {n m : ℕ} (x : FVec Ideal ⟨2, ![n, m]⟩ .f32)
    (hr' : (⟨2, ![n, m]⟩ : Shape).ReducesTo [1] ⟨1, ![n]⟩) (hr : (⟨2, ![n, m]⟩ : Shape).Reduces [1] ⟨1, ![n]⟩)
    (hu : 0 < (⟨0, ![]⟩ : Shape).numel)
    (h1 : (⟨1, ![n]⟩ : Shape).BroadcastsInDim ⟨2, ![n, 1]⟩ ![0]) (h2 : (⟨0, ![]⟩ : Shape).BroadcastsInDim ⟨2, ![n, 1]⟩ ![])
    (h3 : (⟨2, ![n, 1]⟩ : Shape).BroadcastsInDim ⟨2, ![n, m]⟩ ![0, 1]) (e : BitVec 32) (p : Fin n) (c : Fin m) :
    Host.divf (F := Ideal) x (broadcastInDim ⟨2, ![n, m]⟩ ![0, 1] h3
        (maximumf (F := Ideal)
          (Host.sqrt (F := Ideal) (broadcastInDim ⟨2, ![n, 1]⟩ ![0] h1
            (Host.reduceAdd (F := Ideal) (mulf (F := Ideal) x x) (constant (F := Ideal) ⟨0, ![]⟩ .f32 0x00000000#32) hr' hu)))
          (broadcastInDim ⟨2, ![n, 1]⟩ ![] h2 (constant (F := Ideal) ⟨0, ![]⟩ .f32 e)))) (ix2 p c)
      = Ideal.div (x (ix2 p c)) (max (Ideal.sqrt (∑ k : Fin m, x (ix2 p k) * x (ix2 p k))) (Ideal.ofBits .f32 e)) := by
  rw [host_divf_apply]
  refine congrArg (Ideal.div (x (ix2 p c))) ?_
  refine (broadcastInDim_apply _ h3 _ (ix2 p c) (ix2 p (0 : Fin 1)) fun a => ?_).trans ?_
  · match a with
    | ⟨0, _⟩ =>
      show p.val = if n = 1 then 0 else p.val
      split
      · have := p.isLt; omega
      · rfl
    | ⟨1, _⟩ =>
      show (0 : ℕ) = if (1 : ℕ) = 1 then 0 else c.val
      rw [if_pos rfl]
  refine congrArg₂ max (congrArg Ideal.sqrt ?_) ?_
  · refine (broadcastInDim_apply _ h1 _ (ix2 p (0 : Fin 1)) (ix1 p) fun a => ?_).trans ?_
    · match a with
      | ⟨0, _⟩ =>
        show p.val = if n = 1 then 0 else p.val
        split
        · have := p.isLt; omega
        · rfl
    rw [host_rowSum2 _ _ hr' hr hu p]
    show Ideal.ofBits .f32 0x00000000#32 + ∑ k : Fin m, x (ix2 p k) * x (ix2 p k) = _
    rw [Ideal.ofBits_zero_f32, zero_add]
  · exact host_splat _ h2 _

/-- The host's rows divided by their floored lengths. -/
theorem hNorm_eq (x : FVec Ideal S150000x64 .f32) : hNorm x = normArr (R := 150000) x := by
  funext i
  obtain ⟨p, c, rfl⟩ : ∃ (p : Fin 150000) (c : Fin 64), i = ix2 p c := ⟨i 0, i 1, eq_ix2 i⟩
  rw [normArr_apply]
  unfold hNorm
  exact hnorm_gen (n := 150000) (m := 64) x _ (by decide) _ _ _ _ _ p c

end Cert.NgcfLayer

end
-- ==== Proof.BridgeSpec.lean ====
/-
  THE COMMON VALUE of the two programs, at the ideal values, as one function of the twelve arguments: the tables stacked;
  three times a sparse neighbourhood sum followed by the whole-array layer (new embeddings, and their rows normalised);
  the four tables side by side; the batch's rows gathered; the per-example loss; minus its mean.
-/
import proofs.«125397_j74723841016248_1_alg».proof.Proof.NgcfLayerHost
import proofs.«125397_j74723841016248_1_alg».proof.Proof.NgcfLoss
import proofs.«125397_j74723841016248_1_alg».proof.Proof.Gen.ReferenceIdeal

noncomputable section

namespace Cert.Bridge

open Idealize.ShloMosaic Cert.ReferenceIdeal Cert.NgcfHost Cert.NgcfLayer Cert.NgcfLoss

section
variable (a0 : FVec Ideal S50000x64 .f32) (a1 : FVec Ideal S100000x64 .f32) (a2 : FVec Ideal S3x64x64 .f32) (a3 : FVec Ideal S3x64 .f32)
  (a4 : FVec Ideal S3x64x64 .f32) (a5 : FVec Ideal S3x64 .f32) (a6 : FVec Ideal S2000000 .f32) (a7 a8 : IVec S2000000 32)
  (a9 a10 a11 : IVec S8192 32)

/-- One layer: from the embeddings `e`, their neighbourhood sums, then the layer with slice `l` of the weights. -/
def step (l : Fin 3) (e : FVec Ideal S150000x64 .f32) : FVec Ideal S150000x64 .f32 :=
  newArr (R := 150000) e (hSpmm a6 a7 a8 e) (wT l a2) (bRow l a3) (wT l a4) (bRow l a5)

/-- The embeddings after 0, 1, 2, 3 layers. -/
def emb0 : FVec Ideal S150000x64 .f32 := hEmb0 a0 a1
def emb1 : FVec Ideal S150000x64 .f32 := step a2 a3 a4 a5 a6 a7 a8 0 (emb0 a0 a1)
def emb2 : FVec Ideal S150000x64 .f32 := step a2 a3 a4 a5 a6 a7 a8 1 (emb1 a0 a1 a2 a3 a4 a5 a6 a7 a8)
def emb3 : FVec Ideal S150000x64 .f32 := step a2 a3 a4 a5 a6 a7 a8 2 (emb2 a0 a1 a2 a3 a4 a5 a6 a7 a8)

/-- The four tables side by side. -/
def fin : FVec Ideal S150000x256 .f32 :=
  hFin (emb0 a0 a1) (normArr (R := 150000) (emb1 a0 a1 a2 a3 a4 a5 a6 a7 a8)) (normArr (R := 150000) (emb2 a0 a1 a2 a3 a4 a5 a6 a7 a8))
    (normArr (R := 150000) (emb3 a0 a1 a2 a3 a4 a5 a6 a7 a8))

/-- Minus the mean of the per-example losses. -/
def specOut : FVec Ideal S_ .f32 :=
  kerTail (lossArr (R := 8192) (hBu (fin a0 a1 a2 a3 a4 a5 a6 a7 a8) a9) (hBp (fin a0 a1 a2 a3 a4 a5 a6 a7 a8) a10)
    (hBp (fin a0 a1 a2 a3 a4 a5 a6 a7 a8) a11))

/-- The reference's spelling of it: every layer in the host's operations. -/
theorem ref_spec
    (hW0 : S3x64x64.Slices ![0, 0, 0] S1x64x64) (hB0 : S3x64.Slices ![0, 0] S1x64)
    (hW1 : S3x64x64.Slices ![1, 0, 0] S1x64x64) (hB1 : S3x64.Slices ![1, 0] S1x64)
    (hW2 : S3x64x64.Slices ![2, 0, 0] S1x64x64) (hB2 : S3x64.Slices ![2, 0] S1x64)
    (e0 e1 e2 e3 n0 n1 n2 : FVec Ideal S150000x64 .f32) (f : FVec Ideal S150000x256 .f32)
    (h0 : e0 = hEmb0 a0 a1)
    (h1 : e1 = hNew 0 hW0 hB0 e0 (hSpmm a6 a7 a8 e0) a2 a3 a4 a5) (hn0 : n0 = hNorm e1)
    (h2 : e2 = hNew 1 hW1 hB1 e1 (hSpmm a6 a7 a8 e1) a2 a3 a4 a5) (hn1 : n1 = hNorm e2)
    (h3 : e3 = hNew 2 hW2 hB2 e2 (hSpmm a6 a7 a8 e2) a2 a3 a4 a5) (hn2 : n2 = hNorm e3)
    (hf : f = hFin e0 n0 n1 n2) :
    refTail (hBu f a9) (hBp f a10) (hBp f a11) = specOut a0 a1 a2 a3 a4 a5 a6 a7 a8 a9 a10 a11 := by
  subst h0
  have q1 : e1 = emb1 a0 a1 a2 a3 a4 a5 a6 a7 a8 := by rw [h1]; exact hNew_eq 0 hW0 hB0 _ _ _ _ _ _
  subst q1
  have q2 : e2 = emb2 a0 a1 a2 a3 a4 a5 a6 a7 a8 := by rw [h2]; exact hNew_eq 1 hW1 hB1 _ _ _ _ _ _
  subst q2
  have q3 : e3 = emb3 a0 a1 a2 a3 a4 a5 a6 a7 a8 := by rw [h3]; exact hNew_eq 2 hW2 hB2 _ _ _ _ _ _
  subst q3
  rw [hNorm_eq] at hn0 hn1 hn2
  subst hn0 hn1 hn2 hf
  rw [tail_eq]
  rfl

end

end Cert.Bridge

end
-- ==== Proof.NgcfNames.lean ====
/-
  The two printed programs name the same host operations with the same dimension records in two namespaces: the sparse
  neighbourhood sum, the stacking of the tables, and the gathers of the batch rows are the same functions on both sides.
-/
import proofs.«125397_j74723841016248_1_alg».proof.Proof.NgcfHostK
import proofs.«125397_j74723841016248_1_alg».proof.Proof.NgcfHost
import proofs.«125397_j74723841016248_1_alg».proof.Proof.Gen.KernelIdeal
import proofs.«125397_j74723841016248_1_alg».proof.Proof.Gen.ReferenceIdeal

noncomputable section

namespace Cert.Bridge

open Idealize.ShloMosaic Cert.NgcfHostK Cert.NgcfHost

theorem kEmb0_eq (a0 : FVec Ideal Cert.KernelIdeal.S50000x64 .f32) (a1 : FVec Ideal Cert.KernelIdeal.S100000x64 .f32) :
    kEmb0 a0 a1 = hEmb0 a0 a1 := rfl

theorem kSpmm_eq (vals : FVec Ideal Cert.KernelIdeal.S2000000 .f32) (rows cols : IVec Cert.KernelIdeal.S2000000 32)
    (x : FVec Ideal Cert.KernelIdeal.S150000x64 .f32) : kSpmm vals rows cols x = hSpmm vals rows cols x := rfl

theorem kFin_eq (e0 n0 n1 n2 : FVec Ideal Cert.KernelIdeal.S150000x64 .f32) : kFin e0 n0 n1 n2 = hFin e0 n0 n1 n2 := rfl

theorem kBu_eq (fin : FVec Ideal Cert.KernelIdeal.S150000x256 .f32) (u : IVec Cert.KernelIdeal.S8192 32) : kBu fin u = hBu fin u := rfl

theorem kBp_eq (fin : FVec Ideal Cert.KernelIdeal.S150000x256 .f32) (u : IVec Cert.KernelIdeal.S8192 32) : kBp fin u = hBp fin u := rfl

end Cert.Bridge

end
-- ==== Proof.NgcfWeightsK.lean ====
/-
  The kernel program's route to a layer's transposed weight matrix and its bias row arrives at `wT l W` and `bRow l B`.
-/
import proofs.«125397_j74723841016248_1_alg».proof.Proof.NgcfLayerHost
import proofs.«125397_j74723841016248_1_alg».proof.Proof.NgcfHostK
import proofs.«125397_j74723841016248_1_alg».proof.Proof.Gen.KernelIdeal

noncomputable section

namespace Cert.NgcfLayer

open Idealize.ShloMosaic Idealize.ShloMosaic.ValueIdx Cert.NgcfHostK Cert.KernelIdeal

theorem kW_eq (l : Fin 3) (hS : S3x64x64.Slices ![l.val, 0, 0] S1x64x64) (W : FVec Ideal S3x64x64 .f32) :
    (kW l.val hS W : (⟨2, ![64, 64]⟩ : Shape).Idx → EReal) = wT l W := by
  funext i
  obtain ⟨k, c, rfl⟩ : ∃ (k : Fin 64) (c : Fin 64), i = ix2 k c := ⟨i 0, i 1, eq_ix2 i⟩
  unfold kW
  exact transpose_then_slice l W _ hS _ k c

theorem kB_eq (l : Fin 3) (hS : S3x1x64.Slices ![l.val, 0, 0] S1x1x64) (B : FVec Ideal S3x64 .f32) :
    (kB l.val hS B : (⟨2, ![1, 64]⟩ : Shape).Idx → EReal) = bRow l B := by
  funext i
  obtain ⟨u, c, rfl⟩ : ∃ (u : Fin 1) (c : Fin 64), i = ix2 u c := ⟨i 0, i 1, eq_ix2 i⟩
  unfold kB
  exact bias_row l B _ hS _ u c

end Cert.NgcfLayer

end
-- ==== Proof.BridgeK.lean ====
/-
  The kernel program's spelling of the common value: the same chain with the kernel program's names for the shared host
  operations and its own route to each layer's weights and biases.
-/
import proofs.«125397_j74723841016248_1_alg».proof.Proof.BridgeSpec
import proofs.«125397_j74723841016248_1_alg».proof.Proof.NgcfNames
import proofs.«125397_j74723841016248_1_alg».proof.Proof.NgcfWeightsK

noncomputable section

namespace Cert.Bridge

open Idealize.ShloMosaic Cert.KernelIdeal Cert.NgcfHostK Cert.NgcfLayer Cert.NgcfLoss

section
variable (a0 : FVec Ideal S50000x64 .f32) (a1 : FVec Ideal S100000x64 .f32) (a2 : FVec Ideal S3x64x64 .f32) (a3 : FVec Ideal S3x64 .f32)
  (a4 : FVec Ideal S3x64x64 .f32) (a5 : FVec Ideal S3x64 .f32) (a6 : FVec Ideal S2000000 .f32) (a7 a8 : IVec S2000000 32)
  (a9 a10 a11 : IVec S8192 32)

theorem ker_spec
    (hW0 : S3x64x64.Slices ![0, 0, 0] S1x64x64) (hB0 : S3x1x64.Slices ![0, 0, 0] S1x1x64)
    (hW1 : S3x64x64.Slices ![1, 0, 0] S1x64x64) (hB1 : S3x1x64.Slices ![1, 0, 0] S1x1x64)
    (hW2 : S3x64x64.Slices ![2, 0, 0] S1x64x64) (hB2 : S3x1x64.Slices ![2, 0, 0] S1x1x64)
    (e0 e1 e2 e3 n0 n1 n2 : FVec Ideal S150000x64 .f32) (f : FVec Ideal S150000x256 .f32)
    (h0 : e0 = kEmb0 a0 a1)
    (h1 : e1 = newArr (R := 150000) e0 (kSpmm a6 a7 a8 e0) (kW 0 hW0 a2) (kB 0 hB0 a3) (kW 0 hW0 a4) (kB 0 hB0 a5)) (hn0 : n0 = normArr (R := 150000) e1)
    (h2 : e2 = newArr (R := 150000) e1 (kSpmm a6 a7 a8 e1) (kW 1 hW1 a2) (kB 1 hB1 a3) (kW 1 hW1 a4) (kB 1 hB1 a5)) (hn1 : n1 = normArr (R := 150000) e2)
    (h3 : e3 = newArr (R := 150000) e2 (kSpmm a6 a7 a8 e2) (kW 2 hW2 a2) (kB 2 hB2 a3) (kW 2 hW2 a4) (kB 2 hB2 a5)) (hn2 : n2 = normArr (R := 150000) e3)
    (hf : f = kFin e0 n0 n1 n2) :
    kTail (lossArr (R := 8192) (kBu f a9) (kBp f a10) (kBp f a11)) = specOut a0 a1 a2 a3 a4 a5 a6 a7 a8 a9 a10 a11 := by
  have w02 : kW 0 hW0 a2 = wT 0 a2 := kW_eq 0 hW0 a2
  have w04 : kW 0 hW0 a4 = wT 0 a4 := kW_eq 0 hW0 a4
  have w12 : kW 1 hW1 a2 = wT 1 a2 := kW_eq 1 hW1 a2
  have w14 : kW 1 hW1 a4 = wT 1 a4 := kW_eq 1 hW1 a4
  have w22 : kW 2 hW2 a2 = wT 2 a2 := kW_eq 2 hW2 a2
  have w24 : kW 2 hW2 a4 = wT 2 a4 := kW_eq 2 hW2 a4
  have b03 : kB 0 hB0 a3 = bRow 0 a3 := kB_eq 0 hB0 a3
  have b05 : kB 0 hB0 a5 = bRow 0 a5 := kB_eq 0 hB0 a5
  have b13 : kB 1 hB1 a3 = bRow 1 a3 := kB_eq 1 hB1 a3
  have b15 : kB 1 hB1 a5 = bRow 1 a5 := kB_eq 1 hB1 a5
  have b23 : kB 2 hB2 a3 = bRow 2 a3 := kB_eq 2 hB2 a3
  have b25 : kB 2 hB2 a5 = bRow 2 a5 := kB_eq 2 hB2 a5
  rw [w02, w04, b03, b05, kSpmm_eq] at h1
  rw [w12, w14, b13, b15, kSpmm_eq] at h2
  rw [w22, w24, b23, b25, kSpmm_eq] at h3
  rw [kEmb0_eq] at h0
  rw [kFin_eq] at hf
  subst h0
  subst h1
  subst hn0
  subst h2
  subst hn1
  subst h3
  subst hn2
  subst hf
  rw [kBu_eq, kBp_eq, kBp_eq]
  rfl

end

end Cert.Bridge

end
-- ==== Proof.BridgeFold.lean ====
/-
  The kernel program's result, read through its fold of buffer contents, IS the common value: each layer's region
  leaves the whole-array layer of what the stretch before it prepared, the last region the per-example loss of the
  gathered rows, and the last stretch minus its mean.
-/
import proofs.«125397_j74723841016248_1_alg».proof.Proof.KIRead
import proofs.«125397_j74723841016248_1_alg».proof.Proof.KIValue0
import proofs.«125397_j74723841016248_1_alg».proof.Proof.KIValue1
import proofs.«125397_j74723841016248_1_alg».proof.Proof.KIValue2
import proofs.«125397_j74723841016248_1_alg».proof.Proof.KIValue3
import proofs.«125397_j74723841016248_1_alg».proof.Proof.BridgeK

set_option maxRecDepth 16384

noncomputable section

namespace Cert.Bridge

open Idealize.ShloMosaic Idealize.ShloMosaic.TcCoe Idealize.SL.Sem
open Cert.KernelIdeal Cert.KernelIdeal.Gen Cert.KernelIdeal.GenH Cert.KernelIdeal.ValH Cert.KernelIdeal.ReadH
open Cert.NgcfHostK Cert.NgcfLayer Cert.NgcfLoss

variable (m : (ℓ : Loc nD τ sig) → Buf (Elt Ideal) ℓ) (ρ : Dev nD → PrngReg) (c : Dev nD)

/-! ## The three layers' regions -/

theorem new0 : (W2 m ρ c (Proc.devRef .tc main_v26_0) : FVec Ideal S150000x64 .f32)
    = newArr (R := 150000) (kEmb0 (a0 m c) (a1 m c)) (kSpmm (a6 m c) (a7 m c) (a8 m c) (kEmb0 (a0 m c) (a1 m c)))
        (kW 0 slices_S3x64x64_S1x64x64_0_0_0 (a2 m c)) (kB 0 slices_S3x1x64_S1x1x64_0_0_0 (a3 m c))
        (kW 0 slices_S3x64x64_S1x64x64_0_0_0 (a4 m c)) (kB 0 slices_S3x1x64_S1x1x64_0_0_0 (a5 m c)) := by
  refine ((W2_arr m ρ c 6).trans (final0_6 (V1 m ρ) c)).trans ?_
  show newArr (R := 150000) (W1 m ρ c (Proc.devRef .tc main_v0)) (W1 m ρ c (Proc.devRef .tc main_v17)) (W1 m ρ c (Proc.devRef .tc main_v19))
    (W1 m ρ c (Proc.devRef .tc main_v21)) (W1 m ρ c (Proc.devRef .tc main_v23)) (W1 m ρ c (Proc.devRef .tc main_v25)) = _
  rw [read0_v0, read0_v17, read0_v19, read0_v21, read0_v23, read0_v25]

theorem norm0 : (W2 m ρ c (Proc.devRef .tc main_v26_1) : FVec Ideal S150000x64 .f32)
    = normArr (R := 150000) (W2 m ρ c (Proc.devRef .tc main_v26_0)) := by
  rw [show (W2 m ρ c (Proc.devRef .tc main_v26_1) : FVec Ideal S150000x64 .f32) = _ from (W2_arr m ρ c 7).trans (final0_7 (V1 m ρ) c),
    show (W2 m ρ c (Proc.devRef .tc main_v26_0) : FVec Ideal S150000x64 .f32) = _ from (W2_arr m ρ c 6).trans (final0_6 (V1 m ρ) c)]

theorem new1 : (W4 m ρ c (Proc.devRef .tc main_v48_0) : FVec Ideal S150000x64 .f32)
    = newArr (R := 150000) (W2 m ρ c (Proc.devRef .tc main_v26_0)) (kSpmm (a6 m c) (a7 m c) (a8 m c) (W2 m ρ c (Proc.devRef .tc main_v26_0)))
        (kW 1 slices_S3x64x64_S1x64x64_1_0_0 (a2 m c)) (kB 1 slices_S3x1x64_S1x1x64_1_0_0 (a3 m c))
        (kW 1 slices_S3x64x64_S1x64x64_1_0_0 (a4 m c)) (kB 1 slices_S3x1x64_S1x1x64_1_0_0 (a5 m c)) := by
  refine ((W4_arr m ρ c 6).trans (final1_6 (V3 m ρ) c)).trans ?_
  show newArr (R := 150000) (W3 m ρ c (Proc.devRef .tc main_v26_0)) (W3 m ρ c (Proc.devRef .tc main_v39)) (W3 m ρ c (Proc.devRef .tc main_v41))
    (W3 m ρ c (Proc.devRef .tc main_v43)) (W3 m ρ c (Proc.devRef .tc main_v45)) (W3 m ρ c (Proc.devRef .tc main_v47)) = _
  rw [W3_v26_0, read1_v39, read1_v41, read1_v43, read1_v45, read1_v47]

theorem norm1' : (W4 m ρ c (Proc.devRef .tc main_v48_1) : FVec Ideal S150000x64 .f32)
    = normArr (R := 150000) (W4 m ρ c (Proc.devRef .tc main_v48_0)) := by
  rw [show (W4 m ρ c (Proc.devRef .tc main_v48_1) : FVec Ideal S150000x64 .f32) = _ from (W4_arr m ρ c 7).trans (final1_7 (V3 m ρ) c),
    show (W4 m ρ c (Proc.devRef .tc main_v48_0) : FVec Ideal S150000x64 .f32) = _ from (W4_arr m ρ c 6).trans (final1_6 (V3 m ρ) c)]

theorem new2 : (W6 m ρ c (Proc.devRef .tc main_v70_0) : FVec Ideal S150000x64 .f32)
    = newArr (R := 150000) (W4 m ρ c (Proc.devRef .tc main_v48_0)) (kSpmm (a6 m c) (a7 m c) (a8 m c) (W4 m ρ c (Proc.devRef .tc main_v48_0)))
        (kW 2 slices_S3x64x64_S1x64x64_2_0_0 (a2 m c)) (kB 2 slices_S3x1x64_S1x1x64_2_0_0 (a3 m c))
        (kW 2 slices_S3x64x64_S1x64x64_2_0_0 (a4 m c)) (kB 2 slices_S3x1x64_S1x1x64_2_0_0 (a5 m c)) := by
  refine ((W6_arr m ρ c 6).trans (final2_6 (V5 m ρ) c)).trans ?_
  show newArr (R := 150000) (W5 m ρ c (Proc.devRef .tc main_v48_0)) (W5 m ρ c (Proc.devRef .tc main_v61)) (W5 m ρ c (Proc.devRef .tc main_v63))
    (W5 m ρ c (Proc.devRef .tc main_v65)) (W5 m ρ c (Proc.devRef .tc main_v67)) (W5 m ρ c (Proc.devRef .tc main_v69)) = _
  rw [W5_v48_0, read2_v61, read2_v63, read2_v65, read2_v67, read2_v69]

theorem norm2 : (W6 m ρ c (Proc.devRef .tc main_v70_1) : FVec Ideal S150000x64 .f32)
    = normArr (R := 150000) (W6 m ρ c (Proc.devRef .tc main_v70_0)) := by
  rw [show (W6 m ρ c (Proc.devRef .tc main_v70_1) : FVec Ideal S150000x64 .f32) = _ from (W6_arr m ρ c 7).trans (final2_7 (V5 m ρ) c),
    show (W6 m ρ c (Proc.devRef .tc main_v70_0) : FVec Ideal S150000x64 .f32) = _ from (W6_arr m ρ c 6).trans (final2_6 (V5 m ρ) c)]

/-! ## The loss region and the returned value -/

theorem loss3 : (W8 m ρ c (Proc.devRef .tc main_v95) : FVec Ideal S8192x1 .f32)
    = lossArr (R := 8192) (kBu (ReadH.fin m ρ c) (a9 m c)) (kBp (ReadH.fin m ρ c) (a10 m c)) (kBp (ReadH.fin m ρ c) (a11 m c)) := by
  refine ((W8_arr m ρ c 3).trans (final3_3 (V7 m ρ) c)).trans ?_
  show lossArr (R := 8192) (W7 m ρ c (Proc.devRef .tc main_v80)) (W7 m ρ c (Proc.devRef .tc main_v87)) (W7 m ρ c (Proc.devRef .tc main_v94)) = _
  rw [read3_v80, read3_v87, read3_v94]

/-- THE KERNEL PROGRAM'S RESULT is the common value of its arguments. -/
theorem ker_value : (W9 m ρ c (Proc.devRef .tc main_v98) : FVec Ideal S_ .f32)
    = specOut (a0 m c) (a1 m c) (a2 m c) (a3 m c) (a4 m c) (a5 m c) (a6 m c) (a7 m c) (a8 m c) (a9 m c) (a10 m c) (a11 m c) := by
  rw [read4_v98, loss3]
  exact ker_spec (a0 m c) (a1 m c) (a2 m c) (a3 m c) (a4 m c) (a5 m c) (a6 m c) (a7 m c) (a8 m c) (a9 m c) (a10 m c) (a11 m c)
    slices_S3x64x64_S1x64x64_0_0_0 slices_S3x1x64_S1x1x64_0_0_0 slices_S3x64x64_S1x64x64_1_0_0 slices_S3x1x64_S1x1x64_1_0_0
    slices_S3x64x64_S1x64x64_2_0_0 slices_S3x1x64_S1x1x64_2_0_0
    (kEmb0 (a0 m c) (a1 m c)) (W2 m ρ c (Proc.devRef .tc main_v26_0)) (W4 m ρ c (Proc.devRef .tc main_v48_0)) (W6 m ρ c (Proc.devRef .tc main_v70_0))
    (W2 m ρ c (Proc.devRef .tc main_v26_1)) (W4 m ρ c (Proc.devRef .tc main_v48_1)) (W6 m ρ c (Proc.devRef .tc main_v70_1))
    (ReadH.fin m ρ c) rfl (new0 m ρ c) (norm0 m ρ c) (new1 m ρ c) (norm1' m ρ c) (new2 m ρ c) (norm2 m ρ c) rfl

end Cert.Bridge

end
-- ==== Proof.RefValue.lean ====
/- What the reference's result buffer holds after the run, as a function of the twelve argument arrays.

   The fold of the operations over the launch contents is read window by window. For each window, and each
   buffer a later window (or the result) reads, one lemma states the buffer's contents after the window, from ANY
   contents `W` before it, as the model's functions (Proof/NgcfHost.lean) of the contents of the buffers the window
   reads: the operations' results composed in order (each operation leaves its function of its operands at its
   result buffer and every other buffer alone). A buffer a window does not write passes through it. The windows
   cut two of the model's functions in the middle — the sparse product of layer 1 (gathered and scaled in window 0,
   scattered in window 1) and the first dense layer of layer 2 (product and bias row in window 1, their sum in
   window 2) —, so the halves are named here and the whole is their composition by definition. Chaining the four
   windows gives the result as the model's loss of the three gathered blocks of the final table. -/
import proofs.«125397_j74723841016248_1_alg».proof.Proof.RefRun
import proofs.«125397_j74723841016248_1_alg».proof.Proof.NgcfHost
import proofs.«125397_j74723841016248_1_alg».proof.Proof.NgcfLoss

noncomputable section

namespace Cert.ReferenceIdeal.RefValue

open Cert.ReferenceIdeal Cert.ReferenceIdeal.Gen Cert.ReferenceIdeal.RefRun Cert.NgcfHost Idealize.ShloMosaic Idealize.ShloMosaic.TcCoe Idealize.SL.Sem Idealize.ShloMosaic.StableHlo

local notation "𝕍" => Valuation τ sig (Elt Ideal)

/-! ## The pieces the windows cut, and the tail -/

/-- The rows of `x` the (wrapped) column indices select: the first half of the sparse product. -/
def gPart (x : FVec Ideal S150000x64 .f32) (cols : IVec S2000000 32) : FVec Ideal S2000000x64 .f32 :=
  Host.gather gather_S150000x64_S2000000x1_S2000000x64_1_0_n_n_0_1_164 x
    (broadcastInDim S2000000x1 ![0] bcast_S2000000_S2000000x1_0
      (select
        (cmpi .slt cols (broadcastInDim S2000000 ![] bcast_S_S2000000 (constantI S_ 32 0#32)))
        (addi cols (broadcastInDim S2000000 ![] bcast_S_S2000000 (constantI S_ 32 150000#32)))
        cols))

/-- The edge values broadcast along the rows they scale. -/
def vPart (vals : FVec Ideal S2000000 .f32) : FVec Ideal S2000000x64 .f32 :=
  broadcastInDim S2000000x64 ![0, 1] bcast_S2000000x1_S2000000x64_0_1
    (broadcastInDim S2000000x1 ![0] bcast_S2000000_S2000000x1_0 vals)

/-- The scaled rows added into a zero table at the row indices: the second half of the sparse product. -/
def sPart (rows : IVec S2000000 32) (u : FVec Ideal S2000000x64 .f32) : FVec Ideal S150000x64 .f32 :=
  Host.scatterAdd (F := Ideal) scatter_S150000x64_S2000000x1_S2000000x64_1_0_0_1
    (broadcastInDim S150000x64 ![] bcast_S_S150000x64 (constant (F := Ideal) S_ .f32 0x00000000#32))
    (broadcastInDim S2000000x1 ![0] bcast_S2000000_S2000000x1_0 rows) u

/-- The sparse product is its two halves. -/
theorem hSpmm_parts (vals : FVec Ideal S2000000 .f32) (rows cols : IVec S2000000 32) (x : FVec Ideal S150000x64 .f32) :
    hSpmm vals rows cols x = sPart rows (mulf (F := Ideal) (vPart vals) (gPart x cols)) := rfl

/-- The product half of a dense layer. -/
def dPart (l : ℕ) (hW : S3x64x64.Slices ![l, 0, 0] S1x64x64) (t : FVec Ideal S150000x64 .f32)
    (W : FVec Ideal S3x64x64 .f32) : FVec Ideal S150000x64 .f32 :=
  Host.dotGeneral (F := Ideal) dot_S150000x64_S64x64_S150000x64_1_0_0_1_n_n none t
    (transpose S64x64 [1, 0]
      (shapeCast S64x64 (extractStridedSlice S1x64x64 ![l, 0, 0] W hW) shapeCasts_S1x64x64_S64x64)
      transposes_S64x64_S64x64_1_0)

/-- The bias of a dense layer as a row. -/
def bPart (l : ℕ) (hB : S3x64.Slices ![l, 0] S1x64) (B : FVec Ideal S3x64 .f32) : FVec Ideal S1x64 .f32 :=
  broadcastInDim S1x64 ![1] bcast_S64_S1x64_1
    (shapeCast S64 (extractStridedSlice S1x64 ![l, 0] B hB) shapeCasts_S1x64_S64)

/-- A dense layer is its product plus its bias row broadcast over the rows. -/
theorem hLin_parts (l : ℕ) (hW : S3x64x64.Slices ![l, 0, 0] S1x64x64) (hB : S3x64.Slices ![l, 0] S1x64)
    (t : FVec Ideal S150000x64 .f32) (W : FVec Ideal S3x64x64 .f32) (B : FVec Ideal S3x64 .f32) :
    hLin l hW hB t W B = addf (F := Ideal) (dPart l hW t W)
      (broadcastInDim S150000x64 ![0, 1] bcast_S1x64_S150000x64_0_1 (bPart l hB B)) := rfl

/-- %151 – %152 (and %153 – %154): the row-wise inner products of two gathered blocks. -/
def hScore (u p : FVec Ideal S8192x256 .f32) : FVec Ideal S8192 .f32 :=
  Host.reduceAdd (F := Ideal) (mulf (F := Ideal) u p) (constant (F := Ideal) S_ .f32 0x00000000#32)
    reducesTo_S8192x256_S8192_d1 h_S_

/-- @softplus, as printed: the larger of `y` and zero plus log1p of exp of minus the absolute value of `y - 0`,
    unless `y - 0` differs from itself, where it is `y + 0`. -/
def hSoftplus (y : FVec Ideal S8192 .f32) : FVec Ideal S8192 .f32 :=
  select
    (cmpf (F := Ideal) .une
      (subf (F := Ideal) y (broadcastInDim S8192 ![] bcast_S_S8192 (constant (F := Ideal) S_ .f32 0x00000000#32)))
      (subf (F := Ideal) y (broadcastInDim S8192 ![] bcast_S_S8192 (constant (F := Ideal) S_ .f32 0x00000000#32))))
    (addf (F := Ideal) y (broadcastInDim S8192 ![] bcast_S_S8192 (constant (F := Ideal) S_ .f32 0x00000000#32)))
    (addf (F := Ideal)
      (maximumf (F := Ideal) y (broadcastInDim S8192 ![] bcast_S_S8192 (constant (F := Ideal) S_ .f32 0x00000000#32)))
      (Host.log1p (F := Ideal) (Host.exp (F := Ideal) (Host.negf (F := Ideal) (Host.absf (F := Ideal)
        (subf (F := Ideal) y (broadcastInDim S8192 ![] bcast_S_S8192 (constant (F := Ideal) S_ .f32 0x00000000#32))))))))

/-- @log_sigmoid: minus the softplus of minus `x`. -/
def hLogSig (x : FVec Ideal S8192 .f32) : FVec Ideal S8192 .f32 :=
  Host.negf (F := Ideal) (hSoftplus (Host.negf (F := Ideal) x))

/-- %157 – %159: minus the sum over the batch divided by 0x46000000 (8192). -/
def hMean (z : FVec Ideal S8192 .f32) : FVec Ideal S_ .f32 :=
  Host.negf (F := Ideal)
    (Host.divf (F := Ideal)
      (Host.reduceAdd (F := Ideal) z (constant (F := Ideal) S_ .f32 0x00000000#32) reducesTo_S8192_S_d0 h_S_)
      (constant (F := Ideal) S_ .f32 0x46000000#32))

/-- %151 … %159 with @log_sigmoid and @softplus inlined: the loss of the three gathered blocks. -/
def refTail' (bu bp bn : FVec Ideal S8192x256 .f32) : FVec Ideal S_ .f32 :=
  hMean (hLogSig (subf (F := Ideal) (hScore bu bp) (hScore bu bn)))

/-- The tail as composed here is the loss model's `refTail`: the same operations in the same order. -/
theorem refTail'_eq (bu bp bn : FVec Ideal S8192x256 .f32) : refTail' bu bp bn = Cert.NgcfLoss.refTail bu bp bn := rfl

/-! ## The model's tables as functions of the launch contents -/

/-- The stacked embedding table. -/
def rE0 (V : 𝕍) : FVec Ideal S150000x64 .f32 := hEmb0 (V (Proc.devRef .tc main_arg0)) (V (Proc.devRef .tc main_arg1))
/-- The layers' tables: each layer's new embeddings from the one before and its sparse product. -/
def rE1 (V : 𝕍) : FVec Ideal S150000x64 .f32 :=
  hNew 0 slices_S3x64x64_S1x64x64_0_0_0 slices_S3x64_S1x64_0_0 (rE0 V) (hSpmm (V (Proc.devRef .tc main_arg6)) (V (Proc.devRef .tc main_arg7)) (V (Proc.devRef .tc main_arg8)) (rE0 V)) (V (Proc.devRef .tc main_arg2)) (V (Proc.devRef .tc main_arg3)) (V (Proc.devRef .tc main_arg4)) (V (Proc.devRef .tc main_arg5))
@[inherit_doc rE1]
def rE2 (V : 𝕍) : FVec Ideal S150000x64 .f32 :=
  hNew 1 slices_S3x64x64_S1x64x64_1_0_0 slices_S3x64_S1x64_1_0 (rE1 V) (hSpmm (V (Proc.devRef .tc main_arg6)) (V (Proc.devRef .tc main_arg7)) (V (Proc.devRef .tc main_arg8)) (rE1 V)) (V (Proc.devRef .tc main_arg2)) (V (Proc.devRef .tc main_arg3)) (V (Proc.devRef .tc main_arg4)) (V (Proc.devRef .tc main_arg5))
@[inherit_doc rE1]
def rE3 (V : 𝕍) : FVec Ideal S150000x64 .f32 :=
  hNew 2 slices_S3x64x64_S1x64x64_2_0_0 slices_S3x64_S1x64_2_0 (rE2 V) (hSpmm (V (Proc.devRef .tc main_arg6)) (V (Proc.devRef .tc main_arg7)) (V (Proc.devRef .tc main_arg8)) (rE2 V)) (V (Proc.devRef .tc main_arg2)) (V (Proc.devRef .tc main_arg3)) (V (Proc.devRef .tc main_arg4)) (V (Proc.devRef .tc main_arg5))
/-- The final table: layer 0 and the three normalised layers, side by side. -/
def rFin (V : 𝕍) : FVec Ideal S150000x256 .f32 := hFin (rE0 V) (hNorm (rE1 V)) (hNorm (rE2 V)) (hNorm (rE3 V))

/-! ## A buffer a window does not write passes through it -/

theorem keep0 (W : 𝕍) (r : Ref sig .tc) (h : r ∉ ops0_W) :
    after (ops0 (F := Ideal)) W (Proc.devRef .tc r) = W (Proc.devRef .tc r) :=
  after_of_writes_sub ops0 _ ops0_writes h
theorem keep1 (W : 𝕍) (r : Ref sig .tc) (h : r ∉ ops1_W) :
    after (ops1 (F := Ideal)) W (Proc.devRef .tc r) = W (Proc.devRef .tc r) :=
  after_of_writes_sub ops1 _ ops1_writes h
theorem keep2 (W : 𝕍) (r : Ref sig .tc) (h : r ∉ ops2_W) :
    after (ops2 (F := Ideal)) W (Proc.devRef .tc r) = W (Proc.devRef .tc r) :=
  after_of_writes_sub ops2 _ ops2_writes h
theorem keep3 (W : 𝕍) (r : Ref sig .tc) (h : r ∉ ops3_W) :
    after (ops3 (F := Ideal)) W (Proc.devRef .tc r) = W (Proc.devRef .tc r) :=
  after_of_writes_sub ops3 _ ops3_writes h

/-! ## Window 0, from any contents `W` -/

set_option maxRecDepth 8192 in
set_option maxHeartbeats 2000000 in
theorem w0_v0 (W : 𝕍) : after (ops0 (F := Ideal)) W (Proc.devRef .tc main_v0)
    = rE0 W := by
  simp only [ops0]
  after_results_simp
  all_goals (first | rfl | fail "w0_v0: the composed operations are not the stated term")

set_option maxRecDepth 8192 in
set_option maxHeartbeats 2000000 in
theorem w0_v34 (W : 𝕍) : after (ops0 (F := Ideal)) W (Proc.devRef .tc main_v34)
    = rE1 W := by
  simp only [ops0]
  after_results_simp
  all_goals (first | rfl | fail "w0_v34: the composed operations are not the stated term")

set_option maxRecDepth 8192 in
set_option maxHeartbeats 2000000 in
theorem w0_v42 (W : 𝕍) : after (ops0 (F := Ideal)) W (Proc.devRef .tc main_v42)
    = hNorm (rE1 W) := by
  simp only [ops0]
  after_results_simp
  all_goals (first | rfl | fail "w0_v42: the composed operations are not the stated term")

set_option maxRecDepth 8192 in
set_option maxHeartbeats 2000000 in
theorem w0_v50 (W : 𝕍) : after (ops0 (F := Ideal)) W (Proc.devRef .tc main_v50)
    = gPart (rE1 W) (W (Proc.devRef .tc main_arg8)) := by
  simp only [ops0]
  after_results_simp
  all_goals (first | rfl | fail "w0_v50: the composed operations are not the stated term")

set_option maxRecDepth 8192 in
set_option maxHeartbeats 2000000 in
theorem w0_v51 (W : 𝕍) : after (ops0 (F := Ideal)) W (Proc.devRef .tc main_v51)
    = vPart (W (Proc.devRef .tc main_arg6)) := by
  simp only [ops0]
  after_results_simp
  all_goals (first | rfl | fail "w0_v51: the composed operations are not the stated term")

/-! ## Window 1 -/

set_option maxRecDepth 8192 in
set_option maxHeartbeats 2000000 in
theorem w1_v76 (W : 𝕍) : after (ops1 (F := Ideal)) W (Proc.devRef .tc main_v76)
    = (hNew 1 slices_S3x64x64_S1x64x64_1_0_0 slices_S3x64_S1x64_1_0 (W (Proc.devRef .tc main_v34)) (sPart (W (Proc.devRef .tc main_arg7)) (mulf (F := Ideal) (W (Proc.devRef .tc main_v51)) (W (Proc.devRef .tc main_v50)))) (W (Proc.devRef .tc main_arg2)) (W (Proc.devRef .tc main_arg3)) (W (Proc.devRef .tc main_arg4)) (W (Proc.devRef .tc main_arg5))) := by
  simp only [ops1]
  after_results_simp
  all_goals (first | rfl | fail "w1_v76: the composed operations are not the stated term")

set_option maxRecDepth 8192 in
set_option maxHeartbeats 2000000 in
theorem w1_v84 (W : 𝕍) : after (ops1 (F := Ideal)) W (Proc.devRef .tc main_v84)
    = hNorm (hNew 1 slices_S3x64x64_S1x64x64_1_0_0 slices_S3x64_S1x64_1_0 (W (Proc.devRef .tc main_v34)) (sPart (W (Proc.devRef .tc main_arg7)) (mulf (F := Ideal) (W (Proc.devRef .tc main_v51)) (W (Proc.devRef .tc main_v50)))) (W (Proc.devRef .tc main_arg2)) (W (Proc.devRef .tc main_arg3)) (W (Proc.devRef .tc main_arg4)) (W (Proc.devRef .tc main_arg5))) := by
  simp only [ops1]
  after_results_simp
  all_goals (first | rfl | fail "w1_v84: the composed operations are not the stated term")

set_option maxRecDepth 8192 in
set_option maxHeartbeats 2000000 in
theorem w1_v97 (W : 𝕍) : after (ops1 (F := Ideal)) W (Proc.devRef .tc main_v97)
    = (hSpmm (W (Proc.devRef .tc main_arg6)) (W (Proc.devRef .tc main_arg7)) (W (Proc.devRef .tc main_arg8)) (hNew 1 slices_S3x64x64_S1x64x64_1_0_0 slices_S3x64_S1x64_1_0 (W (Proc.devRef .tc main_v34)) (sPart (W (Proc.devRef .tc main_arg7)) (mulf (F := Ideal) (W (Proc.devRef .tc main_v51)) (W (Proc.devRef .tc main_v50)))) (W (Proc.devRef .tc main_arg2)) (W (Proc.devRef .tc main_arg3)) (W (Proc.devRef .tc main_arg4)) (W (Proc.devRef .tc main_arg5)))) := by
  simp only [ops1]
  after_results_simp
  all_goals (first | rfl | fail "w1_v97: the composed operations are not the stated term")

set_option maxRecDepth 8192 in
set_option maxHeartbeats 2000000 in
theorem w1_v101 (W : 𝕍) : after (ops1 (F := Ideal)) W (Proc.devRef .tc main_v101)
    = dPart 2 slices_S3x64x64_S1x64x64_2_0_0 (hSpmm (W (Proc.devRef .tc main_arg6)) (W (Proc.devRef .tc main_arg7)) (W (Proc.devRef .tc main_arg8)) (hNew 1 slices_S3x64x64_S1x64x64_1_0_0 slices_S3x64_S1x64_1_0 (W (Proc.devRef .tc main_v34)) (sPart (W (Proc.devRef .tc main_arg7)) (mulf (F := Ideal) (W (Proc.devRef .tc main_v51)) (W (Proc.devRef .tc main_v50)))) (W (Proc.devRef .tc main_arg2)) (W (Proc.devRef .tc main_arg3)) (W (Proc.devRef .tc main_arg4)) (W (Proc.devRef .tc main_arg5)))) (W (Proc.devRef .tc main_arg2)) := by
  simp only [ops1]
  after_results_simp
  all_goals (first | rfl | fail "w1_v101: the composed operations are not the stated term")

set_option maxRecDepth 8192 in
set_option maxHeartbeats 2000000 in
theorem w1_v104 (W : 𝕍) : after (ops1 (F := Ideal)) W (Proc.devRef .tc main_v104)
    = bPart 2 slices_S3x64_S1x64_2_0 (W (Proc.devRef .tc main_arg3)) := by
  simp only [ops1]
  after_results_simp
  all_goals (first | rfl | fail "w1_v104: the composed operations are not the stated term")

/-! ## Window 2 -/

set_option maxRecDepth 8192 in
set_option maxHeartbeats 2000000 in
theorem w2_v127 (W : 𝕍) : after (ops2 (F := Ideal)) W (Proc.devRef .tc main_v127)
    = (hFin (W (Proc.devRef .tc main_v0)) (W (Proc.devRef .tc main_v42)) (W (Proc.devRef .tc main_v84)) (hNorm (hLeaky (addf (F := Ideal) (addf (F := Ideal) (W (Proc.devRef .tc main_v101)) (broadcastInDim S150000x64 ![0, 1] bcast_S1x64_S150000x64_0_1 (W (Proc.devRef .tc main_v104)))) (hLin 2 slices_S3x64x64_S1x64x64_2_0_0 slices_S3x64_S1x64_2_0 (mulf (F := Ideal) (W (Proc.devRef .tc main_v76)) (W (Proc.devRef .tc main_v97))) (W (Proc.devRef .tc main_arg4)) (W (Proc.devRef .tc main_arg5))))))) := by
  simp only [ops2]
  after_results_simp
  all_goals (first | rfl | fail "w2_v127: the composed operations are not the stated term")

set_option maxRecDepth 8192 in
set_option maxHeartbeats 2000000 in
theorem w2_v152 (W : 𝕍) : after (ops2 (F := Ideal)) W (Proc.devRef .tc main_v152)
    = hScore (hBu (hFin (W (Proc.devRef .tc main_v0)) (W (Proc.devRef .tc main_v42)) (W (Proc.devRef .tc main_v84)) (hNorm (hLeaky (addf (F := Ideal) (addf (F := Ideal) (W (Proc.devRef .tc main_v101)) (broadcastInDim S150000x64 ![0, 1] bcast_S1x64_S150000x64_0_1 (W (Proc.devRef .tc main_v104)))) (hLin 2 slices_S3x64x64_S1x64x64_2_0_0 slices_S3x64_S1x64_2_0 (mulf (F := Ideal) (W (Proc.devRef .tc main_v76)) (W (Proc.devRef .tc main_v97))) (W (Proc.devRef .tc main_arg4)) (W (Proc.devRef .tc main_arg5))))))) (W (Proc.devRef .tc main_arg9))) (hBp (hFin (W (Proc.devRef .tc main_v0)) (W (Proc.devRef .tc main_v42)) (W (Proc.devRef .tc main_v84)) (hNorm (hLeaky (addf (F := Ideal) (addf (F := Ideal) (W (Proc.devRef .tc main_v101)) (broadcastInDim S150000x64 ![0, 1] bcast_S1x64_S150000x64_0_1 (W (Proc.devRef .tc main_v104)))) (hLin 2 slices_S3x64x64_S1x64x64_2_0_0 slices_S3x64_S1x64_2_0 (mulf (F := Ideal) (W (Proc.devRef .tc main_v76)) (W (Proc.devRef .tc main_v97))) (W (Proc.devRef .tc main_arg4)) (W (Proc.devRef .tc main_arg5))))))) (W (Proc.devRef .tc main_arg10))) := by
  simp only [ops2]
  after_results_simp
  all_goals (first | rfl | fail "w2_v152: the composed operations are not the stated term")

set_option maxRecDepth 8192 in
set_option maxHeartbeats 2000000 in
theorem w2_v153 (W : 𝕍) : after (ops2 (F := Ideal)) W (Proc.devRef .tc main_v153)
    = mulf (F := Ideal) (hBu (hFin (W (Proc.devRef .tc main_v0)) (W (Proc.devRef .tc main_v42)) (W (Proc.devRef .tc main_v84)) (hNorm (hLeaky (addf (F := Ideal) (addf (F := Ideal) (W (Proc.devRef .tc main_v101)) (broadcastInDim S150000x64 ![0, 1] bcast_S1x64_S150000x64_0_1 (W (Proc.devRef .tc main_v104)))) (hLin 2 slices_S3x64x64_S1x64x64_2_0_0 slices_S3x64_S1x64_2_0 (mulf (F := Ideal) (W (Proc.devRef .tc main_v76)) (W (Proc.devRef .tc main_v97))) (W (Proc.devRef .tc main_arg4)) (W (Proc.devRef .tc main_arg5))))))) (W (Proc.devRef .tc main_arg9))) (hBp (hFin (W (Proc.devRef .tc main_v0)) (W (Proc.devRef .tc main_v42)) (W (Proc.devRef .tc main_v84)) (hNorm (hLeaky (addf (F := Ideal) (addf (F := Ideal) (W (Proc.devRef .tc main_v101)) (broadcastInDim S150000x64 ![0, 1] bcast_S1x64_S150000x64_0_1 (W (Proc.devRef .tc main_v104)))) (hLin 2 slices_S3x64x64_S1x64x64_2_0_0 slices_S3x64_S1x64_2_0 (mulf (F := Ideal) (W (Proc.devRef .tc main_v76)) (W (Proc.devRef .tc main_v97))) (W (Proc.devRef .tc main_arg4)) (W (Proc.devRef .tc main_arg5))))))) (W (Proc.devRef .tc main_arg11))) := by
  simp only [ops2]
  after_results_simp
  all_goals (first | rfl | fail "w2_v153: the composed operations are not the stated term")

set_option maxRecDepth 8192 in
set_option maxHeartbeats 2000000 in
theorem w2_cst23 (W : 𝕍) : after (ops2 (F := Ideal)) W (Proc.devRef .tc main_cst_23)
    = (constant (F := Ideal) S_ .f32 0x00000000#32 : FVec Ideal S_ .f32) := by
  simp only [ops2]
  after_results_simp
  all_goals (first | rfl | fail "w2_cst23: the composed operations are not the stated term")

/-! ## Window 3 -/

set_option maxRecDepth 8192 in
set_option maxHeartbeats 2000000 in
theorem w3_v159 (W : 𝕍) : after (ops3 (F := Ideal)) W (Proc.devRef .tc main_v159)
    = hMean (hLogSig (subf (F := Ideal) (W (Proc.devRef .tc main_v152)) (Host.reduceAdd (F := Ideal) (W (Proc.devRef .tc main_v153)) (W (Proc.devRef .tc main_cst_23)) reducesTo_S8192x256_S8192_d1 h_S_))) := by
  simp only [ops3]
  after_results_simp
  all_goals (first | rfl | fail "w3_v159: the composed operations are not the stated term")

/-! ## The windows chained -/

/-- An argument passes through windows 0, 1 and 2. -/
theorem arg_012 (V : 𝕍) (r : Ref sig .tc) (h0 : r ∉ ops0_W) (h1 : r ∉ ops1_W) (h2 : r ∉ ops2_W) :
    (after (ops2 (F := Ideal)) (after (ops1 (F := Ideal)) (after (ops0 (F := Ideal)) V))) (Proc.devRef .tc r) = V (Proc.devRef .tc r) := by
  rw [keep2 _ r h2, keep1 _ r h1, keep0 _ r h0]
theorem arg_01 (V : 𝕍) (r : Ref sig .tc) (h0 : r ∉ ops0_W) (h1 : r ∉ ops1_W) :
    (after (ops1 (F := Ideal)) (after (ops0 (F := Ideal)) V)) (Proc.devRef .tc r) = V (Proc.devRef .tc r) := by
  rw [keep1 _ r h1, keep0 _ r h0]

/-- Layer 2's table, read over the contents window 0 leaves: the sparse product's two halves meet. -/
theorem e2_after0 (V : 𝕍) : (hNew 1 slices_S3x64x64_S1x64x64_1_0_0 slices_S3x64_S1x64_1_0 ((after (ops0 (F := Ideal)) V) (Proc.devRef .tc main_v34)) (sPart ((after (ops0 (F := Ideal)) V) (Proc.devRef .tc main_arg7)) (mulf (F := Ideal) ((after (ops0 (F := Ideal)) V) (Proc.devRef .tc main_v51)) ((after (ops0 (F := Ideal)) V) (Proc.devRef .tc main_v50)))) ((after (ops0 (F := Ideal)) V) (Proc.devRef .tc main_arg2)) ((after (ops0 (F := Ideal)) V) (Proc.devRef .tc main_arg3)) ((after (ops0 (F := Ideal)) V) (Proc.devRef .tc main_arg4)) ((after (ops0 (F := Ideal)) V) (Proc.devRef .tc main_arg5))) = rE2 V := by
  rw [w0_v34, w0_v50, w0_v51, keep0 V main_arg2 (by decide), keep0 V main_arg3 (by decide), keep0 V main_arg4 (by decide),
    keep0 V main_arg5 (by decide), keep0 V main_arg7 (by decide)]
  rfl

theorem c1_v0 (V : 𝕍) : ((after (ops1 (F := Ideal)) (after (ops0 (F := Ideal)) V)) (Proc.devRef .tc main_v0)) = rE0 V := by
  rw [keep1 _ main_v0 (by decide), w0_v0]
theorem c1_v42 (V : 𝕍) : ((after (ops1 (F := Ideal)) (after (ops0 (F := Ideal)) V)) (Proc.devRef .tc main_v42)) = hNorm (rE1 V) := by
  rw [keep1 _ main_v42 (by decide), w0_v42]
theorem c1_v76 (V : 𝕍) : ((after (ops1 (F := Ideal)) (after (ops0 (F := Ideal)) V)) (Proc.devRef .tc main_v76)) = rE2 V := by
  rw [w1_v76, e2_after0]
theorem c1_v84 (V : 𝕍) : ((after (ops1 (F := Ideal)) (after (ops0 (F := Ideal)) V)) (Proc.devRef .tc main_v84)) = hNorm (rE2 V) := by
  rw [w1_v84, e2_after0]
theorem c1_v97 (V : 𝕍) : ((after (ops1 (F := Ideal)) (after (ops0 (F := Ideal)) V)) (Proc.devRef .tc main_v97)) = hSpmm (V (Proc.devRef .tc main_arg6)) (V (Proc.devRef .tc main_arg7)) (V (Proc.devRef .tc main_arg8)) (rE2 V) := by
  rw [w1_v97, e2_after0, keep0 V main_arg6 (by decide), keep0 V main_arg7 (by decide), keep0 V main_arg8 (by decide)]
theorem c1_v101 (V : 𝕍) : ((after (ops1 (F := Ideal)) (after (ops0 (F := Ideal)) V)) (Proc.devRef .tc main_v101))
    = dPart 2 slices_S3x64x64_S1x64x64_2_0_0 (hSpmm (V (Proc.devRef .tc main_arg6)) (V (Proc.devRef .tc main_arg7)) (V (Proc.devRef .tc main_arg8)) (rE2 V)) (V (Proc.devRef .tc main_arg2)) := by
  rw [w1_v101, e2_after0, keep0 V main_arg6 (by decide), keep0 V main_arg7 (by decide), keep0 V main_arg8 (by decide), keep0 V main_arg2 (by decide)]
theorem c1_v104 (V : 𝕍) : ((after (ops1 (F := Ideal)) (after (ops0 (F := Ideal)) V)) (Proc.devRef .tc main_v104)) = bPart 2 slices_S3x64_S1x64_2_0 (V (Proc.devRef .tc main_arg3)) := by
  rw [w1_v104, keep0 V main_arg3 (by decide)]

/-- The final table, read over the contents windows 0 and 1 leave: the two halves of layer 3's first dense layer
    meet, and the layer is the model's. -/
theorem fin_after01 (V : 𝕍) : (hFin ((after (ops1 (F := Ideal)) (after (ops0 (F := Ideal)) V)) (Proc.devRef .tc main_v0)) ((after (ops1 (F := Ideal)) (after (ops0 (F := Ideal)) V)) (Proc.devRef .tc main_v42)) ((after (ops1 (F := Ideal)) (after (ops0 (F := Ideal)) V)) (Proc.devRef .tc main_v84)) (hNorm (hLeaky (addf (F := Ideal) (addf (F := Ideal) ((after (ops1 (F := Ideal)) (after (ops0 (F := Ideal)) V)) (Proc.devRef .tc main_v101)) (broadcastInDim S150000x64 ![0, 1] bcast_S1x64_S150000x64_0_1 ((after (ops1 (F := Ideal)) (after (ops0 (F := Ideal)) V)) (Proc.devRef .tc main_v104)))) (hLin 2 slices_S3x64x64_S1x64x64_2_0_0 slices_S3x64_S1x64_2_0 (mulf (F := Ideal) ((after (ops1 (F := Ideal)) (after (ops0 (F := Ideal)) V)) (Proc.devRef .tc main_v76)) ((after (ops1 (F := Ideal)) (after (ops0 (F := Ideal)) V)) (Proc.devRef .tc main_v97))) ((after (ops1 (F := Ideal)) (after (ops0 (F := Ideal)) V)) (Proc.devRef .tc main_arg4)) ((after (ops1 (F := Ideal)) (after (ops0 (F := Ideal)) V)) (Proc.devRef .tc main_arg5))))))) = rFin V := by
  rw [c1_v0, c1_v42, c1_v84, c1_v101, c1_v104, c1_v76, c1_v97,
    arg_01 V main_arg4 (by decide) (by decide), arg_01 V main_arg5 (by decide) (by decide), ← hLin_parts]
  rfl

/-- The final table is what the concatenation's buffer holds after the run's first three windows. -/
theorem c2_v127 (V : 𝕍) : ((after (ops2 (F := Ideal)) (after (ops1 (F := Ideal)) (after (ops0 (F := Ideal)) V))) (Proc.devRef .tc main_v127)) = rFin V := by
  rw [w2_v127, fin_after01]

/-- The result buffer after the whole line: the loss of the three blocks of the final table that the batch's
    user, positive-item and negative-item indices select. -/
theorem after_v159 (V : 𝕍) : after (ops (F := Ideal)) V (Proc.devRef .tc main_v159)
    = Cert.NgcfLoss.refTail (hBu (rFin V) (V (Proc.devRef .tc main_arg9))) (hBp (rFin V) (V (Proc.devRef .tc main_arg10)))
        (hBp (rFin V) (V (Proc.devRef .tc main_arg11))) := by
  rw [after_ops, w3_v159, w2_v152, w2_v153, w2_cst23, fin_after01,
    arg_01 V main_arg9 (by decide) (by decide), arg_01 V main_arg10 (by decide) (by decide),
    arg_01 V main_arg11 (by decide) (by decide), ← refTail'_eq]
  rfl

/-- The same at a launch memory `m` on device `c`, the chain of tables spelt out. -/
theorem ref_value (m : (ℓ : Loc nD τ sig) → Buf (Elt Ideal) ℓ) (c : Dev nD) :
    StableHlo.after (RefRun.ops (F := Ideal)) (fun b => m (c, b)) (Proc.devRef .tc main_v159)
      = (let a0 : FVec Ideal S50000x64 .f32 := m ((c.tc : Thread nD τ).loc main_arg0)
         let a1 : FVec Ideal S100000x64 .f32 := m ((c.tc : Thread nD τ).loc main_arg1)
         let a2 : FVec Ideal S3x64x64 .f32 := m ((c.tc : Thread nD τ).loc main_arg2)
         let a3 : FVec Ideal S3x64 .f32 := m ((c.tc : Thread nD τ).loc main_arg3)
         let a4 : FVec Ideal S3x64x64 .f32 := m ((c.tc : Thread nD τ).loc main_arg4)
         let a5 : FVec Ideal S3x64 .f32 := m ((c.tc : Thread nD τ).loc main_arg5)
         let a6 : FVec Ideal S2000000 .f32 := m ((c.tc : Thread nD τ).loc main_arg6)
         let a7 : IVec S2000000 32 := m ((c.tc : Thread nD τ).loc main_arg7)
         let a8 : IVec S2000000 32 := m ((c.tc : Thread nD τ).loc main_arg8)
         let a9 : IVec S8192 32 := m ((c.tc : Thread nD τ).loc main_arg9)
         let a10 : IVec S8192 32 := m ((c.tc : Thread nD τ).loc main_arg10)
         let a11 : IVec S8192 32 := m ((c.tc : Thread nD τ).loc main_arg11)
         let e0 := hEmb0 a0 a1
         let e1 := hNew 0 slices_S3x64x64_S1x64x64_0_0_0 slices_S3x64_S1x64_0_0 e0 (hSpmm a6 a7 a8 e0) a2 a3 a4 a5
         let e2 := hNew 1 slices_S3x64x64_S1x64x64_1_0_0 slices_S3x64_S1x64_1_0 e1 (hSpmm a6 a7 a8 e1) a2 a3 a4 a5
         let e3 := hNew 2 slices_S3x64x64_S1x64x64_2_0_0 slices_S3x64_S1x64_2_0 e2 (hSpmm a6 a7 a8 e2) a2 a3 a4 a5
         let fin := hFin e0 (hNorm e1) (hNorm e2) (hNorm e3)
         Cert.NgcfLoss.refTail (hBu fin a9) (hBp fin a10) (hBp fin a11)) :=
  after_v159 (fun b => m (c, b))

end Cert.ReferenceIdeal.RefValue

end
-- ==== Proof.Bridge.lean ====
/-
  THE TWO RESULTS ARE ONE EXTENDED REAL: the reference's result, read back off its run, and the kernel program's, read
  through its fold, are both the common value of their arguments, and the arguments agree.
-/
import proofs.«125397_j74723841016248_1_alg».proof.Proof.BridgeFold
import proofs.«125397_j74723841016248_1_alg».proof.Proof.RefValue

noncomputable section

namespace Cert.Bridge

open Idealize.ShloMosaic Idealize.ShloMosaic.TcCoe Idealize.SL.Sem

/-- The reference's result is the common value of its arguments. -/
theorem ref_value_spec (m' : (ℓ : Loc Cert.ReferenceIdeal.nD Cert.ReferenceIdeal.τ Cert.ReferenceIdeal.sig) → Buf (Elt Ideal) ℓ)
    (c : Dev Cert.ReferenceIdeal.nD) :
    StableHlo.after (Cert.ReferenceIdeal.RefRun.ops (F := Ideal)) (fun b => m' (c, b)) (Proc.devRef .tc Cert.ReferenceIdeal.main_v159)
      = specOut (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11)) := by
  rw [Cert.ReferenceIdeal.RefValue.ref_value m' c]
  exact ref_spec _ _ _ _ _ _ _ _ _ _ _ _ _ _ _ _ _ _ _ _ _ _ _ _ _ _ rfl rfl rfl rfl rfl rfl rfl rfl

/-- From memories that agree on the twelve arguments, the reference's result is the kernel program's. -/
theorem value_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    StableHlo.after (Cert.ReferenceIdeal.RefRun.ops (F := Ideal)) (fun b => m' (c, b)) (Proc.devRef .tc Cert.ReferenceIdeal.main_v159)
      = Cert.KernelIdeal.GenH.W9 m ρ c (Proc.devRef .tc Cert.KernelIdeal.main_v98) := by
  obtain ⟨h0, h1, h2, h3, h4, h5, h6, h7, h8, h9, h10, h11⟩ := h
  refine (ref_value_spec m' c).trans ?_
  rw [h0, h1, h2, h3, h4, h5, h6, h7, h8, h9, h10, h11]
  exact (ker_value m ρ c).symm

end Cert.Bridge

end
-- ==== Proof.lean ====
/-
  The five claims of this certificate, assembled.

  The kernel program is four pallas_calls among five stretches of host operations: three layers of a graph network
  (each a sparse neighbourhood sum on the host followed by a tiled dense kernel: two dense layers, a leaky rectifier,
  row normalisation) and a tiled per-example loss, then the mean on the host.  The reference computes the same on
  whole arrays on the host.  The two frames of the kernel program are its run through the nine segments with every
  argument array read back unchanged; the reference's frame is its run with the result dropped.  At the ideal values
  the two programs' results are one function of the arguments: every output row of a layer depends only on the same
  rows of its tall inputs, so the kernel's blocks of rows tile the reference's whole-array layer; the sparse sums and
  the gathers are the same host operations on both sides; the per-example loss is the same function row by row, and
  the sum over an `[8192, 1]` column is the sum over the `[8192]` vector.  No sum is regrouped across an infinity, so the
  precondition is not used.
-/
import proofs.«125397_j74723841016248_1_alg».proof.Defs
import proofs.«125397_j74723841016248_1_alg».proof.Proof.Gen.Kernel
import proofs.«125397_j74723841016248_1_alg».proof.Proof.Gen.KernelIdeal
import proofs.«125397_j74723841016248_1_alg».proof.Proof.Gen.ReferenceIdeal
import proofs.«125397_j74723841016248_1_alg».proof.Proof.Gen.Pre_finite_inputs
import proofs.«125397_j74723841016248_1_alg».proof.Proof.KFrame
import proofs.«125397_j74723841016248_1_alg».proof.Proof.KIFrame
import proofs.«125397_j74723841016248_1_alg».proof.Proof.RefRun
import proofs.«125397_j74723841016248_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.GenH.frame m ρ

theorem frame_ki : Cert.frame_KernelIdeal (hKernelIdeal := Cert.KernelIdeal.Gen.facts) (hPre_finite_inputs := Cert.Pre_finite_inputs.Gen.facts) :=
  fun m ρ _ => Cert.KernelIdeal.GenH.frame m ρ

theorem frame_ri : Cert.frame_ReferenceIdeal (hReferenceIdeal := Cert.ReferenceIdeal.Gen.facts) (hPre_finite_inputs := Cert.Pre_finite_inputs.Gen.facts) :=
  fun m g _ => Cert.ReferenceIdeal.RefRun.frame m g

/-- The ideal pass rewrote nothing. -/
theorem preserves : Cert.preserves_Kernel_KernelIdeal := trivial

open Cert.KernelIdeal Cert.KernelIdeal.GenH in
/-- Both runs end, the kernel program's result is what its fold through the nine segments leaves in the result buffer,
    and the reference's result is the same extended real (`Cert.Bridge.value_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => W9 m ρ c (Proc.devRef .tc main_v98), ?_, ?_⟩
  · exact (θ_run Cert.KernelIdeal.defs _ _).mono (fun _ h c =>
      ⟨h c _ (mem_uc main_v98 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩) (run_all m ρ)
  · exact (θ_run Cert.ReferenceIdeal.defs _ _).mono (fun _ h c =>
      ⟨(h c).1.trans (Cert.Bridge.value_eq m ρ m' c (hagree c)), (h c).2⟩) (Cert.ReferenceIdeal.RefRun.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
